-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S128x256 : Shape := ⟨2, ![128, 256]⟩
abbrev S256 : Shape := ⟨1, ![256]⟩
abbrev S256x128 : Shape := ⟨2, ![256, 128]⟩
abbrev S128 : Shape := ⟨1, ![128]⟩
abbrev S272x256 : Shape := ⟨2, ![272, 256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S272x256 : S_.BroadcastsInDim S272x256 (![] : Fin 0 → Fin S272x256.rank)
  reducesTo_S272x256_S_d0_1 : S272x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x16 .f32) (main_arg14 : FVec F S16 .f32) (main_v48 : IVec S_ 1) (main_v49 : FVec F S272x256 .f32) (main_v50 : FVec F S272x256 .f32) : IVec S_ 1 :=
  let main_v51 : IVec S272x256 1 := cmpf .olt main_v49 main_v50
  let main_c_19 : IVec S_ 1 := constantI S_ 1 1#1
  let main_v52 : IVec S_ 1 := (fun x v => Host.reduce IntOp.andi x v reducesTo_S272x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x16 .f32 := Host.absf main_arg13
  let main_cst_22 : FVec F S_ .f32 := constant S_ .f32 0x7F800000#32
  let main_v60 : FVec F S256x16 .f32 := broadcastInDim S256x16 ![] bcast_S_S256x16 main_cst_22
  let main_v61 : IVec S256x16 1 := cmpf .olt main_v59 main_v60
  let main_c_23 : IVec S_ 1 := constantI S_ 1 1#1
  let main_v62 : IVec S_ 1 := (fun x v => Host.reduce IntOp.andi x v reducesTo_S256x16_S_d0_1 h_S_) main_v61 main_c_23
  let main_v63 : IVec S_ 1 := andi main_v58 main_v62
  let main_v64 : FVec F S16 .f32 := Host.absf main_arg14
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg8 : FVec F S256 .f32) (main_arg9 : FVec F S256x128 .f32) (main_arg10 : FVec F S128 .f32) (main_arg11 : FVec F S272x256 .f32) (main_arg12 : FVec F S256 .f32) (main_arg13 : FVec F S256x16 .f32) (main_arg14 : FVec F S16 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S272x256 .f32 := Host.absf main_arg11
  let main_cst_18 : FVec F S_ .f32 := constant S_ .f32 0x7F800000#32
  let main_v50 : FVec F S272x256 .f32 := broadcastInDim S272x256 ![] bcast_S_S272x256 main_cst_18
  fn_part3 (F := F) main_arg12 main_arg13 main_arg14 main_v48 main_v49 main_v50

def fn_part1 {F : FTy → Type} [FloatOps F] (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S272x256 .f32) (main_arg12 : FVec F S256 .f32) (main_arg13 : FVec F S256x16 .f32) (main_arg14 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S800000x16 .f32) (main_arg3 : FVec F S128x256 .f32) (main_arg4 : FVec F S256 .f32) (main_arg5 : FVec F S256x128 .f32) (main_arg6 : FVec F S128 .f32) (main_arg7 : FVec F S128x256 .f32) (main_arg8 : FVec F S256 .f32) (main_arg9 : FVec F S256x128 .f32) (main_arg10 : FVec F S128 .f32) (main_arg11 : FVec F S272x256 .f32) (main_arg12 : FVec F S256 .f32) (main_arg13 : FVec F S256x16 .f32) (main_arg14 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S128x256 : Shape := ⟨2, ![128, 256]⟩
abbrev S256 : Shape := ⟨1, ![256]⟩
abbrev S256x128 : Shape := ⟨2, ![256, 128]⟩
abbrev S128 : Shape := ⟨1, ![128]⟩
abbrev S272x256 : Shape := ⟨2, ![272, 256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x272 : Shape := ⟨2, ![800000, 272]⟩
abbrev S1x16 : Shape := ⟨2, ![1, 16]⟩
abbrev S4000x272 : Shape := ⟨2, ![4000, 272]⟩
abbrev S4000x16 : Shape := ⟨2, ![4000, 16]⟩
abbrev S4000x256 : Shape := ⟨2, ![4000, 256]⟩

abbrev nBuf : Space → Nat
  | .hbm => 121
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S272x256, .f32⟩
  | .hbm, ⟨12, _⟩ => ⟨S256, .f32⟩
  | .hbm, ⟨13, _⟩ => ⟨S256x16, .f32⟩
  | .hbm, ⟨14, _⟩ => ⟨S16, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000, .i32⟩
  | .hbm, ⟨20, _⟩ => ⟨S850000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x256, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x256, .f32⟩
  | .hbm, ⟨68, _⟩ => ⟨S850000x1, .f32⟩
  | .hbm, ⟨69, _⟩ => ⟨S850000x256, .f32⟩
  | .hbm, ⟨70, _⟩ => ⟨S850000x256, .f32⟩
  | .hbm, ⟨71, _⟩ => ⟨S_, .f32⟩
  | .hbm, ⟨72, _⟩ => ⟨S50000x256, .f32⟩
  | .hbm, ⟨73, _⟩ => ⟨S850000x1, .i32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x128, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x1, .f32⟩
  | .hbm, ⟨88, _⟩ => ⟨S850000x128, .f32⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S1x256, .f32⟩
  | .hbm, ⟨97, _⟩ => ⟨S1x128, .f32⟩
  | .hbm, ⟨98, _⟩ => ⟨S50000x128, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S_, .i32⟩
  | .hbm, ⟨109, _⟩ => ⟨S800000, .i32⟩
  | .hbm, ⟨110, _⟩ => ⟨S800000, .i1⟩
  | .hbm, ⟨111, _⟩ => ⟨S_, .i32⟩
  | .hbm, ⟨112, _⟩ => ⟨S800000, .i32⟩
  | .hbm, ⟨113, _⟩ => ⟨S800000, .i32⟩
  | .hbm, ⟨114, _⟩ => ⟨S800000, .i32⟩
  | .hbm, ⟨115, _⟩ => ⟨S800000x1, .i32⟩
  | .hbm, ⟨116, _⟩ => ⟨S800000x128, .f32⟩
  | .hbm, ⟨117, _⟩ => ⟨S800000x272, .f32⟩
  | .hbm, ⟨118, _⟩ => ⟨S1x256, .f32⟩
  | .hbm, ⟨119, _⟩ => ⟨S1x16, .f32⟩
  | .hbm, ⟨120, _⟩ => ⟨S800000x16, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S4000x272, .f32⟩
  | .local _ .vmem, ⟨29, _⟩ => ⟨S4000x272, .f32⟩
  | .local _ .vmem, ⟨30, _⟩ => ⟨S272x256, .f32⟩
  | .local _ .vmem, ⟨31, _⟩ => ⟨S1x256, .f32⟩
  | .local _ .vmem, ⟨32, _⟩ => ⟨S256x16, .f32⟩
  | .local _ .vmem, ⟨33, _⟩ => ⟨S1x16, .f32⟩
  | .local _ .vmem, ⟨34, _⟩ => ⟨S4000x16, .f32⟩
  | .local _ .vmem, ⟨35, _⟩ => ⟨S4000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_c_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x272 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S272x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x16 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  shapeCasts_S16_S1x16 : S16.ShapeCasts S1x16
  inb_S4000x272_S4000x272_0_0 : ∀ a, (![0, 0] : Fin 2 → Nat) a + S4000x272.size a ≤ S4000x272.size a
  h_S4000x272 : 0 < S4000x272.numel
  shapeCasts_S4000x272_S4000x272 : S4000x272.ShapeCasts S4000x272
  inb_S272x256_S272x256_0_0 : ∀ a, (![0, 0] : Fin 2 → Nat) a + S272x256.size a ≤ S272x256.size a
  h_S272x256 : 0 < S272x256.numel
  broadcasts_S1x256_S4000x256 : S1x256.Broadcasts S4000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S4000x272_S272x256_S4000x256_1_0_0_1_n_n_wf : DotDims.WF S4000x272 S272x256 S4000x256 [1] [0] [0] [1] [] []
  dot_S4000x256_S256x16_S4000x16_1_0_0_1_n_n_wf : DotDims.WF S4000x256 S256x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x272.size a ≤ S800000x272.size a
  hwx5_0 : ∀ i : grid5.Coords, EltTy.bits .f32 = 32 ∨ (Rect.block (s := S800000x272) S4000x272.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S272x256.size a ≤ S272x256.size a
  hwx5_1 : ∀ i : grid5.Coords, EltTy.bits .f32 = 32 ∨ (Rect.block (s := S272x256) S272x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x16.size a ≤ S256x16.size a
  hwx5_3 : ∀ i : grid5.Coords, EltTy.bits .f32 = 32 ∨ (Rect.block (s := S256x16) S256x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x16.size a ≤ S800000x16.size a
  hwx5_5 : ∀ i : grid5.Coords, EltTy.bits .f32 = 32 ∨ (Rect.block (s := S800000x16) S4000x16.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x272_S272x256_S4000x256_1_0_0_1_n_n : DotDims S4000x272 S272x256 S4000x256 where
  lhsContracting := [1]
  rhsContracting := [0]
  lhsNonContracting := [0]
  rhsNonContracting := [1]
  lhsBatch := []
  rhsBatch := []
  wf := dot_S4000x272_S272x256_S4000x256_1_0_0_1_n_n_wf
def dot_S4000x256_S256x16_S4000x16_1_0_0_1_n_n : DotDims S4000x256 S256x16 S4000x16 where
  lhsContracting := [1]
  rhsContracting := [0]
  lhsNonContracting := [0]
  rhsNonContracting := [1]
  lhsBatch := []
  rhsBatch := []
  wf := dot_S4000x256_S256x16_S4000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S4000x272.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S272x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S256x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S4000x16.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S128x256 : Shape := ⟨2, ![128, 256]⟩
abbrev S256 : Shape := ⟨1, ![256]⟩
abbrev S256x128 : Shape := ⟨2, ![256, 128]⟩
abbrev S128 : Shape := ⟨1, ![128]⟩
abbrev S272x256 : Shape := ⟨2, ![272, 256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x272 : Shape := ⟨2, ![800000, 272]⟩
abbrev S800000x256 : Shape := ⟨2, ![800000, 256]⟩
abbrev S1x16 : Shape := ⟨2, ![1, 16]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S128x256, .f32⟩
  | 4 => ⟨S256, .f32⟩
  | 5 => ⟨S256x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S272x256, .f32⟩
  | 12 => ⟨S256, .f32⟩
  | 13 => ⟨S256x16, .f32⟩
  | 14 => ⟨S16, .f32⟩
  | 15 => ⟨S1x800000, .i32⟩
  | 16 => ⟨S800000, .i32⟩
  | 17 => ⟨S1x800000, .i32⟩
  | 18 => ⟨S800000, .i32⟩
  | 19 => ⟨S50000, .i32⟩
  | 20 => ⟨S850000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x1, .f32⟩
  | 69 => ⟨S850000x256, .f32⟩
  | 70 => ⟨S850000x256, .f32⟩
  | 71 => ⟨S_, .f32⟩
  | 72 => ⟨S50000x256, .f32⟩
  | 73 => ⟨S850000x1, .i32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x1, .f32⟩
  | 92 => ⟨S850000x128, .f32⟩
  | 93 => ⟨S850000x128, .f32⟩
  | 94 => ⟨S_, .f32⟩
  | 95 => ⟨S50000x128, .f32⟩
  | 96 => ⟨S850000x1, .i32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S50000x256, .f32⟩
  | 110 => ⟨S50000x256, .f32⟩
  | 111 => ⟨S50000x128, .f32⟩
  | 112 => ⟨S1x128, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S800000x272, .f32⟩
  | 6 => ⟨S800000x256, .f32⟩
  | 7 => ⟨S1x256, .f32⟩
  | 8 => ⟨S800000x256, .f32⟩
  | 9 => ⟨S800000x256, .f32⟩
  | 10 => ⟨S_, .f32⟩
  | 11 => ⟨S800000x256, .f32⟩
  | 12 => ⟨S800000x256, .f32⟩
  | 13 => ⟨S800000x16, .f32⟩
  | 14 => ⟨S1x16, .f32⟩
  | 15 => ⟨S800000x16, .f32⟩
  | 16 => ⟨S800000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call2_cst : Ref sig .tc := ⟨.hbm, 101, rfl⟩
abbrev main_call2_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_call3_cst : Ref sig .tc := ⟨.hbm, 108, rfl⟩
abbrev main_call3_v0 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_13 : Ref sig .tc := ⟨.hbm, 115, rfl⟩
abbrev main_v77 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_15 : Ref sig .tc := ⟨.hbm, 124, rfl⟩
abbrev main_v84 : Ref sig .tc := ⟨.hbm, 125, rfl⟩
abbrev main_v85 : Ref sig .tc := ⟨.hbm, 126, rfl⟩
abbrev main_c_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call4_cst : Ref sig .tc := ⟨.hbm, 138, rfl⟩
abbrev main_call4_v0 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x272_d1 : Shape.Concatenates [S800000x128, S800000x128, S800000x16] S800000x272 1
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x272_S272x256_S800000x256_1_0_0_1_n_n_wf : DotDims.WF S800000x272 S272x256 S800000x256 [1] [0] [0] [1] [] []
  dot_S800000x256_S256x16_S800000x16_1_0_0_1_n_n_wf : DotDims.WF S800000x256 S256x16 S800000x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x272_S272x256_S800000x256_1_0_0_1_n_n : DotDims S800000x272 S272x256 S800000x256 where
  lhsContracting := [1]
  rhsContracting := [0]
  lhsNonContracting := [0]
  rhsNonContracting := [1]
  lhsBatch := []
  rhsBatch := []
  wf := dot_S800000x272_S272x256_S800000x256_1_0_0_1_n_n_wf
def dot_S800000x256_S256x16_S800000x16_1_0_0_1_n_n : DotDims S800000x256 S256x16 S800000x16 where
  lhsContracting := [1]
  rhsContracting := [0]
  lhsNonContracting := [0]
  rhsNonContracting := [1]
  lhsBatch := []
  rhsBatch := []
  wf := dot_S800000x256_S256x16_S800000x16_1_0_0_1_n_n_wf

class Facts : Prop extends Facts₀ where

variable [Facts]
-- ==== Proof.Words.InputProjection.lean ====
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The input projection: a 50000×128 by 128×256 product, 2000 rows at a time

The first product of the program, `Y = X · W` with `X` 50000×128, `W` 128×256 and `Y` 50000×256, all stored as
32-bit floats. It runs over 25 grid points; at point `t` its body is handed rows `2000 t … 2000 t + 1999` of `X`, the whole of
`W`, and the buffer for the same rows of `Y`. The body rounds both factors to bfloat16, multiplies them accumulating
in 32-bit floats from zero, and writes the 2000×256 product over the whole of the `Y` buffer. So row `2000 t + r` of `Y`
depends on row `2000 t + r` of `X` and on all of `W`, on no other row of `X`, and on nothing `Y` held before.

This file states that, at any contents `V` of the core's buffers when the product is entered: the blocks (`iblk0`), what
the body leaves in the `Y` buffer as a function of the two blocks (`out0_2`), the body's triple (`sound_kernel0`), and
from them the product's proof data (`dat0`) and its body obligation (`body_obligation0`).
-/

-- membership of an index in a rectangle with a 2000-long axis is looked at once per coordinate of that axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the product is entered: every statement below is at an arbitrary such `V`
variable (V : (c : Dev nD) → (b : Ref sig .tc) → Buf (Elt F) ((c : Thread nD τ).loc b))

/-! ## The blocks -/

/-- Window `w`'s block at grid point `t`, read off its array as the product finds it: for window 0 the rows
    `2000 t … 2000 t + 1999` of the 50000×128 left factor, for window 1 the whole 128×256 right factor (the same at
    every `t`), for window 2 the rows `2000 t … 2000 t + 1999` of the 50000×256 result array as it was before. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's row block is in its buffer whenever the body runs: it is brought in at every point, its block
    is whole (no row is cut off: 25 blocks of 2000 rows are the 50000 rows), and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is in its buffer whenever the body runs, although it is brought in at the first point only:
    its block index is `(0, 0)` at every point, so at a later point the buffer still holds what the point before
    left there, which is the same whole matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

/-- all 2000×128 entries of the left factor's row block, -/
abbrev r0_0 : Rect S2000x128 := Rect.unit (s := S2000x128) ![0, 0] S2000x128.size inb_S2000x128_S2000x128_0_0
/-- all 128×256 entries of the right factor, -/
abbrev r0_1 : Rect S128x256 := Rect.unit (s := S128x256) ![0, 0] S128x256.size inb_S128x256_S128x256_0_0
/-- all 2000×256 entries of the result's row block. -/
abbrev r0_2 : Rect S2000x256 := Rect.unit (s := S2000x256) ![0, 0] S2000x256.size inb_S2000x256_S2000x256_0_0

/-! ## What the body leaves in the result's buffer -/

/-- The result's row block after the body, from the two factors' blocks `x0` (rows) and `x1` (the matrix): the one
    write, over the whole block, of `bf16(x0) · bf16(x1)`, each of its 2000×256 entries a sum of 128 products accumulated in 32-bit floats from zero.
    Entry `(r, j)` is a function of row `r` of `x0` and column `j` of `x1` alone, and of nothing the block held before. -/
def out0_2 (x0 : Vec F S2000x128 .f32) (x1 : Vec F S128x256 .f32) : Vec F S2000x256 .f32 :=
  View.canon [⟨r0_2, k0_pay1 (View.ld x0 r0_0) (View.ld x1 r0_1)⟩]

/-- That one write covers the block: its rectangle is the block itself (one tile of the block's own size). -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The body on three whole buffers — the factors' holding `x0` and `x1`, the result's holding anything — runs to a
    state where the factors' buffers hold what they held and the result's holds `out0_2 x0 x1`. It reads the two
    factors, reads the result's buffer too (a value it never uses, so what the buffer held does not matter), and
    writes the product over the whole buffer; the grid coordinate `i` is not used. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The product's proof data -/

/-- On core `c`: the three arrays as the product finds them; after the body at point `t` the factors' buffers hold
    their blocks and the result's holds `out0_2` of them; the rest of the core's state is not touched; nothing is
    owed; every buffer is owned whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the contents at entry. -/
theorem A_eq0 (c : Dev nD) (w : Fin cfg0.W) : (dat0 V c).A w = V c (Pipeline.arrRef spec0 w) := by
  dsimp only [dat0]

/-- What the body leaves, window by window: each factor's block where it was, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- and in the result's buffer the product of the row block at `t` with the matrix. -/
theorem after0_2 (c : Dev nD) (t : Fin cfg0.N) : (dat0 V c).after 2 t = out0_2 (iblk0 V c 0 t) (iblk0 V c 1 t) := by dsimp only [dat0]

/-- Each factor's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point `t`: the untouched rest, what is owed, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so the triple above applies with `x0`, `x1` the
    blocks at `t`; the rest of the state and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Layers

end
-- ==== Proof.Words.FirstActivation.lean ====
/- Region 1 of @main, the first bias-plus-relu kernel (pipeline 1), at a PARAMETER `V`: the TensorCore's
   buffer contents when the region is entered. Its three windows: 0, a 2000×256 row block of the aggregated
   activations, moved at every grid point; 1, the 1×256 bias row, the same block at every point; 2, the output
   row block, written back at every point. Here: each window's block at a point, what the body leaves in the
   output window's buffer as a closed function of the two input blocks (relu of the row block plus the bias row
   broadcast along the rows), the body's triple, the pipeline's proof data, and the body obligation at every
   point of the grid. Everything is stated for any float interpretation `F`. -/
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2000×256: the structural check recurses once per coordinate of the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns its index map selects there, read off its array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block) holds its block at every point, for ANY proof data whose array is `V`'s (`hA`)
    and whose body leaves the block in place (`hafter`). The window is an input, is never idle and is not cut, so
    what its buffer holds at a point is what a transfer there brings: the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the bias row) holds its block at every point, under the same two hypotheses. It is moved at the
    first point only; at a later point its block index has not changed since the point before, the body left the
    block in place there, and the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000×256 buffer: what the body loads of window 0, and the one rectangle it stores over in window 2. -/
abbrev r1_0 : Rect S2000x256 := Rect.unit (s := S2000x256) ![0, 0] S2000x256.size inb_S2000x256_S2000x256_0_0
/-- The whole 1×256 buffer: what the body loads of window 1. -/
abbrev r1_1 : Rect S1x256 := Rect.unit (s := S1x256) ![0, 0] S1x256.size inb_S1x256_S1x256_0_0

/-! ## What the body leaves in the output window's buffer -/

/-- Window 2's buffer after the body, from the two input blocks: its one store as a list of pieces. The payload is
    the maximum with zero of (row block + bias row broadcast along the rows); it does not depend on what the output
    buffer held before, although the body loads that too. -/
def out1_2 (x0 : Vec F S2000x256 .f32) (x1 : Vec F S1x256 .f32) : Vec F S2000x256 .f32 :=
  View.canon [⟨r1_0, k1_pay1 (View.ld x0 r1_0) (View.ld x1 r1_1)⟩]

/-- The one store is over the whole buffer, so it covers it: every index lies in the stored rectangle. -/
theorem cover1_2 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The kernel body at any grid coordinate `i`, on whole staging memrefs — the inputs' at read contents `x0`, `x1`,
    the output's at anything — runs to the continuation holding the inputs' as they were and the output's at
    `out1_2 x0 x1`. The body is three whole-buffer loads (the third, of the output buffer, is of a value it never
    uses) and one whole-buffer store; what any view reads after a store covering the buffer is the stored piece. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the two input blocks; the invariant is
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, moved there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, what the core owes, and the three windows' current
    staging buffers, one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so the body's triple
    applies at the point's coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point: the three windows conjoined one by one. -/
theorem body_obligation1 (c : Dev nD) : BodyObligation (dat1 (F := F) V c) (defs₀ (F := F)) Variants.none () Set.univ := fun t => by
  rw [bigSep_W1, bigSep_W1]
  exact sound_body1 V c t

end Cert.Kernel.Layers

end
-- ==== Proof.Words.HiddenProjection.lean ====
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The hidden projection: a 50000×256 by 256×128 product, 2000 rows at a time

The second product of the program, `Y = X · W` with `X` 50000×256 (the first product's result after a bias row was added
to every row and negative entries were replaced by zero), `W` 256×128 and `Y` 50000×128, all stored as 32-bit floats. It runs over 25 grid points; at point `t` its body is handed rows
`2000 t … 2000 t + 1999` of `X`, the whole of `W`, and the buffer for the same rows of `Y`. The body rounds both factors to
bfloat16, multiplies them accumulating in 32-bit floats from zero, and writes the 2000×128 product over the whole of the
`Y` buffer. So row `2000 t + r` of `Y` depends on row `2000 t + r` of `X` and on all of `W`, on no other row of `X`, and on
nothing `Y` held before.

This file states that, at any contents `V` of the core's buffers when the product is entered: the blocks (`iblk2`), what
the body leaves in the `Y` buffer as a function of the two blocks (`out2_2`), the body's triple (`sound_kernel2`), and
from them the product's proof data (`dat2`) and its body obligation (`body_obligation2`).
-/

-- membership of an index in a rectangle with a 2000-long axis is looked at once per coordinate of that axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the product is entered: every statement below is at an arbitrary such `V`
variable (V : (c : Dev nD) → (b : Ref sig .tc) → Buf (Elt F) ((c : Thread nD τ).loc b))

/-! ## The blocks -/

/-- Window `w`'s block at grid point `t`, read off its array as the product finds it: for window 0 the rows
    `2000 t … 2000 t + 1999` of the 50000×256 left factor, for window 1 the whole 256×128 right factor (the same at
    every `t`), for window 2 the rows `2000 t … 2000 t + 1999` of the 50000×128 result array as it was before. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's row block is in its buffer whenever the body runs: it is brought in at every point, its block
    is whole (no row is cut off: 25 blocks of 2000 rows are the 50000 rows), and the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor is in its buffer whenever the body runs, although it is brought in at the first point only:
    its block index is `(0, 0)` at every point, so at a later point the buffer still holds what the point before
    left there, which is the same whole matrix. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

/-- all 2000×256 entries of the left factor's row block, -/
abbrev r2_0 : Rect S2000x256 := Rect.unit (s := S2000x256) ![0, 0] S2000x256.size inb_S2000x256_S2000x256_0_0
/-- all 256×128 entries of the right factor, -/
abbrev r2_1 : Rect S256x128 := Rect.unit (s := S256x128) ![0, 0] S256x128.size inb_S256x128_S256x128_0_0
/-- all 2000×128 entries of the result's row block. -/
abbrev r2_2 : Rect S2000x128 := Rect.unit (s := S2000x128) ![0, 0] S2000x128.size inb_S2000x128_S2000x128_0_0

/-! ## What the body leaves in the result's buffer -/

/-- The result's row block after the body, from the two factors' blocks `x0` (rows) and `x1` (the matrix): the one
    write, over the whole block, of `bf16(x0) · bf16(x1)`, each of its 2000×128 entries a sum of 256 products accumulated in 32-bit floats from zero.
    Entry `(r, j)` is a function of row `r` of `x0` and column `j` of `x1` alone, and of nothing the block held before. -/
def out2_2 (x0 : Vec F S2000x256 .f32) (x1 : Vec F S256x128 .f32) : Vec F S2000x128 .f32 :=
  View.canon [⟨r2_2, k2_pay1 (View.ld x0 r2_0) (View.ld x1 r2_1)⟩]

/-- That one write covers the block: its rectangle is the block itself (one tile of the block's own size). -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- The body on three whole buffers — the factors' holding `x0` and `x1`, the result's holding anything — runs to a
    state where the factors' buffers hold what they held and the result's holds `out2_2 x0 x1`. It reads the two
    factors, reads the result's buffer too (a value it never uses, so what the buffer held does not matter), and
    writes the product over the whole buffer; the grid coordinate `i` is not used. -/
theorem sound_kernel2 (c : Dev nD) (E : Set ℕ) (i : grid2.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The product's proof data -/

/-- On core `c`: the three arrays as the product finds them; after the body at point `t` the factors' buffers hold
    their blocks and the result's holds `out2_2` of them; the rest of the core's state is not touched; nothing is
    owed; every buffer is owned whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the contents at entry. -/
theorem A_eq2 (c : Dev nD) (w : Fin cfg2.W) : (dat2 V c).A w = V c (Pipeline.arrRef spec2 w) := by
  dsimp only [dat2]

/-- What the body leaves, window by window: each factor's block where it was, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
/-- and in the result's buffer the product of the row block at `t` with the matrix. -/
theorem after2_2 (c : Dev nD) (t : Fin cfg2.N) : (dat2 V c).after 2 t = out2_2 (iblk2 V c 0 t) (iblk2 V c 1 t) := by dsimp only [dat2]

/-- Each factor's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is entered with at point `t`: the untouched rest, what is owed, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' buffers hold their blocks, so the triple above applies with `x0`, `x1` the
    blocks at `t`; the rest of the state and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Layers

end
-- ==== Proof.Words.SecondActivation.lean ====
/- Region 3 of @main, the second bias-plus-relu kernel (pipeline 3), at a PARAMETER `V`: the TensorCore's
   buffer contents when the region is entered. Its three windows: 0, a 2000×128 row block of the aggregated
   activations, moved at every grid point; 1, the 1×128 bias row, the same block at every point; 2, the output
   row block, written back at every point. Here: each window's block at a point, what the body leaves in the
   output window's buffer as a closed function of the two input blocks (relu of the row block plus the bias row
   broadcast along the rows), the body's triple, the pipeline's proof data, and the body obligation at every
   point of the grid. Everything is stated for any float interpretation `F`. -/
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2000×128: the structural check recurses once per coordinate of the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns its index map selects there, read off its array as the
    region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for ANY proof data whose array is `V`'s (`hA`)
    and whose body leaves the block in place (`hafter`). The window is an input, is never idle and is not cut, so
    what its buffer holds at a point is what a transfer there brings: the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the bias row) holds its block at every point, under the same two hypotheses. It is moved at the
    first point only; at a later point its block index has not changed since the point before, the body left the
    block in place there, and the previous point's block is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000×128 buffer: what the body loads of window 0, and the one rectangle it stores over in window 2. -/
abbrev r3_0 : Rect S2000x128 := Rect.unit (s := S2000x128) ![0, 0] S2000x128.size inb_S2000x128_S2000x128_0_0
/-- The whole 1×128 buffer: what the body loads of window 1. -/
abbrev r3_1 : Rect S1x128 := Rect.unit (s := S1x128) ![0, 0] S1x128.size inb_S1x128_S1x128_0_0

/-! ## What the body leaves in the output window's buffer -/

/-- Window 2's buffer after the body, from the two input blocks: its one store as a list of pieces. The payload is
    the maximum with zero of (row block + bias row broadcast along the rows); it does not depend on what the output
    buffer held before, although the body loads that too. -/
def out3_2 (x0 : Vec F S2000x128 .f32) (x1 : Vec F S1x128 .f32) : Vec F S2000x128 .f32 :=
  View.canon [⟨r3_0, k3_pay1 (View.ld x0 r3_0) (View.ld x1 r3_1)⟩]

/-- The one store is over the whole buffer, so it covers it: every index lies in the stored rectangle. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body at any grid coordinate `i`, on whole staging memrefs — the inputs' at read contents `x0`, `x1`,
    the output's at anything — runs to the continuation holding the inputs' as they were and the output's at
    `out3_2 x0 x1`. The body is three whole-buffer loads (the third, of the output buffer, is of a value it never
    uses) and one whole-buffer store; what any view reads after a store covering the buffer is the stored piece. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the two input blocks; the invariant is
    "the scoped rest and the generator register, untouched"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected; `V` is never unfolded). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, moved there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, what the core owes, and the three windows' current
    staging buffers, one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so the body's triple
    applies at the point's coordinates; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point: the three windows conjoined one by one. -/
theorem body_obligation3 (c : Dev nD) : BodyObligation (dat3 (F := F) V c) (defs₀ (F := F)) Variants.none () Set.univ := fun t => by
  rw [bigSep_W3, bigSep_W3]
  exact sound_body3 V c t

end Cert.Kernel.Layers

end
-- ==== Proof.Words.NodeMlp.lean ====
/- Pipeline region 4 of @main: the fused two-layer perceptron `cc4__mlp2_kernel` — the node update, 25 grid points of 2000-row blocks.
   At a PARAMETER `V`, the TensorCore's buffer contents when the region is entered: each window's block at a grid
   point (`iblk4`); what the body leaves in the output window's buffer, as a closed function of the five input
   blocks (`out4_5`); the body's triple (`sound_kernel4`); the pipeline's proof data (`dat4`) and the body
   obligation at every grid point (`body_obligation4`).
   The body reads six windows: 0 the input's row block (fetched at every point), 1..4 the first weight matrix, the
   first bias row, the second weight matrix and the second bias row (each one block, the whole array, fetched at the
   first point only), 5 the output's row block (written back at every point). It loads windows 0..4 whole, loads the
   output block too (a value nothing reads), and stores
     (relu (bf16(x0) · bf16(x1) + x2) as bf16) · bf16(x3) + x4   (each product accumulated in f32)
   over the whole output block. So the output block at a point depends on row block `t` of the input and on the four
   parameter arrays, and on nothing the region wrote earlier. -/
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 (and 5) rows
    `2000·t … 2000·t + 1999` of the array, for windows 1..4 the whole array at every `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the input's row block) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the first weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the first bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the second weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the second bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole of a window's buffer -/

abbrev r4_0 : Rect S2000x128 := Rect.unit (s := S2000x128) ![0, 0] S2000x128.size inb_S2000x128_S2000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S256x128 := Rect.unit (s := S256x128) ![0, 0] S256x128.size inb_S256x128_S256x128_0_0
abbrev r4_4 : Rect S1x128 := Rect.unit (s := S1x128) ![0, 0] S1x128.size inb_S1x128_S1x128_0_0
abbrev r4_5 : Rect S2000x128 := Rect.unit (s := S2000x128) ![0, 0] S2000x128.size inb_S2000x128_S2000x128_0_0

/-! ## What the body leaves in the output window's buffer -/

/-- Window 5's staging buffer after the body, from the five input windows' blocks: its one store, of the two-layer
    value of the blocks, over the whole buffer. Row `i` of the result depends on row `i` of `x0` and on all of
    `x1 … x4`. -/
def out4_5 (x0 : Vec F S2000x128 .f32) (x1 : Vec F S128x256 .f32) (x2 : Vec F S1x256 .f32) (x3 : Vec F S256x128 .f32) (x4 : Vec F S1x128 .f32) : Vec F S2000x128 .f32 :=
  View.canon [⟨r4_5, k4_pay1 (View.ld x0 r4_0) (View.ld x1 r4_1) (View.ld x2 r4_2) (View.ld x3 r4_3) (View.ld x4 r4_4)⟩]

/-- The store's rectangle is the whole buffer (one tile of the buffer's own size, checked by evaluation), so it covers it. -/
theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

/-! ## The body's triple -/

set_option maxHeartbeats 1000000 in
/-- The body at any grid coordinate `i` (which it does not read), on whole staging memrefs: the five inputs' at read
    contents `x0 … x4` and the output's at anything, it runs to the continuation holding the inputs' as they were and the
    output's at `out4_5 x0 … x4`. The function is its sequence of six whole-buffer loads and one whole-buffer store
    over the named payload; the sixth load reads the output buffer's prior contents, which nothing uses, and the
    store overwrites all of them. -/
theorem sound_kernel4 (c : Dev nD) (E : Set ℕ) (i : grid4.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S128x256 .f32) (x2 : Vec F S1x256 .f32) (x3 : Vec F S256x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp2_kernel i arg1 harg1 arg2 harg2 arg3 harg3 arg4 harg4 arg5 harg5 arg6 harg6) K := by
  simp only [cc4__mlp2_kernel_eq_skeleton]; unfold cc4__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the region on core `c`: the arrays as the region finds them (`V`); after the body at point `t`
    each input's buffer at its block and the output's at `out4_5` of the five input blocks; the invariant: the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected; `V` is never unfolded). -/
theorem A_eq4 (c : Dev nD) (w : Fin cfg4.W) : (dat4 V c).A w = V c (Pipeline.arrRef spec4 w) := by
  dsimp only [dat4]

/-- What the body leaves, window by window (the definition's case split reduced at each literal window). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, what the core owes, and the six windows' current
    staging buffers one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the five inputs' memrefs hold their blocks (`before4_w`), the output's holds anything, so
    `sound_kernel4` applies; the invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point (the six windows' conjunction written out). -/
theorem body_obligation4 (c : Dev nD) : BodyObligation (dat4 (F := F) V c) (defs₀ (F := F)) Variants.none () Set.univ := fun t => by
  rw [bigSep_W4, bigSep_W4]
  exact sound_body4 V c t

end Cert.Kernel.Layers

end
-- ==== Proof.Words.EdgeMlp.lean ====
/- Pipeline region 5 of @main: the fused two-layer perceptron `cc5__mlp2_kernel` — the edge update, 200 grid points of 4000-row blocks.
   At a PARAMETER `V`, the TensorCore's buffer contents when the region is entered: each window's block at a grid
   point (`iblk5`); what the body leaves in the output window's buffer, as a closed function of the five input
   blocks (`out5_5`); the body's triple (`sound_kernel5`); the pipeline's proof data (`dat5`) and the body
   obligation at every grid point (`body_obligation5`).
   The body reads six windows: 0 the input's row block (fetched at every point), 1..4 the first weight matrix, the
   first bias row, the second weight matrix and the second bias row (each one block, the whole array, fetched at the
   first point only), 5 the output's row block (written back at every point). It loads windows 0..4 whole, loads the
   output block too (a value nothing reads), and stores
     (relu (bf16(x0) · bf16(x1) + x2) as bf16) · bf16(x3) + x4   (each product accumulated in f32)
   over the whole output block. So the output block at a point depends on row block `t` of the input and on the four
   parameter arrays, and on nothing the region wrote earlier. -/
import proofs.«138351_j90890097918029_1_alg».proof.Proof.Gen.Kernel.Launch
import proofs.«138351_j90890097918029_1_alg».proof.Proof.Gen.Kernel.Skeleton
import proofs.«138351_j90890097918029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 (and 5) rows
    `4000·t … 4000·t + 3999` of the array, for windows 1..4 the whole array at every `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the input's row block) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the first weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the first bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the second weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the second bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole of a window's buffer -/

abbrev r5_0 : Rect S4000x272 := Rect.unit (s := S4000x272) ![0, 0] S4000x272.size inb_S4000x272_S4000x272_0_0
abbrev r5_1 : Rect S272x256 := Rect.unit (s := S272x256) ![0, 0] S272x256.size inb_S272x256_S272x256_0_0
abbrev r5_2 : Rect S1x256 := Rect.unit (s := S1x256) ![0, 0] S1x256.size inb_S1x256_S1x256_0_0
abbrev r5_3 : Rect S256x16 := Rect.unit (s := S256x16) ![0, 0] S256x16.size inb_S256x16_S256x16_0_0
abbrev r5_4 : Rect S1x16 := Rect.unit (s := S1x16) ![0, 0] S1x16.size inb_S1x16_S1x16_0_0
abbrev r5_5 : Rect S4000x16 := Rect.unit (s := S4000x16) ![0, 0] S4000x16.size inb_S4000x16_S4000x16_0_0

/-! ## What the body leaves in the output window's buffer -/

/-- Window 5's staging buffer after the body, from the five input windows' blocks: its one store, of the two-layer
    value of the blocks, over the whole buffer. Row `i` of the result depends on row `i` of `x0` and on all of
    `x1 … x4`. -/
def out5_5 (x0 : Vec F S4000x272 .f32) (x1 : Vec F S272x256 .f32) (x2 : Vec F S1x256 .f32) (x3 : Vec F S256x16 .f32) (x4 : Vec F S1x16 .f32) : Vec F S4000x16 .f32 :=
  View.canon [⟨r5_5, k5_pay1 (View.ld x0 r5_0) (View.ld x1 r5_1) (View.ld x2 r5_2) (View.ld x3 r5_3) (View.ld x4 r5_4)⟩]

/-- The store's rectangle is the whole buffer (one tile of the buffer's own size, checked by evaluation), so it covers it. -/
theorem cover5_5 (p0 : Vec F S4000x16 .f32) (y : S4000x16.Idx) :
    ∃ pc ∈ ([⟨r5_5, p0⟩] : List (View.Piece (Elt F) S4000x16 .f32)), y ∈ pc.1.set :=
  View.cover_of_tiled [⟨r5_5, p0⟩] S4000x16.size (by rfl) y

/-! ## The body's triple -/

set_option maxHeartbeats 1000000 in
/-- The body at any grid coordinate `i` (which it does not read), on whole staging memrefs: the five inputs' at read
    contents `x0 … x4` and the output's at anything, it runs to the continuation holding the inputs' as they were and the
    output's at `out5_5 x0 … x4`. The function is its sequence of six whole-buffer loads and one whole-buffer store
    over the named payload; the sixth load reads the output buffer's prior contents, which nothing uses, and the
    store overwrites all of them. -/
theorem sound_kernel5 (c : Dev nD) (E : Set ℕ) (i : grid5.Coords) (arg1 : Memref sig .tc .vmem S4000x272 .f32) (harg1 : arg1.IsWhole) (arg2 : Memref sig .tc .vmem S272x256 .f32) (harg2 : arg2.IsWhole) (arg3 : Memref sig .tc .vmem S1x256 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S4000x16 .f32) (harg6 : arg6.IsWhole)
    (x0 : Vec F S4000x272 .f32) (x1 : Vec F S272x256 .f32) (x2 : Vec F S1x256 .f32) (x3 : Vec F S256x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp2_kernel i arg1 harg1 arg2 harg2 arg3 harg3 arg4 harg4 arg5 harg5 arg6 harg6) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region on core `c`: the arrays as the region finds them (`V`); after the body at point `t`
    each input's buffer at its block and the output's at `out5_5` of the five input blocks; the invariant: the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected; `V` is never unfolded). -/
theorem A_eq5 (c : Dev nD) (w : Fin cfg5.W) : (dat5 V c).A w = V c (Pipeline.arrRef spec5 w) := by
  dsimp only [dat5]

/-- What the body leaves, window by window (the definition's case split reduced at each literal window). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, what the core owes, and the six windows' current
    staging buffers one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five inputs' memrefs hold their blocks (`before5_w`), the output's holds anything, so
    `sound_kernel5` applies; the invariant and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point (the six windows' conjunction written out). -/
theorem body_obligation5 (c : Dev nD) : BodyObligation (dat5 (F := F) V c) (defs₀ (F := F)) Variants.none () Set.univ := fun t => by
  rw [bigSep_W5, bigSep_W5]
  exact sound_body5 V c t

end Cert.Kernel.Layers

end
-- ==== Proof.Words.LayersRun.lean ====
/-
  The whole run of the program, from the launch to the return, with every buffer's contents NAMED at each of the thirteen
  boundaries between its items: eight stretches of host operations and six kernel regions (the first projection x·W1, the
  first bias and rectifier, the second projection h·W2, the second bias and rectifier, the node network, the edge network).
  `St j c` is what core `c`'s buffers hold after item `j`: after a host stretch, the stretch's operations applied to what
  was there; after a region, the region's arrays at what its write-backs leave (the inputs as entered, the output array the
  fold of the blocks the grid points wrote) and every other buffer as entered. From these: each region as a segment between
  two boundaries, @main as the list of the thirteen segments, and `run_all` — every weakly fair execution terminates, nothing
  faulting, with every unscoped buffer of every core at `St13`. The frame (the fifteen argument arrays end as launched)
  is read off `St13` by walking each argument back through the thirteen items, none of which writes it.
-/
import proofs.«138351_j90890097918029_1_alg».proof.Proof.Words.InputProjection
import proofs.«138351_j90890097918029_1_alg».proof.Proof.Words.FirstActivation
import proofs.«138351_j90890097918029_1_alg».proof.Proof.Words.HiddenProjection
import proofs.«138351_j90890097918029_1_alg».proof.Proof.Words.SecondActivation
import proofs.«138351_j90890097918029_1_alg».proof.Proof.Words.NodeMlp
import proofs.«138351_j90890097918029_1_alg».proof.Proof.Words.EdgeMlp
import proofs.«138351_j90890097918029_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev St0 : Dev nD → Valuation τ sig (Elt F) := fun c b => (s₀ m ρ).mem ((c : Dev nD), b)
/-- The same, read at the TensorCore's references. -/
abbrev At0 : (c : Dev nD) → (b : Ref sig .tc) → Buf (Elt F) ((c : Thread nD τ).loc b) := fun c b => St0 m ρ c b

/-- After the host stretch `hostOps0`. -/
abbrev St1 : Dev nD → Valuation τ sig (Elt F) := fun c => StableHlo.after hostOps0 (St0 m ρ c)
abbrev At1 : (c : Dev nD) → (b : Ref sig .tc) → Buf (Elt F) ((c : Thread nD τ).loc b) := fun c b => St1 m ρ c b
/-- A buffer the stretch does not write is as before it. -/
theorem St1_keep (c : Dev nD) (b : Ref sig .tc) (h : b ∉ hostOps0_W) : St1 m ρ c b = St0 m ρ c b :=
  StableHlo.after_of_writes_sub hostOps0 _ hostOps0_writes h

/-- After the host stretch `hostOps0_1`. -/
abbrev St2 : Dev nD → Valuation τ sig (Elt F) := fun c => StableHlo.after hostOps0_1 (St1 m ρ c)
abbrev At2 : (c : Dev nD) → (b : Ref sig .tc) → Buf (Elt F) ((c : Thread nD τ).loc b) := fun c b => St2 m ρ c b
/-- A buffer the stretch does not write is as before it. -/
theorem St2_keep (c : Dev nD) (b : Ref sig .tc) (h : b ∉ hostOps0_1_W) : St2 m ρ c b = St1 m ρ c b :=
  StableHlo.after_of_writes_sub hostOps0_1 _ hostOps0_1_writes h

/-- After the host stretch `hostOps0_2`. -/
abbrev St3 : Dev nD → Valuation τ sig (Elt F) := fun c => StableHlo.after hostOps0_2 (St2 m ρ c)
abbrev At3 : (c : Dev nD) → (b : Ref sig .tc) → Buf (Elt F) ((c : Thread nD τ).loc b) := fun c b => St3 m ρ c b
/-- A buffer the stretch does not write is as before it. -/
theorem St3_keep (c : Dev nD) (b : Ref sig .tc) (h : b ∉ hostOps0_2_W) : St3 m ρ c b = St2 m ρ c b :=
  StableHlo.after_of_writes_sub hostOps0_2 _ hostOps0_2_writes h

/-- After region 0 (the first projection x·W1): its arrays at what the pipeline leaves, every other buffer as entered. -/
def St4 (c : Dev nD) : Valuation τ sig (Elt F) :=
  Pipeline.withArrays spec0 c (St3 m ρ c) fun w => (dat0 (At3 m ρ) c).arrAt w cfg0.N
theorem St4_arr (c : Dev nD) (w : Fin cfg0.W) :
    St4 m ρ c (Proc.devRef .tc (Pipeline.arrRef spec0 w)) = (dat0 (At3 m ρ) c).arrAt w cfg0.N := by
  unfold St4; exact Pipeline.withArrays_arr spec0 launch0.win.arr_inj c _ _ w
theorem St4_of_ne (c : Dev nD) (b : Ref sig .tc) (hb : ∀ w, Pipeline.arrRef spec0 w ≠ b) :
    St4 m ρ c (Proc.devRef .tc b) = St3 m ρ c (Proc.devRef .tc b) := by
  unfold St4; exact Pipeline.withArrays_of_ne spec0 c _ _ b hb
abbrev At4 : (c : Dev nD) → (b : Ref sig .tc) → Buf (Elt F) ((c : Thread nD τ).loc b) := fun c b => St4 m ρ c b
theorem hF0 (c : Dev nD) (w : Fin cfg0.W) : (dat0 (At3 m ρ) c).arrAt w cfg0.N = At4 m ρ c (Pipeline.arrRef spec0 w) :=
  (St4_arr m ρ c w).symm
theorem hrest0 (c : Dev nD) : ∀ b, b ∉ Finset.univ.image (Pipeline.arrRef spec0) → At4 m ρ c b = At3 m ρ c b :=
  fun b hb => St4_of_ne m ρ c b fun w e => hb (Finset.mem_image.mpr ⟨w, Finset.mem_univ _, e⟩)
/-- Every buffer but the region's output array is as entered: an input array is only read. -/
theorem St4_keep (c : Dev nD) (b : Ref sig .tc) (hb : b ≠ main_v32) :
    St4 m ρ c (Proc.devRef .tc b) = St3 m ρ c (Proc.devRef .tc b) := by
  by_cases h : ∀ w, Pipeline.arrRef spec0 w ≠ b
  · exact St4_of_ne m ρ c b h
  · push Not at h
    obtain ⟨w, rfl⟩ := h
    have hin : (cfg0.win w).isOut = false := by
      match w, hb with
      | ⟨0, _⟩, _ => rfl
      | ⟨1, _⟩, _ => rfl
      | ⟨2, _⟩, hb => exact absurd rfl hb
    exact (St4_arr m ρ c w).trans (((dat0 (At3 m ρ) c).arrAt_in w hin _).trans (A_eq0 (At3 m ρ) c w))

/-- After the host stretch `hostOps1`. -/
abbrev St5 : Dev nD → Valuation τ sig (Elt F) := fun c => StableHlo.after hostOps1 (St4 m ρ c)
abbrev At5 : (c : Dev nD) → (b : Ref sig .tc) → Buf (Elt F) ((c : Thread nD τ).loc b) := fun c b => St5 m ρ c b
/-- A buffer the stretch does not write is as before it. -/
theorem St5_keep (c : Dev nD) (b : Ref sig .tc) (h : b ∉ hostOps1_W) : St5 m ρ c b = St4 m ρ c b :=
  StableHlo.after_of_writes_sub hostOps1 _ hostOps1_writes h

/-- After region 1 (the first bias and rectifier): its arrays at what the pipeline leaves, every other buffer as entered. -/
def St6 (c : Dev nD) : Valuation τ sig (Elt F) :=
  Pipeline.withArrays spec1 c (St5 m ρ c) fun w => (dat1 (At5 m ρ) c).arrAt w cfg1.N
theorem St6_arr (c : Dev nD) (w : Fin cfg1.W) :
    St6 m ρ c (Proc.devRef .tc (Pipeline.arrRef spec1 w)) = (dat1 (At5 m ρ) c).arrAt w cfg1.N := by
  unfold St6; exact Pipeline.withArrays_arr spec1 launch1.win.arr_inj c _ _ w
theorem St6_of_ne (c : Dev nD) (b : Ref sig .tc) (hb : ∀ w, Pipeline.arrRef spec1 w ≠ b) :
    St6 m ρ c (Proc.devRef .tc b) = St5 m ρ c (Proc.devRef .tc b) := by
  unfold St6; exact Pipeline.withArrays_of_ne spec1 c _ _ b hb
abbrev At6 : (c : Dev nD) → (b : Ref sig .tc) → Buf (Elt F) ((c : Thread nD τ).loc b) := fun c b => St6 m ρ c b
theorem hF1 (c : Dev nD) (w : Fin cfg1.W) : (dat1 (At5 m ρ) c).arrAt w cfg1.N = At6 m ρ c (Pipeline.arrRef spec1 w) :=
  (St6_arr m ρ c w).symm
theorem hrest1 (c : Dev nD) : ∀ b, b ∉ Finset.univ.image (Pipeline.arrRef spec1) → At6 m ρ c b = At5 m ρ c b :=
  fun b hb => St6_of_ne m ρ c b fun w e => hb (Finset.mem_image.mpr ⟨w, Finset.mem_univ _, e⟩)
/-- Every buffer but the region's output array is as entered: an input array is only read. -/
theorem St6_keep (c : Dev nD) (b : Ref sig .tc) (hb : b ≠ main_v47) :
    St6 m ρ c (Proc.devRef .tc b) = St5 m ρ c (Proc.devRef .tc b) := by
  by_cases h : ∀ w, Pipeline.arrRef spec1 w ≠ b
  · exact St6_of_ne m ρ c b h
  · push Not at h
    obtain ⟨w, rfl⟩ := h
    have hin : (cfg1.win w).isOut = false := by
      match w, hb with
      | ⟨0, _⟩, _ => rfl
      | ⟨1, _⟩, _ => rfl
      | ⟨2, _⟩, hb => exact absurd rfl hb
    exact (St6_arr m ρ c w).trans (((dat1 (At5 m ρ) c).arrAt_in w hin _).trans (A_eq1 (At5 m ρ) c w))

/-- After region 2 (the second projection h·W2): its arrays at what the pipeline leaves, every other buffer as entered. -/
def St7 (c : Dev nD) : Valuation τ sig (Elt F) :=
  Pipeline.withArrays spec2 c (St6 m ρ c) fun w => (dat2 (At6 m ρ) c).arrAt w cfg2.N
theorem St7_arr (c : Dev nD) (w : Fin cfg2.W) :
    St7 m ρ c (Proc.devRef .tc (Pipeline.arrRef spec2 w)) = (dat2 (At6 m ρ) c).arrAt w cfg2.N := by
  unfold St7; exact Pipeline.withArrays_arr spec2 launch2.win.arr_inj c _ _ w
theorem St7_of_ne (c : Dev nD) (b : Ref sig .tc) (hb : ∀ w, Pipeline.arrRef spec2 w ≠ b) :
    St7 m ρ c (Proc.devRef .tc b) = St6 m ρ c (Proc.devRef .tc b) := by
  unfold St7; exact Pipeline.withArrays_of_ne spec2 c _ _ b hb
abbrev At7 : (c : Dev nD) → (b : Ref sig .tc) → Buf (Elt F) ((c : Thread nD τ).loc b) := fun c b => St7 m ρ c b
theorem hF2 (c : Dev nD) (w : Fin cfg2.W) : (dat2 (At6 m ρ) c).arrAt w cfg2.N = At7 m ρ c (Pipeline.arrRef spec2 w) :=
  (St7_arr m ρ c w).symm
theorem hrest2 (c : Dev nD) : ∀ b, b ∉ Finset.univ.image (Pipeline.arrRef spec2) → At7 m ρ c b = At6 m ρ c b :=
  fun b hb => St7_of_ne m ρ c b fun w e => hb (Finset.mem_image.mpr ⟨w, Finset.mem_univ _, e⟩)
/-- Every buffer but the region's output array is as entered: an input array is only read. -/
theorem St7_keep (c : Dev nD) (b : Ref sig .tc) (hb : b ≠ main_v48) :
    St7 m ρ c (Proc.devRef .tc b) = St6 m ρ c (Proc.devRef .tc b) := by
  by_cases h : ∀ w, Pipeline.arrRef spec2 w ≠ b
  · exact St7_of_ne m ρ c b h
  · push Not at h
    obtain ⟨w, rfl⟩ := h
    have hin : (cfg2.win w).isOut = false := by
      match w, hb with
      | ⟨0, _⟩, _ => rfl
      | ⟨1, _⟩, _ => rfl
      | ⟨2, _⟩, hb => exact absurd rfl hb
    exact (St7_arr m ρ c w).trans (((dat2 (At6 m ρ) c).arrAt_in w hin _).trans (A_eq2 (At6 m ρ) c w))

/-- After the host stretch `hostOps3`. -/
abbrev St8 : Dev nD → Valuation τ sig (Elt F) := fun c => StableHlo.after hostOps3 (St7 m ρ c)
abbrev At8 : (c : Dev nD) → (b : Ref sig .tc) → Buf (Elt F) ((c : Thread nD τ).loc b) := fun c b => St8 m ρ c b
/-- A buffer the stretch does not write is as before it. -/
theorem St8_keep (c : Dev nD) (b : Ref sig .tc) (h : b ∉ hostOps3_W) : St8 m ρ c b = St7 m ρ c b :=
  StableHlo.after_of_writes_sub hostOps3 _ hostOps3_writes h

/-- After region 3 (the second bias and rectifier): its arrays at what the pipeline leaves, every other buffer as entered. -/
def St9 (c : Dev nD) : Valuation τ sig (Elt F) :=
  Pipeline.withArrays spec3 c (St8 m ρ c) fun w => (dat3 (At8 m ρ) c).arrAt w cfg3.N
theorem St9_arr (c : Dev nD) (w : Fin cfg3.W) :
    St9 m ρ c (Proc.devRef .tc (Pipeline.arrRef spec3 w)) = (dat3 (At8 m ρ) c).arrAt w cfg3.N := by
  unfold St9; exact Pipeline.withArrays_arr spec3 launch3.win.arr_inj c _ _ w
theorem St9_of_ne (c : Dev nD) (b : Ref sig .tc) (hb : ∀ w, Pipeline.arrRef spec3 w ≠ b) :
    St9 m ρ c (Proc.devRef .tc b) = St8 m ρ c (Proc.devRef .tc b) := by
  unfold St9; exact Pipeline.withArrays_of_ne spec3 c _ _ b hb
abbrev At9 : (c : Dev nD) → (b : Ref sig .tc) → Buf (Elt F) ((c : Thread nD τ).loc b) := fun c b => St9 m ρ c b
theorem hF3 (c : Dev nD) (w : Fin cfg3.W) : (dat3 (At8 m ρ) c).arrAt w cfg3.N = At9 m ρ c (Pipeline.arrRef spec3 w) :=
  (St9_arr m ρ c w).symm
theorem hrest3 (c : Dev nD) : ∀ b, b ∉ Finset.univ.image (Pipeline.arrRef spec3) → At9 m ρ c b = At8 m ρ c b :=
  fun b hb => St9_of_ne m ρ c b fun w e => hb (Finset.mem_image.mpr ⟨w, Finset.mem_univ _, e⟩)
/-- Every buffer but the region's output array is as entered: an input array is only read. -/
theorem St9_keep (c : Dev nD) (b : Ref sig .tc) (hb : b ≠ main_v63) :
    St9 m ρ c (Proc.devRef .tc b) = St8 m ρ c (Proc.devRef .tc b) := by
  by_cases h : ∀ w, Pipeline.arrRef spec3 w ≠ b
  · exact St9_of_ne m ρ c b h
  · push Not at h
    obtain ⟨w, rfl⟩ := h
    have hin : (cfg3.win w).isOut = false := by
      match w, hb with
      | ⟨0, _⟩, _ => rfl
      | ⟨1, _⟩, _ => rfl
      | ⟨2, _⟩, hb => exact absurd rfl hb
    exact (St9_arr m ρ c w).trans (((dat3 (At8 m ρ) c).arrAt_in w hin _).trans (A_eq3 (At8 m ρ) c w))

/-- After the host stretch `hostOps4`. -/
abbrev St10 : Dev nD → Valuation τ sig (Elt F) := fun c => StableHlo.after hostOps4 (St9 m ρ c)
abbrev At10 : (c : Dev nD) → (b : Ref sig .tc) → Buf (Elt F) ((c : Thread nD τ).loc b) := fun c b => St10 m ρ c b
/-- A buffer the stretch does not write is as before it. -/
theorem St10_keep (c : Dev nD) (b : Ref sig .tc) (h : b ∉ hostOps4_W) : St10 m ρ c b = St9 m ρ c b :=
  StableHlo.after_of_writes_sub hostOps4 _ hostOps4_writes h

/-- After region 4 (the node network): its arrays at what the pipeline leaves, every other buffer as entered. -/
def St11 (c : Dev nD) : Valuation τ sig (Elt F) :=
  Pipeline.withArrays spec4 c (St10 m ρ c) fun w => (dat4 (At10 m ρ) c).arrAt w cfg4.N
theorem St11_arr (c : Dev nD) (w : Fin cfg4.W) :
    St11 m ρ c (Proc.devRef .tc (Pipeline.arrRef spec4 w)) = (dat4 (At10 m ρ) c).arrAt w cfg4.N := by
  unfold St11; exact Pipeline.withArrays_arr spec4 launch4.win.arr_inj c _ _ w
theorem St11_of_ne (c : Dev nD) (b : Ref sig .tc) (hb : ∀ w, Pipeline.arrRef spec4 w ≠ b) :
    St11 m ρ c (Proc.devRef .tc b) = St10 m ρ c (Proc.devRef .tc b) := by
  unfold St11; exact Pipeline.withArrays_of_ne spec4 c _ _ b hb
abbrev At11 : (c : Dev nD) → (b : Ref sig .tc) → Buf (Elt F) ((c : Thread nD τ).loc b) := fun c b => St11 m ρ c b
theorem hF4 (c : Dev nD) (w : Fin cfg4.W) : (dat4 (At10 m ρ) c).arrAt w cfg4.N = At11 m ρ c (Pipeline.arrRef spec4 w) :=
  (St11_arr m ρ c w).symm
theorem hrest4 (c : Dev nD) : ∀ b, b ∉ Finset.univ.image (Pipeline.arrRef spec4) → At11 m ρ c b = At10 m ρ c b :=
  fun b hb => St11_of_ne m ρ c b fun w e => hb (Finset.mem_image.mpr ⟨w, Finset.mem_univ _, e⟩)
/-- Every buffer but the region's output array is as entered: an input array is only read. -/
theorem St11_keep (c : Dev nD) (b : Ref sig .tc) (hb : b ≠ main_v66) :
    St11 m ρ c (Proc.devRef .tc b) = St10 m ρ c (Proc.devRef .tc b) := by
  by_cases h : ∀ w, Pipeline.arrRef spec4 w ≠ b
  · exact St11_of_ne m ρ c b h
  · push Not at h
    obtain ⟨w, rfl⟩ := h
    have hin : (cfg4.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact (St11_arr m ρ c w).trans (((dat4 (At10 m ρ) c).arrAt_in w hin _).trans (A_eq4 (At10 m ρ) c w))

/-- After the host stretch `hostOps5`. -/
abbrev St12 : Dev nD → Valuation τ sig (Elt F) := fun c => StableHlo.after hostOps5 (St11 m ρ c)
abbrev At12 : (c : Dev nD) → (b : Ref sig .tc) → Buf (Elt F) ((c : Thread nD τ).loc b) := fun c b => St12 m ρ c b
/-- A buffer the stretch does not write is as before it. -/
theorem St12_keep (c : Dev nD) (b : Ref sig .tc) (h : b ∉ hostOps5_W) : St12 m ρ c b = St11 m ρ c b :=
  StableHlo.after_of_writes_sub hostOps5 _ hostOps5_writes h

/-- After region 5 (the edge network): its arrays at what the pipeline leaves, every other buffer as entered. -/
def St13 (c : Dev nD) : Valuation τ sig (Elt F) :=
  Pipeline.withArrays spec5 c (St12 m ρ c) fun w => (dat5 (At12 m ρ) c).arrAt w cfg5.N
theorem St13_arr (c : Dev nD) (w : Fin cfg5.W) :
    St13 m ρ c (Proc.devRef .tc (Pipeline.arrRef spec5 w)) = (dat5 (At12 m ρ) c).arrAt w cfg5.N := by
  unfold St13; exact Pipeline.withArrays_arr spec5 launch5.win.arr_inj c _ _ w
theorem St13_of_ne (c : Dev nD) (b : Ref sig .tc) (hb : ∀ w, Pipeline.arrRef spec5 w ≠ b) :
    St13 m ρ c (Proc.devRef .tc b) = St12 m ρ c (Proc.devRef .tc b) := by
  unfold St13; exact Pipeline.withArrays_of_ne spec5 c _ _ b hb
abbrev At13 : (c : Dev nD) → (b : Ref sig .tc) → Buf (Elt F) ((c : Thread nD τ).loc b) := fun c b => St13 m ρ c b
theorem hF5 (c : Dev nD) (w : Fin cfg5.W) : (dat5 (At12 m ρ) c).arrAt w cfg5.N = At13 m ρ c (Pipeline.arrRef spec5 w) :=
  (St13_arr m ρ c w).symm
theorem hrest5 (c : Dev nD) : ∀ b, b ∉ Finset.univ.image (Pipeline.arrRef spec5) → At13 m ρ c b = At12 m ρ c b :=
  fun b hb => St13_of_ne m ρ c b fun w e => hb (Finset.mem_image.mpr ⟨w, Finset.mem_univ _, e⟩)
/-- Every buffer but the region's output array is as entered: an input array is only read. -/
theorem St13_keep (c : Dev nD) (b : Ref sig .tc) (hb : b ≠ main_v84) :
    St13 m ρ c (Proc.devRef .tc b) = St12 m ρ c (Proc.devRef .tc b) := by
  by_cases h : ∀ w, Pipeline.arrRef spec5 w ≠ b
  · exact St13_of_ne m ρ c b h
  · push Not at h
    obtain ⟨w, rfl⟩ := h
    have hin : (cfg5.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact (St13_arr m ρ c w).trans (((dat5 (At12 m ρ) c).arrAt_in w hin _).trans (A_eq5 (At12 m ρ) c w))

/-! ## The proof data of the six pipelines, and what rides beside the buffers -/

/-- No pipeline has a prefetched table. -/
abbrev admAll : (p : Fin 6) → (pcfgs (F := F) p).Adm := fun p => (cfgs p).toPCfg_adm
/-- Each pipeline's proof data at its region's entry contents. -/
def allDats : (p : Fin 6) → (c : Dev nD) → Dat τ (Elt F) Unit ℕ (UR sig nD τ) ℕ (Pipeline.pin (pcfgs (F := F)) admAll p) c
  | ⟨0, _⟩ => fun c => dat0 (At3 m ρ) c
  | ⟨1, _⟩ => fun c => dat1 (At5 m ρ) c
  | ⟨2, _⟩ => fun c => dat2 (At6 m ρ) c
  | ⟨3, _⟩ => fun c => dat3 (At8 m ρ) c
  | ⟨4, _⟩ => fun c => dat4 (At10 m ρ) c
  | ⟨5, _⟩ => fun c => dat5 (At12 m ρ) c
abbrev noVariants : Variants := Variants.none
/-- No core owes another anything. -/
abbrev noPairs : GSem nD τ sig → Finset Unit := fun _ => ∅
abbrev noLevel : GSem nD τ sig → Unit → ℕ := fun _ _ => 0
/-- Beside the buffers, through every item: the core's generator register at some state, and the core owing nothing. -/
abbrev Beside (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at `St13`, the generator register at some state. -/
abbrev Tlast (c : Dev nD) : sProp 𝕄 := iprop(StableHlo.held (c : Thread nD τ) (Pipeline.ucRefs τ sig) (St13 m ρ c) ∗ ∃ r, prngReg c r)

/-! ## The regions as segments -/

set_option backward.isDefEq.respectTransparency.types false in
/-- Region 0 (the first projection x·W1): entered from every unscoped buffer at `St3`, left at `St4`. Its arrays are split out of
    the unscoped buffers at entry and put back at the exit contents; the generator register goes into the pipeline's
    invariant and comes out; nothing is owed; the kernel has no semaphore of its own. -/
def reg0 : Pipeline.RegionSeg (pcfgs (F := F)) admAll (allDats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (At3 m ρ) c).loose
  hwaits := Pipeline.hwaits_of_owed_zero _ _ _ _ noPairs noLevel 0 fun _ _ => rfl
  pre c := iprop(StableHlo.held (c : Thread nD τ) (Pipeline.ucRefs τ sig) (St3 m ρ c) ∗ Beside c)
  post c := iprop(StableHlo.held (c : Thread nD τ) (Pipeline.ucRefs τ sig) (St4 m ρ c) ∗ Beside c)
  X c := iprop(∃ r, prngReg c r)
  Y c := iprop(∃ r, prngReg c r)
  Z c := Pipeline.unscopedRest (Ix := Unit) (Name := ℕ) (U := UR sig nD τ) (Lvl := ℕ) spec0 c (At3 m ρ c)
  hentry c := by
    rw [Pipeline.ownSems0_none]
    have hsplit := Pipeline.arrays_of_unscopedBufs (p := 0) (pcfgs (F := F)) admAll (allDats m ρ) launch0.win launch0.arr_whole c
      ((allDats m ρ 0 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (allDats m ρ) ((allDats m ρ 0 c).share_full fun _ => rfl)
      (At3 m ρ c) (At4 m ρ c) ((allDats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first bias and rectifier): entered from every unscoped buffer at `St5`, left at `St6`. Its arrays are split out of
    the unscoped buffers at entry and put back at the exit contents; the generator register goes into the pipeline's
    invariant and comes out; nothing is owed; the kernel has no semaphore of its own. -/
def reg1 : Pipeline.RegionSeg (pcfgs (F := F)) admAll (allDats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (At5 m ρ) c).loose
  hwaits := Pipeline.hwaits_of_owed_zero _ _ _ _ noPairs noLevel 1 fun _ _ => rfl
  pre c := iprop(StableHlo.held (c : Thread nD τ) (Pipeline.ucRefs τ sig) (St5 m ρ c) ∗ Beside c)
  post c := iprop(StableHlo.held (c : Thread nD τ) (Pipeline.ucRefs τ sig) (St6 m ρ c) ∗ Beside c)
  X c := iprop(∃ r, prngReg c r)
  Y c := iprop(∃ r, prngReg c r)
  Z c := Pipeline.unscopedRest (Ix := Unit) (Name := ℕ) (U := UR sig nD τ) (Lvl := ℕ) spec1 c (At5 m ρ c)
  hentry c := by
    rw [Pipeline.ownSems0_none]
    have hsplit := Pipeline.arrays_of_unscopedBufs (p := 1) (pcfgs (F := F)) admAll (allDats m ρ) launch1.win launch1.arr_whole c
      ((allDats m ρ 1 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (allDats m ρ) ((allDats m ρ 1 c).share_full fun _ => rfl)
      (At5 m ρ c) (At6 m ρ c) ((allDats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second projection h·W2): entered from every unscoped buffer at `St6`, left at `St7`. Its arrays are split out of
    the unscoped buffers at entry and put back at the exit contents; the generator register goes into the pipeline's
    invariant and comes out; nothing is owed; the kernel has no semaphore of its own. -/
def reg2 : Pipeline.RegionSeg (pcfgs (F := F)) admAll (allDats m ρ) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (At6 m ρ) c).loose
  hwaits := Pipeline.hwaits_of_owed_zero _ _ _ _ noPairs noLevel 2 fun _ _ => rfl
  pre c := iprop(StableHlo.held (c : Thread nD τ) (Pipeline.ucRefs τ sig) (St6 m ρ c) ∗ Beside c)
  post c := iprop(StableHlo.held (c : Thread nD τ) (Pipeline.ucRefs τ sig) (St7 m ρ c) ∗ Beside c)
  X c := iprop(∃ r, prngReg c r)
  Y c := iprop(∃ r, prngReg c r)
  Z c := Pipeline.unscopedRest (Ix := Unit) (Name := ℕ) (U := UR sig nD τ) (Lvl := ℕ) spec2 c (At6 m ρ c)
  hentry c := by
    rw [Pipeline.ownSems0_none]
    have hsplit := Pipeline.arrays_of_unscopedBufs (p := 2) (pcfgs (F := F)) admAll (allDats m ρ) launch2.win launch2.arr_whole c
      ((allDats m ρ 2 c).share_full fun _ => rfl) (At6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (allDats m ρ) ((allDats m ρ 2 c).share_full fun _ => rfl)
      (At6 m ρ c) (At7 m ρ c) ((allDats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the second bias and rectifier): entered from every unscoped buffer at `St8`, left at `St9`. Its arrays are split out of
    the unscoped buffers at entry and put back at the exit contents; the generator register goes into the pipeline's
    invariant and comes out; nothing is owed; the kernel has no semaphore of its own. -/
def reg3 : Pipeline.RegionSeg (pcfgs (F := F)) admAll (allDats m ρ) () defs₀ noVariants noPairs noLevel 3 where
  win := launch3.win.to₀
  block_pos := launch3.block_pos
  stage_whole := launch3.stage_whole
  K := PEmpty
  osem k := k.elim
  ho := Pipeline.OwnSemFacts.none _
  hbody c := (body_obligation3 (At8 m ρ) c).loose
  hwaits := Pipeline.hwaits_of_owed_zero _ _ _ _ noPairs noLevel 3 fun _ _ => rfl
  pre c := iprop(StableHlo.held (c : Thread nD τ) (Pipeline.ucRefs τ sig) (St8 m ρ c) ∗ Beside c)
  post c := iprop(StableHlo.held (c : Thread nD τ) (Pipeline.ucRefs τ sig) (St9 m ρ c) ∗ Beside c)
  X c := iprop(∃ r, prngReg c r)
  Y c := iprop(∃ r, prngReg c r)
  Z c := Pipeline.unscopedRest (Ix := Unit) (Name := ℕ) (U := UR sig nD τ) (Lvl := ℕ) spec3 c (At8 m ρ c)
  hentry c := by
    rw [Pipeline.ownSems0_none]
    have hsplit := Pipeline.arrays_of_unscopedBufs (p := 3) (pcfgs (F := F)) admAll (allDats m ρ) launch3.win launch3.arr_whole c
      ((allDats m ρ 3 c).share_full fun _ => rfl) (At8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (allDats m ρ) ((allDats m ρ 3 c).share_full fun _ => rfl)
      (At8 m ρ c) (At9 m ρ c) ((allDats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the node network): entered from every unscoped buffer at `St10`, left at `St11`. Its arrays are split out of
    the unscoped buffers at entry and put back at the exit contents; the generator register goes into the pipeline's
    invariant and comes out; nothing is owed; the kernel has no semaphore of its own. -/
def reg4 : Pipeline.RegionSeg (pcfgs (F := F)) admAll (allDats m ρ) () defs₀ noVariants noPairs noLevel 4 where
  win := launch4.win.to₀
  block_pos := launch4.block_pos
  stage_whole := launch4.stage_whole
  K := PEmpty
  osem k := k.elim
  ho := Pipeline.OwnSemFacts.none _
  hbody c := (body_obligation4 (At10 m ρ) c).loose
  hwaits := Pipeline.hwaits_of_owed_zero _ _ _ _ noPairs noLevel 4 fun _ _ => rfl
  pre c := iprop(StableHlo.held (c : Thread nD τ) (Pipeline.ucRefs τ sig) (St10 m ρ c) ∗ Beside c)
  post c := iprop(StableHlo.held (c : Thread nD τ) (Pipeline.ucRefs τ sig) (St11 m ρ c) ∗ Beside c)
  X c := iprop(∃ r, prngReg c r)
  Y c := iprop(∃ r, prngReg c r)
  Z c := Pipeline.unscopedRest (Ix := Unit) (Name := ℕ) (U := UR sig nD τ) (Lvl := ℕ) spec4 c (At10 m ρ c)
  hentry c := by
    rw [Pipeline.ownSems0_none]
    have hsplit := Pipeline.arrays_of_unscopedBufs (p := 4) (pcfgs (F := F)) admAll (allDats m ρ) launch4.win launch4.arr_whole c
      ((allDats m ρ 4 c).share_full fun _ => rfl) (At10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (allDats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (allDats m ρ) ((allDats m ρ 4 c).share_full fun _ => rfl)
      (At10 m ρ c) (At11 m ρ c) ((allDats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (the edge network): entered from every unscoped buffer at `St12`, left at `St13`. Its arrays are split out of
    the unscoped buffers at entry and put back at the exit contents; the generator register goes into the pipeline's
    invariant and comes out; nothing is owed; the kernel has no semaphore of its own. -/
def reg5 : Pipeline.RegionSeg (pcfgs (F := F)) admAll (allDats m ρ) () defs₀ noVariants noPairs noLevel 5 where
  win := launch5.win.to₀
  block_pos := launch5.block_pos
  stage_whole := launch5.stage_whole
  K := PEmpty
  osem k := k.elim
  ho := Pipeline.OwnSemFacts.none _
  hbody c := (body_obligation5 (At12 m ρ) c).loose
  hwaits := Pipeline.hwaits_of_owed_zero _ _ _ _ noPairs noLevel 5 fun _ _ => rfl
  pre c := iprop(StableHlo.held (c : Thread nD τ) (Pipeline.ucRefs τ sig) (St12 m ρ c) ∗ Beside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (At12 m ρ c)
  hentry c := by
    rw [Pipeline.ownSems0_none]
    have hsplit := Pipeline.arrays_of_unscopedBufs (p := 5) (pcfgs (F := F)) admAll (allDats m ρ) launch5.win launch5.arr_whole c
      ((allDats m ρ 5 c).share_full fun _ => rfl) (At12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (allDats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admAll (Ix := Unit) (Name := ℕ) (U := UR sig nD τ) (Lvl := ℕ)
      launch5.win launch5.arr_whole c (allDats m ρ) ((allDats m ρ 5 c).share_full fun _ => rfl)
      (At12 m ρ c) (At13 m ρ c) ((allDats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's thirteen items in order. -/
abbrev mainSegs : List (Pipeline.Seg (pcfgs (F := F)) admAll (allDats m ρ) () defs₀ noVariants noPairs noLevel) :=
  [ .host (hostSeg hostOps0 hostOps0_sub hostOps0_fresh (St0 m ρ)),
    .host (hostSeg hostOps0_1 hostOps0_1_sub hostOps0_1_fresh (St1 m ρ)),
    .host (hostSeg hostOps0_2 hostOps0_2_sub hostOps0_2_fresh (St2 m ρ)),
    .region (reg0 m ρ),
    .host (hostSeg hostOps1 hostOps1_sub hostOps1_fresh (St4 m ρ)),
    .region (reg1 m ρ),
    .region (reg2 m ρ),
    .host (hostSeg hostOps3 hostOps3_sub hostOps3_fresh (St7 m ρ)),
    .region (reg3 m ρ),
    .host (hostSeg hostOps4 hostOps4_sub hostOps4_fresh (St9 m ρ)),
    .region (reg4 m ρ),
    .host (hostSeg hostOps5 hostOps5_sub hostOps5_fresh (St11 m ρ)),
    .region (reg5 m ρ) ]
/-- @main is the run of its items. -/
theorem main_is_segments (c : Dev nD) : main (F := F) c = Pipeline.Seg.run (mainSegs m ρ) := (main_chain c).trans (by chain_rfl)

set_option backward.isDefEq.respectTransparency.types false in
/-- THE RUN. From any memory with zero counters, every weakly fair execution of @main on the TensorCores terminates,
    nothing faulting, and in every final state every unscoped buffer of every core holds `St13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St13 m ρ c b) :=
  Pipeline.θ_run_regions_kit (pcfgs (F := F)) admAll (allDats m ρ) () cellOf_inj emb₁ defs₀ noVariants noPairs noLevel m ρ main (mainSegs m ρ)
    (fun c Q => by rw [main_is_segments m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ Beside c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St13 m ρ c b)
    (hfin := fun c s' => by
      iintro ⟨⟨Hh, -⟩, HSI⟩
      unfold StableHlo.held
      imodintro
      iapply (pointsTo_read_all (Pipeline.ucRefs τ sig) (fun b => (((c : Thread nD τ)).1, b)) (St13 m ρ c) s')
      isplitl [Hh] <;> iassumption)
    (hQ := fun s h => h)

/-! ## The arguments end as launched -/

theorem St13_main_arg0 (c : Dev nD) : St13 m ρ c (Proc.devRef .tc main_arg0) = m ((c : Thread nD τ).loc main_arg0) :=
  (St13_keep m ρ c main_arg0 (by decide)).trans <|
  (St12_keep m ρ c main_arg0 (by decide)).trans <|
  (St11_keep m ρ c main_arg0 (by decide)).trans <|
  (St10_keep m ρ c main_arg0 (by decide)).trans <|
  (St9_keep m ρ c main_arg0 (by decide)).trans <|
  (St8_keep m ρ c main_arg0 (by decide)).trans <|
  (St7_keep m ρ c main_arg0 (by decide)).trans <|
  (St6_keep m ρ c main_arg0 (by decide)).trans <|
  (St5_keep m ρ c main_arg0 (by decide)).trans <|
  (St4_keep m ρ c main_arg0 (by decide)).trans <|
  (St3_keep m ρ c main_arg0 (by decide)).trans <|
  (St2_keep m ρ c main_arg0 (by decide)).trans <|
  (St1_keep m ρ c main_arg0 (by decide)).trans <| rfl

theorem St13_main_arg1 (c : Dev nD) : St13 m ρ c (Proc.devRef .tc main_arg1) = m ((c : Thread nD τ).loc main_arg1) :=
  (St13_keep m ρ c main_arg1 (by decide)).trans <|
  (St12_keep m ρ c main_arg1 (by decide)).trans <|
  (St11_keep m ρ c main_arg1 (by decide)).trans <|
  (St10_keep m ρ c main_arg1 (by decide)).trans <|
  (St9_keep m ρ c main_arg1 (by decide)).trans <|
  (St8_keep m ρ c main_arg1 (by decide)).trans <|
  (St7_keep m ρ c main_arg1 (by decide)).trans <|
  (St6_keep m ρ c main_arg1 (by decide)).trans <|
  (St5_keep m ρ c main_arg1 (by decide)).trans <|
  (St4_keep m ρ c main_arg1 (by decide)).trans <|
  (St3_keep m ρ c main_arg1 (by decide)).trans <|
  (St2_keep m ρ c main_arg1 (by decide)).trans <|
  (St1_keep m ρ c main_arg1 (by decide)).trans <| rfl

theorem St13_main_arg2 (c : Dev nD) : St13 m ρ c (Proc.devRef .tc main_arg2) = m ((c : Thread nD τ).loc main_arg2) :=
  (St13_keep m ρ c main_arg2 (by decide)).trans <|
  (St12_keep m ρ c main_arg2 (by decide)).trans <|
  (St11_keep m ρ c main_arg2 (by decide)).trans <|
  (St10_keep m ρ c main_arg2 (by decide)).trans <|
  (St9_keep m ρ c main_arg2 (by decide)).trans <|
  (St8_keep m ρ c main_arg2 (by decide)).trans <|
  (St7_keep m ρ c main_arg2 (by decide)).trans <|
  (St6_keep m ρ c main_arg2 (by decide)).trans <|
  (St5_keep m ρ c main_arg2 (by decide)).trans <|
  (St4_keep m ρ c main_arg2 (by decide)).trans <|
  (St3_keep m ρ c main_arg2 (by decide)).trans <|
  (St2_keep m ρ c main_arg2 (by decide)).trans <|
  (St1_keep m ρ c main_arg2 (by decide)).trans <| rfl

theorem St13_main_arg3 (c : Dev nD) : St13 m ρ c (Proc.devRef .tc main_arg3) = m ((c : Thread nD τ).loc main_arg3) :=
  (St13_keep m ρ c main_arg3 (by decide)).trans <|
  (St12_keep m ρ c main_arg3 (by decide)).trans <|
  (St11_keep m ρ c main_arg3 (by decide)).trans <|
  (St10_keep m ρ c main_arg3 (by decide)).trans <|
  (St9_keep m ρ c main_arg3 (by decide)).trans <|
  (St8_keep m ρ c main_arg3 (by decide)).trans <|
  (St7_keep m ρ c main_arg3 (by decide)).trans <|
  (St6_keep m ρ c main_arg3 (by decide)).trans <|
  (St5_keep m ρ c main_arg3 (by decide)).trans <|
  (St4_keep m ρ c main_arg3 (by decide)).trans <|
  (St3_keep m ρ c main_arg3 (by decide)).trans <|
  (St2_keep m ρ c main_arg3 (by decide)).trans <|
  (St1_keep m ρ c main_arg3 (by decide)).trans <| rfl

theorem St13_main_arg4 (c : Dev nD) : St13 m ρ c (Proc.devRef .tc main_arg4) = m ((c : Thread nD τ).loc main_arg4) :=
  (St13_keep m ρ c main_arg4 (by decide)).trans <|
  (St12_keep m ρ c main_arg4 (by decide)).trans <|
  (St11_keep m ρ c main_arg4 (by decide)).trans <|
  (St10_keep m ρ c main_arg4 (by decide)).trans <|
  (St9_keep m ρ c main_arg4 (by decide)).trans <|
  (St8_keep m ρ c main_arg4 (by decide)).trans <|
  (St7_keep m ρ c main_arg4 (by decide)).trans <|
  (St6_keep m ρ c main_arg4 (by decide)).trans <|
  (St5_keep m ρ c main_arg4 (by decide)).trans <|
  (St4_keep m ρ c main_arg4 (by decide)).trans <|
  (St3_keep m ρ c main_arg4 (by decide)).trans <|
  (St2_keep m ρ c main_arg4 (by decide)).trans <|
  (St1_keep m ρ c main_arg4 (by decide)).trans <| rfl

theorem St13_main_arg5 (c : Dev nD) : St13 m ρ c (Proc.devRef .tc main_arg5) = m ((c : Thread nD τ).loc main_arg5) :=
  (St13_keep m ρ c main_arg5 (by decide)).trans <|
  (St12_keep m ρ c main_arg5 (by decide)).trans <|
  (St11_keep m ρ c main_arg5 (by decide)).trans <|
  (St10_keep m ρ c main_arg5 (by decide)).trans <|
  (St9_keep m ρ c main_arg5 (by decide)).trans <|
  (St8_keep m ρ c main_arg5 (by decide)).trans <|
  (St7_keep m ρ c main_arg5 (by decide)).trans <|
  (St6_keep m ρ c main_arg5 (by decide)).trans <|
  (St5_keep m ρ c main_arg5 (by decide)).trans <|
  (St4_keep m ρ c main_arg5 (by decide)).trans <|
  (St3_keep m ρ c main_arg5 (by decide)).trans <|
  (St2_keep m ρ c main_arg5 (by decide)).trans <|
  (St1_keep m ρ c main_arg5 (by decide)).trans <| rfl

theorem St13_main_arg6 (c : Dev nD) : St13 m ρ c (Proc.devRef .tc main_arg6) = m ((c : Thread nD τ).loc main_arg6) :=
  (St13_keep m ρ c main_arg6 (by decide)).trans <|
  (St12_keep m ρ c main_arg6 (by decide)).trans <|
  (St11_keep m ρ c main_arg6 (by decide)).trans <|
  (St10_keep m ρ c main_arg6 (by decide)).trans <|
  (St9_keep m ρ c main_arg6 (by decide)).trans <|
  (St8_keep m ρ c main_arg6 (by decide)).trans <|
  (St7_keep m ρ c main_arg6 (by decide)).trans <|
  (St6_keep m ρ c main_arg6 (by decide)).trans <|
  (St5_keep m ρ c main_arg6 (by decide)).trans <|
  (St4_keep m ρ c main_arg6 (by decide)).trans <|
  (St3_keep m ρ c main_arg6 (by decide)).trans <|
  (St2_keep m ρ c main_arg6 (by decide)).trans <|
  (St1_keep m ρ c main_arg6 (by decide)).trans <| rfl

theorem St13_main_arg7 (c : Dev nD) : St13 m ρ c (Proc.devRef .tc main_arg7) = m ((c : Thread nD τ).loc main_arg7) :=
  (St13_keep m ρ c main_arg7 (by decide)).trans <|
  (St12_keep m ρ c main_arg7 (by decide)).trans <|
  (St11_keep m ρ c main_arg7 (by decide)).trans <|
  (St10_keep m ρ c main_arg7 (by decide)).trans <|
  (St9_keep m ρ c main_arg7 (by decide)).trans <|
  (St8_keep m ρ c main_arg7 (by decide)).trans <|
  (St7_keep m ρ c main_arg7 (by decide)).trans <|
  (St6_keep m ρ c main_arg7 (by decide)).trans <|
  (St5_keep m ρ c main_arg7 (by decide)).trans <|
  (St4_keep m ρ c main_arg7 (by decide)).trans <|
  (St3_keep m ρ c main_arg7 (by decide)).trans <|
  (St2_keep m ρ c main_arg7 (by decide)).trans <|
  (St1_keep m ρ c main_arg7 (by decide)).trans <| rfl

theorem St13_main_arg8 (c : Dev nD) : St13 m ρ c (Proc.devRef .tc main_arg8) = m ((c : Thread nD τ).loc main_arg8) :=
  (St13_keep m ρ c main_arg8 (by decide)).trans <|
  (St12_keep m ρ c main_arg8 (by decide)).trans <|
  (St11_keep m ρ c main_arg8 (by decide)).trans <|
  (St10_keep m ρ c main_arg8 (by decide)).trans <|
  (St9_keep m ρ c main_arg8 (by decide)).trans <|
  (St8_keep m ρ c main_arg8 (by decide)).trans <|
  (St7_keep m ρ c main_arg8 (by decide)).trans <|
  (St6_keep m ρ c main_arg8 (by decide)).trans <|
  (St5_keep m ρ c main_arg8 (by decide)).trans <|
  (St4_keep m ρ c main_arg8 (by decide)).trans <|
  (St3_keep m ρ c main_arg8 (by decide)).trans <|
  (St2_keep m ρ c main_arg8 (by decide)).trans <|
  (St1_keep m ρ c main_arg8 (by decide)).trans <| rfl

theorem St13_main_arg9 (c : Dev nD) : St13 m ρ c (Proc.devRef .tc main_arg9) = m ((c : Thread nD τ).loc main_arg9) :=
  (St13_keep m ρ c main_arg9 (by decide)).trans <|
  (St12_keep m ρ c main_arg9 (by decide)).trans <|
  (St11_keep m ρ c main_arg9 (by decide)).trans <|
  (St10_keep m ρ c main_arg9 (by decide)).trans <|
  (St9_keep m ρ c main_arg9 (by decide)).trans <|
  (St8_keep m ρ c main_arg9 (by decide)).trans <|
  (St7_keep m ρ c main_arg9 (by decide)).trans <|
  (St6_keep m ρ c main_arg9 (by decide)).trans <|
  (St5_keep m ρ c main_arg9 (by decide)).trans <|
  (St4_keep m ρ c main_arg9 (by decide)).trans <|
  (St3_keep m ρ c main_arg9 (by decide)).trans <|
  (St2_keep m ρ c main_arg9 (by decide)).trans <|
  (St1_keep m ρ c main_arg9 (by decide)).trans <| rfl

theorem St13_main_arg10 (c : Dev nD) : St13 m ρ c (Proc.devRef .tc main_arg10) = m ((c : Thread nD τ).loc main_arg10) :=
  (St13_keep m ρ c main_arg10 (by decide)).trans <|
  (St12_keep m ρ c main_arg10 (by decide)).trans <|
  (St11_keep m ρ c main_arg10 (by decide)).trans <|
  (St10_keep m ρ c main_arg10 (by decide)).trans <|
  (St9_keep m ρ c main_arg10 (by decide)).trans <|
  (St8_keep m ρ c main_arg10 (by decide)).trans <|
  (St7_keep m ρ c main_arg10 (by decide)).trans <|
  (St6_keep m ρ c main_arg10 (by decide)).trans <|
  (St5_keep m ρ c main_arg10 (by decide)).trans <|
  (St4_keep m ρ c main_arg10 (by decide)).trans <|
  (St3_keep m ρ c main_arg10 (by decide)).trans <|
  (St2_keep m ρ c main_arg10 (by decide)).trans <|
  (St1_keep m ρ c main_arg10 (by decide)).trans <| rfl

theorem St13_main_arg11 (c : Dev nD) : St13 m ρ c (Proc.devRef .tc main_arg11) = m ((c : Thread nD τ).loc main_arg11) :=
  (St13_keep m ρ c main_arg11 (by decide)).trans <|
  (St12_keep m ρ c main_arg11 (by decide)).trans <|
  (St11_keep m ρ c main_arg11 (by decide)).trans <|
  (St10_keep m ρ c main_arg11 (by decide)).trans <|
  (St9_keep m ρ c main_arg11 (by decide)).trans <|
  (St8_keep m ρ c main_arg11 (by decide)).trans <|
  (St7_keep m ρ c main_arg11 (by decide)).trans <|
  (St6_keep m ρ c main_arg11 (by decide)).trans <|
  (St5_keep m ρ c main_arg11 (by decide)).trans <|
  (St4_keep m ρ c main_arg11 (by decide)).trans <|
  (St3_keep m ρ c main_arg11 (by decide)).trans <|
  (St2_keep m ρ c main_arg11 (by decide)).trans <|
  (St1_keep m ρ c main_arg11 (by decide)).trans <| rfl

theorem St13_main_arg12 (c : Dev nD) : St13 m ρ c (Proc.devRef .tc main_arg12) = m ((c : Thread nD τ).loc main_arg12) :=
  (St13_keep m ρ c main_arg12 (by decide)).trans <|
  (St12_keep m ρ c main_arg12 (by decide)).trans <|
  (St11_keep m ρ c main_arg12 (by decide)).trans <|
  (St10_keep m ρ c main_arg12 (by decide)).trans <|
  (St9_keep m ρ c main_arg12 (by decide)).trans <|
  (St8_keep m ρ c main_arg12 (by decide)).trans <|
  (St7_keep m ρ c main_arg12 (by decide)).trans <|
  (St6_keep m ρ c main_arg12 (by decide)).trans <|
  (St5_keep m ρ c main_arg12 (by decide)).trans <|
  (St4_keep m ρ c main_arg12 (by decide)).trans <|
  (St3_keep m ρ c main_arg12 (by decide)).trans <|
  (St2_keep m ρ c main_arg12 (by decide)).trans <|
  (St1_keep m ρ c main_arg12 (by decide)).trans <| rfl

theorem St13_main_arg13 (c : Dev nD) : St13 m ρ c (Proc.devRef .tc main_arg13) = m ((c : Thread nD τ).loc main_arg13) :=
  (St13_keep m ρ c main_arg13 (by decide)).trans <|
  (St12_keep m ρ c main_arg13 (by decide)).trans <|
  (St11_keep m ρ c main_arg13 (by decide)).trans <|
  (St10_keep m ρ c main_arg13 (by decide)).trans <|
  (St9_keep m ρ c main_arg13 (by decide)).trans <|
  (St8_keep m ρ c main_arg13 (by decide)).trans <|
  (St7_keep m ρ c main_arg13 (by decide)).trans <|
  (St6_keep m ρ c main_arg13 (by decide)).trans <|
  (St5_keep m ρ c main_arg13 (by decide)).trans <|
  (St4_keep m ρ c main_arg13 (by decide)).trans <|
  (St3_keep m ρ c main_arg13 (by decide)).trans <|
  (St2_keep m ρ c main_arg13 (by decide)).trans <|
  (St1_keep m ρ c main_arg13 (by decide)).trans <| rfl

theorem St13_main_arg14 (c : Dev nD) : St13 m ρ c (Proc.devRef .tc main_arg14) = m ((c : Thread nD τ).loc main_arg14) :=
  (St13_keep m ρ c main_arg14 (by decide)).trans <|
  (St12_keep m ρ c main_arg14 (by decide)).trans <|
  (St11_keep m ρ c main_arg14 (by decide)).trans <|
  (St10_keep m ρ c main_arg14 (by decide)).trans <|
  (St9_keep m ρ c main_arg14 (by decide)).trans <|
  (St8_keep m ρ c main_arg14 (by decide)).trans <|
  (St7_keep m ρ c main_arg14 (by decide)).trans <|
  (St6_keep m ρ c main_arg14 (by decide)).trans <|
  (St5_keep m ρ c main_arg14 (by decide)).trans <|
  (St4_keep m ρ c main_arg14 (by decide)).trans <|
  (St3_keep m ρ c main_arg14 (by decide)).trans <|
  (St2_keep m ρ c main_arg14 (by decide)).trans <|
  (St1_keep m ρ c main_arg14 (by decide)).trans <| rfl

/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c _ (mem_unscoped main_arg0 (by decide))).trans (St13_main_arg0 m ρ c),
      (h c _ (mem_unscoped main_arg1 (by decide))).trans (St13_main_arg1 m ρ c),
      (h c _ (mem_unscoped main_arg2 (by decide))).trans (St13_main_arg2 m ρ c),
      (h c _ (mem_unscoped main_arg3 (by decide))).trans (St13_main_arg3 m ρ c),
      (h c _ (mem_unscoped main_arg4 (by decide))).trans (St13_main_arg4 m ρ c),
      (h c _ (mem_unscoped main_arg5 (by decide))).trans (St13_main_arg5 m ρ c),
      (h c _ (mem_unscoped main_arg6 (by decide))).trans (St13_main_arg6 m ρ c),
      (h c _ (mem_unscoped main_arg7 (by decide))).trans (St13_main_arg7 m ρ c),
      (h c _ (mem_unscoped main_arg8 (by decide))).trans (St13_main_arg8 m ρ c),
      (h c _ (mem_unscoped main_arg9 (by decide))).trans (St13_main_arg9 m ρ c),
      (h c _ (mem_unscoped main_arg10 (by decide))).trans (St13_main_arg10 m ρ c),
      (h c _ (mem_unscoped main_arg11 (by decide))).trans (St13_main_arg11 m ρ c),
      (h c _ (mem_unscoped main_arg12 (by decide))).trans (St13_main_arg12 m ρ c),
      (h c _ (mem_unscoped main_arg13 (by decide))).trans (St13_main_arg13 m ρ c),
      (h c _ (mem_unscoped main_arg14 (by decide))).trans (St13_main_arg14 m ρ c)⟩)
    (run_all m ρ)

end Cert.Kernel.Layers

end
-- ==== Proof.InputProjection.lean ====
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The input projection: a 50000×128 by 128×256 product, 2000 rows at a time

The first product of the program, `Y = X · W` with `X` 50000×128, `W` 128×256 and `Y` 50000×256, all stored as
32-bit floats. It runs over 25 grid points; at point `t` its body is handed rows `2000 t … 2000 t + 1999` of `X`, the whole of
`W`, and the buffer for the same rows of `Y`. The body rounds both factors to bfloat16, multiplies them accumulating
in 32-bit floats from zero, and writes the 2000×256 product over the whole of the `Y` buffer. So row `2000 t + r` of `Y`
depends on row `2000 t + r` of `X` and on all of `W`, on no other row of `X`, and on nothing `Y` held before.

This file states that, at any contents `V` of the core's buffers when the product is entered: the blocks (`iblk0`), what
the body leaves in the `Y` buffer as a function of the two blocks (`out0_2`), the body's triple (`sound_kernel0`), and
from them the product's proof data (`dat0`) and its body obligation (`body_obligation0`).
-/

-- membership of an index in a rectangle with a 2000-long axis is looked at once per coordinate of that axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the product is entered: every statement below is at an arbitrary such `V`
variable (V : (c : Dev nD) → (b : Ref sig .tc) → Buf (Elt F) ((c : Thread nD τ).loc b))

/-! ## The blocks -/

/-- Window `w`'s block at grid point `t`, read off its array as the product finds it: for window 0 the rows
    `2000 t … 2000 t + 1999` of the 50000×128 left factor, for window 1 the whole 128×256 right factor (the same at
    every `t`), for window 2 the rows `2000 t … 2000 t + 1999` of the 50000×256 result array as it was before. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's row block is in its buffer whenever the body runs: it is brought in at every point, its block
    is whole (no row is cut off: 25 blocks of 2000 rows are the 50000 rows), and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is in its buffer whenever the body runs, although it is brought in at the first point only:
    its block index is `(0, 0)` at every point, so at a later point the buffer still holds what the point before
    left there, which is the same whole matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer whole -/

/-- all 2000×128 entries of the left factor's row block, -/
abbrev r0_0 : Rect S2000x128 := Rect.unit (s := S2000x128) ![0, 0] S2000x128.size inb_S2000x128_S2000x128_0_0
/-- all 128×256 entries of the right factor, -/
abbrev r0_1 : Rect S128x256 := Rect.unit (s := S128x256) ![0, 0] S128x256.size inb_S128x256_S128x256_0_0
/-- all 2000×256 entries of the result's row block. -/
abbrev r0_2 : Rect S2000x256 := Rect.unit (s := S2000x256) ![0, 0] S2000x256.size inb_S2000x256_S2000x256_0_0

/-! ## What the body leaves in the result's buffer -/

/-- The result's row block after the body, from the two factors' blocks `x0` (rows) and `x1` (the matrix): the one
    write, over the whole block, of `bf16(x0) · bf16(x1)`, each of its 2000×256 entries a sum of 128 products accumulated in 32-bit floats from zero.
    Entry `(r, j)` is a function of row `r` of `x0` and column `j` of `x1` alone, and of nothing the block held before. -/
def out0_2 (x0 : Vec F S2000x128 .f32) (x1 : Vec F S128x256 .f32) : Vec F S2000x256 .f32 :=
  View.canon [⟨r0_2, k0_pay1 (View.ld x0 r0_0) (View.ld x1 r0_1)⟩]

/-- That one write covers the block: its rectangle is the block itself (one tile of the block's own size). -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The body on three whole buffers — the factors' holding `x0` and `x1`, the result's holding anything — runs to a
    state where the factors' buffers hold what they held and the result's holds `out0_2 x0 x1`. It reads the two
    factors, reads the result's buffer too (a value it never uses, so what the buffer held does not matter), and
    writes the product over the whole buffer; the grid coordinate `i` is not used. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The product's proof data -/

/-- On core `c`: the three arrays as the product finds them; after the body at point `t` the factors' buffers hold
    their blocks and the result's holds `out0_2` of them; the rest of the core's state is not touched; nothing is
    owed; every buffer is owned whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the contents at entry. -/
theorem A_eq0 (c : Dev nD) (w : Fin cfg0.W) : (dat0 V c).A w = V c (Pipeline.arrRef spec0 w) := by
  dsimp only [dat0]

/-- What the body leaves, window by window: each factor's block where it was, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- and in the result's buffer the product of the row block at `t` with the matrix. -/
theorem after0_2 (c : Dev nD) (t : Fin cfg0.N) : (dat0 V c).after 2 t = out0_2 (iblk0 V c 0 t) (iblk0 V c 1 t) := by dsimp only [dat0]

/-- Each factor's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is entered with at point `t`: the untouched rest, what is owed, and the three current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so the triple above applies with `x0`, `x1` the
    blocks at `t`; the rest of the state and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Layers

end
-- ==== Proof.FirstActivation.lean ====
/- Region 1 of @main, the first bias-plus-relu kernel (pipeline 1), at a PARAMETER `V`: the TensorCore's
   buffer contents when the region is entered. Its three windows: 0, a 2000×256 row block of the aggregated
   activations, moved at every grid point; 1, the 1×256 bias row, the same block at every point; 2, the output
   row block, written back at every point. Here: each window's block at a point, what the body leaves in the
   output window's buffer as a closed function of the two input blocks (relu of the row block plus the bias row
   broadcast along the rows), the body's triple, the pipeline's proof data, and the body obligation at every
   point of the grid. Everything is stated for any float interpretation `F`. -/
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2000×256: the structural check recurses once per coordinate of the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns its index map selects there, read off its array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block) holds its block at every point, for ANY proof data whose array is `V`'s (`hA`)
    and whose body leaves the block in place (`hafter`). The window is an input, is never idle and is not cut, so
    what its buffer holds at a point is what a transfer there brings: the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the bias row) holds its block at every point, under the same two hypotheses. It is moved at the
    first point only; at a later point its block index has not changed since the point before, the body left the
    block in place there, and the previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000×256 buffer: what the body loads of window 0, and the one rectangle it stores over in window 2. -/
abbrev r1_0 : Rect S2000x256 := Rect.unit (s := S2000x256) ![0, 0] S2000x256.size inb_S2000x256_S2000x256_0_0
/-- The whole 1×256 buffer: what the body loads of window 1. -/
abbrev r1_1 : Rect S1x256 := Rect.unit (s := S1x256) ![0, 0] S1x256.size inb_S1x256_S1x256_0_0

/-! ## What the body leaves in the output window's buffer -/

/-- Window 2's buffer after the body, from the two input blocks: its one store as a list of pieces. The payload is
    the maximum with zero of (row block + bias row broadcast along the rows); it does not depend on what the output
    buffer held before, although the body loads that too. -/
def out1_2 (x0 : Vec F S2000x256 .f32) (x1 : Vec F S1x256 .f32) : Vec F S2000x256 .f32 :=
  View.canon [⟨r1_0, k1_pay1 (View.ld x0 r1_0) (View.ld x1 r1_1)⟩]

/-- The one store is over the whole buffer, so it covers it: every index lies in the stored rectangle. -/
theorem cover1_2 (p0 : Vec F S2000x256 .f32) (y : S2000x256.Idx) :
    ∃ pc ∈ ([⟨r1_0, p0⟩] : List (View.Piece (Elt F) S2000x256 .f32)), y ∈ pc.1.set :=
  View.cover_of_tiled [⟨r1_0, p0⟩] S2000x256.size (by rfl) y

/-! ## The body's triple -/

set_option maxHeartbeats 1000000 in
/-- The kernel body at any grid coordinate `i`, on whole staging memrefs — the inputs' at read contents `x0`, `x1`,
    the output's at anything — runs to the continuation holding the inputs' as they were and the output's at
    `out1_2 x0 x1`. The body is three whole-buffer loads (the third, of the output buffer, is of a value it never
    uses) and one whole-buffer store; what any view reads after a store covering the buffer is the stored piece. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the two input blocks; the invariant is
    "the scoped rest and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents (the definition projected; `V` is never unfolded). -/
theorem A_eq1 (c : Dev nD) (w : Fin cfg1.W) : (dat1 V c).A w = V c (Pipeline.arrRef spec1 w) := by
  dsimp only [dat1]

/-- What the body leaves, window by window (the definition's case split reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, moved there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`: the invariant, what the core owes, and the three windows' current
    staging buffers, one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_0`, `before1_1`), so the body's triple
    applies at the point's coordinates; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point: the three windows conjoined one by one. -/
theorem body_obligation1 (c : Dev nD) : BodyObligation (dat1 (F := F) V c) (defs₀ (F := F)) Variants.none () Set.univ := fun t => by
  rw [bigSep_W1, bigSep_W1]
  exact sound_body1 V c t

end Cert.KernelIdeal.Layers

end
-- ==== Proof.HiddenProjection.lean ====
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The hidden projection: a 50000×256 by 256×128 product, 2000 rows at a time

The second product of the program, `Y = X · W` with `X` 50000×256 (the first product's result after a bias row was added
to every row and negative entries were replaced by zero), `W` 256×128 and `Y` 50000×128, all stored as 32-bit floats. It runs over 25 grid points; at point `t` its body is handed rows
`2000 t … 2000 t + 1999` of `X`, the whole of `W`, and the buffer for the same rows of `Y`. The body rounds both factors to
bfloat16, multiplies them accumulating in 32-bit floats from zero, and writes the 2000×128 product over the whole of the
`Y` buffer. So row `2000 t + r` of `Y` depends on row `2000 t + r` of `X` and on all of `W`, on no other row of `X`, and on
nothing `Y` held before.

This file states that, at any contents `V` of the core's buffers when the product is entered: the blocks (`iblk2`), what
the body leaves in the `Y` buffer as a function of the two blocks (`out2_2`), the body's triple (`sound_kernel2`), and
from them the product's proof data (`dat2`) and its body obligation (`body_obligation2`).
-/

-- membership of an index in a rectangle with a 2000-long axis is looked at once per coordinate of that axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the product is entered: every statement below is at an arbitrary such `V`
variable (V : (c : Dev nD) → (b : Ref sig .tc) → Buf (Elt F) ((c : Thread nD τ).loc b))

/-! ## The blocks -/

/-- Window `w`'s block at grid point `t`, read off its array as the product finds it: for window 0 the rows
    `2000 t … 2000 t + 1999` of the 50000×256 left factor, for window 1 the whole 256×128 right factor (the same at
    every `t`), for window 2 the rows `2000 t … 2000 t + 1999` of the 50000×128 result array as it was before. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's row block is in its buffer whenever the body runs: it is brought in at every point, its block
    is whole (no row is cut off: 25 blocks of 2000 rows are the 50000 rows), and the body leaves it as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor is in its buffer whenever the body runs, although it is brought in at the first point only:
    its block index is `(0, 0)` at every point, so at a later point the buffer still holds what the point before
    left there, which is the same whole matrix. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer whole -/

/-- all 2000×256 entries of the left factor's row block, -/
abbrev r2_0 : Rect S2000x256 := Rect.unit (s := S2000x256) ![0, 0] S2000x256.size inb_S2000x256_S2000x256_0_0
/-- all 256×128 entries of the right factor, -/
abbrev r2_1 : Rect S256x128 := Rect.unit (s := S256x128) ![0, 0] S256x128.size inb_S256x128_S256x128_0_0
/-- all 2000×128 entries of the result's row block. -/
abbrev r2_2 : Rect S2000x128 := Rect.unit (s := S2000x128) ![0, 0] S2000x128.size inb_S2000x128_S2000x128_0_0

/-! ## What the body leaves in the result's buffer -/

/-- The result's row block after the body, from the two factors' blocks `x0` (rows) and `x1` (the matrix): the one
    write, over the whole block, of `bf16(x0) · bf16(x1)`, each of its 2000×128 entries a sum of 256 products accumulated in 32-bit floats from zero.
    Entry `(r, j)` is a function of row `r` of `x0` and column `j` of `x1` alone, and of nothing the block held before. -/
def out2_2 (x0 : Vec F S2000x256 .f32) (x1 : Vec F S256x128 .f32) : Vec F S2000x128 .f32 :=
  View.canon [⟨r2_2, k2_pay1 (View.ld x0 r2_0) (View.ld x1 r2_1)⟩]

/-- That one write covers the block: its rectangle is the block itself (one tile of the block's own size). -/
theorem cover2_2 (p0 : Vec F S2000x128 .f32) (y : S2000x128.Idx) :
    ∃ pc ∈ ([⟨r2_2, p0⟩] : List (View.Piece (Elt F) S2000x128 .f32)), y ∈ pc.1.set :=
  View.cover_of_tiled [⟨r2_2, p0⟩] S2000x128.size (by rfl) y

/-! ## The body's triple -/

set_option maxHeartbeats 1000000 in
/-- The body on three whole buffers — the factors' holding `x0` and `x1`, the result's holding anything — runs to a
    state where the factors' buffers hold what they held and the result's holds `out2_2 x0 x1`. It reads the two
    factors, reads the result's buffer too (a value it never uses, so what the buffer held does not matter), and
    writes the product over the whole buffer; the grid coordinate `i` is not used. -/
theorem sound_kernel2 (c : Dev nD) (E : Set ℕ) (i : grid2.Coords) (arg1 : Memref sig .tc .vmem S2000x256 .f32) (harg1 : arg1.IsWhole) (arg2 : Memref sig .tc .vmem S256x128 .f32) (harg2 : arg2.IsWhole) (arg3 : Memref sig .tc .vmem S2000x128 .f32) (harg3 : arg3.IsWhole)
    (x0 : Vec F S2000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The product's proof data -/

/-- On core `c`: the three arrays as the product finds them; after the body at point `t` the factors' buffers hold
    their blocks and the result's holds `out2_2` of them; the rest of the core's state is not touched; nothing is
    owed; every buffer is owned whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the contents at entry. -/
theorem A_eq2 (c : Dev nD) (w : Fin cfg2.W) : (dat2 V c).A w = V c (Pipeline.arrRef spec2 w) := by
  dsimp only [dat2]

/-- What the body leaves, window by window: each factor's block where it was, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
/-- and in the result's buffer the product of the row block at `t` with the matrix. -/
theorem after2_2 (c : Dev nD) (t : Fin cfg2.N) : (dat2 V c).after 2 t = out2_2 (iblk2 V c 0 t) (iblk2 V c 1 t) := by dsimp only [dat2]

/-- Each factor's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is entered with at point `t`: the untouched rest, what is owed, and the three current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the factors' buffers hold their blocks, so the triple above applies with `x0`, `x1` the
    blocks at `t`; the rest of the state and what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Layers

end
-- ==== Proof.SecondActivation.lean ====
/- Region 3 of @main, the second bias-plus-relu kernel (pipeline 3), at a PARAMETER `V`: the TensorCore's
   buffer contents when the region is entered. Its three windows: 0, a 2000×128 row block of the aggregated
   activations, moved at every grid point; 1, the 1×128 bias row, the same block at every point; 2, the output
   row block, written back at every point. Here: each window's block at a point, what the body leaves in the
   output window's buffer as a closed function of the two input blocks (relu of the row block plus the bias row
   broadcast along the rows), the body's triple, the pipeline's proof data, and the body obligation at every
   point of the grid. Everything is stated for any float interpretation `F`. -/
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extents 2000×128: the structural check recurses once per coordinate of the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows and columns its index map selects there, read off its array as the
    region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block) holds its block at every point, for ANY proof data whose array is `V`'s (`hA`)
    and whose body leaves the block in place (`hafter`). The window is an input, is never idle and is not cut, so
    what its buffer holds at a point is what a transfer there brings: the block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 (the bias row) holds its block at every point, under the same two hypotheses. It is moved at the
    first point only; at a later point its block index has not changed since the point before, the body left the
    block in place there, and the previous point's block is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 2000×128 buffer: what the body loads of window 0, and the one rectangle it stores over in window 2. -/
abbrev r3_0 : Rect S2000x128 := Rect.unit (s := S2000x128) ![0, 0] S2000x128.size inb_S2000x128_S2000x128_0_0
/-- The whole 1×128 buffer: what the body loads of window 1. -/
abbrev r3_1 : Rect S1x128 := Rect.unit (s := S1x128) ![0, 0] S1x128.size inb_S1x128_S1x128_0_0

/-! ## What the body leaves in the output window's buffer -/

/-- Window 2's buffer after the body, from the two input blocks: its one store as a list of pieces. The payload is
    the maximum with zero of (row block + bias row broadcast along the rows); it does not depend on what the output
    buffer held before, although the body loads that too. -/
def out3_2 (x0 : Vec F S2000x128 .f32) (x1 : Vec F S1x128 .f32) : Vec F S2000x128 .f32 :=
  View.canon [⟨r3_0, k3_pay1 (View.ld x0 r3_0) (View.ld x1 r3_1)⟩]

/-- The one store is over the whole buffer, so it covers it: every index lies in the stored rectangle. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

/-! ## The body's triple -/

set_option maxHeartbeats 1000000 in
/-- The kernel body at any grid coordinate `i`, on whole staging memrefs — the inputs' at read contents `x0`, `x1`,
    the output's at anything — runs to the continuation holding the inputs' as they were and the output's at
    `out3_2 x0 x1`. The body is three whole-buffer loads (the third, of the output buffer, is of a value it never
    uses) and one whole-buffer store; what any view reads after a store covering the buffer is the stored piece. -/
theorem sound_kernel3 (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at point
    `t` each input's buffer at its block and the output's at `out3_2` of the two input blocks; the invariant is
    "the scoped rest and the generator register, untouched"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents (the definition projected; `V` is never unfolded). -/
theorem A_eq3 (c : Dev nD) (w : Fin cfg3.W) : (dat3 V c).A w = V c (Pipeline.arrRef spec3 w) := by
  dsimp only [dat3]

/-- What the body leaves, window by window (the definition's case split reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, moved there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`: the invariant, what the core owes, and the three windows' current
    staging buffers, one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_0`, `before3_1`), so the body's triple
    applies at the point's coordinates; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline's proof data, at every point: the three windows conjoined one by one. -/
theorem body_obligation3 (c : Dev nD) : BodyObligation (dat3 (F := F) V c) (defs₀ (F := F)) Variants.none () Set.univ := fun t => by
  rw [bigSep_W3, bigSep_W3]
  exact sound_body3 V c t

end Cert.KernelIdeal.Layers

end
-- ==== Proof.NodeMlp.lean ====
/- Pipeline region 4 of @main: the fused two-layer perceptron `cc4__mlp2_kernel` — the node update, 25 grid points of 2000-row blocks.
   At a PARAMETER `V`, the TensorCore's buffer contents when the region is entered: each window's block at a grid
   point (`iblk4`); what the body leaves in the output window's buffer, as a closed function of the five input
   blocks (`out4_5`); the body's triple (`sound_kernel4`); the pipeline's proof data (`dat4`) and the body
   obligation at every grid point (`body_obligation4`).
   The body reads six windows: 0 the input's row block (fetched at every point), 1..4 the first weight matrix, the
   first bias row, the second weight matrix and the second bias row (each one block, the whole array, fetched at the
   first point only), 5 the output's row block (written back at every point). It loads windows 0..4 whole, loads the
   output block too (a value nothing reads), and stores
     (relu (bf16(x0) · bf16(x1) + x2) as bf16) · bf16(x3) + x4   (each product accumulated in f32)
   over the whole output block. So the output block at a point depends on row block `t` of the input and on the four
   parameter arrays, and on nothing the region wrote earlier. -/
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 (and 5) rows
    `2000·t … 2000·t + 1999` of the array, for windows 1..4 the whole array at every `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the input's row block) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 (the first weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 (the first bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3 (the second weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4 (the second bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the one store go through the whole of a window's buffer -/

abbrev r4_0 : Rect S2000x128 := Rect.unit (s := S2000x128) ![0, 0] S2000x128.size inb_S2000x128_S2000x128_0_0
abbrev r4_1 : Rect S128x256 := Rect.unit (s := S128x256) ![0, 0] S128x256.size inb_S128x256_S128x256_0_0
abbrev r4_2 : Rect S1x256 := Rect.unit (s := S1x256) ![0, 0] S1x256.size inb_S1x256_S1x256_0_0
abbrev r4_3 : Rect S256x128 := Rect.unit (s := S256x128) ![0, 0] S256x128.size inb_S256x128_S256x128_0_0
abbrev r4_4 : Rect S1x128 := Rect.unit (s := S1x128) ![0, 0] S1x128.size inb_S1x128_S1x128_0_0
abbrev r4_5 : Rect S2000x128 := Rect.unit (s := S2000x128) ![0, 0] S2000x128.size inb_S2000x128_S2000x128_0_0

/-! ## What the body leaves in the output window's buffer -/

/-- Window 5's staging buffer after the body, from the five input windows' blocks: its one store, of the two-layer
    value of the blocks, over the whole buffer. Row `i` of the result depends on row `i` of `x0` and on all of
    `x1 … x4`. -/
def out4_5 (x0 : Vec F S2000x128 .f32) (x1 : Vec F S128x256 .f32) (x2 : Vec F S1x256 .f32) (x3 : Vec F S256x128 .f32) (x4 : Vec F S1x128 .f32) : Vec F S2000x128 .f32 :=
  View.canon [⟨r4_5, k4_pay1 (View.ld x0 r4_0) (View.ld x1 r4_1) (View.ld x2 r4_2) (View.ld x3 r4_3) (View.ld x4 r4_4)⟩]

/-- The store's rectangle is the whole buffer (one tile of the buffer's own size, checked by evaluation), so it covers it. -/
theorem cover4_5 (p0 : Vec F S2000x128 .f32) (y : S2000x128.Idx) :
    ∃ pc ∈ ([⟨r4_5, p0⟩] : List (View.Piece (Elt F) S2000x128 .f32)), y ∈ pc.1.set :=
  View.cover_of_tiled [⟨r4_5, p0⟩] S2000x128.size (by rfl) y

/-! ## The body's triple -/

set_option maxHeartbeats 1000000 in
/-- The body at any grid coordinate `i` (which it does not read), on whole staging memrefs: the five inputs' at read
    contents `x0 … x4` and the output's at anything, it runs to the continuation holding the inputs' as they were and the
    output's at `out4_5 x0 … x4`. The function is its sequence of six whole-buffer loads and one whole-buffer store
    over the named payload; the sixth load reads the output buffer's prior contents, which nothing uses, and the
    store overwrites all of them. -/
theorem sound_kernel4 (c : Dev nD) (E : Set ℕ) (i : grid4.Coords) (arg1 : Memref sig .tc .vmem S2000x128 .f32) (harg1 : arg1.IsWhole) (arg2 : Memref sig .tc .vmem S128x256 .f32) (harg2 : arg2.IsWhole) (arg3 : Memref sig .tc .vmem S1x256 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 : Vec F S128x256 .f32) (x2 : Vec F S1x256 .f32) (x3 : Vec F S256x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp2_kernel i arg1 harg1 arg2 harg2 arg3 harg3 arg4 harg4 arg5 harg5 arg6 harg6) K := by
  simp only [cc4__mlp2_kernel_eq_skeleton]; unfold cc4__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the region on core `c`: the arrays as the region finds them (`V`); after the body at point `t`
    each input's buffer at its block and the output's at `out4_5` of the five input blocks; the invariant: the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected; `V` is never unfolded). -/
theorem A_eq4 (c : Dev nD) (w : Fin cfg4.W) : (dat4 V c).A w = V c (Pipeline.arrRef spec4 w) := by
  dsimp only [dat4]

/-- What the body leaves, window by window (the definition's case split reduced at each literal window). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, what the core owes, and the six windows' current
    staging buffers one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the five inputs' memrefs hold their blocks (`before4_w`), the output's holds anything, so
    `sound_kernel4` applies; the invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point (the six windows' conjunction written out). -/
theorem body_obligation4 (c : Dev nD) : BodyObligation (dat4 (F := F) V c) (defs₀ (F := F)) Variants.none () Set.univ := fun t => by
  rw [bigSep_W4, bigSep_W4]
  exact sound_body4 V c t

end Cert.KernelIdeal.Layers

end
-- ==== Proof.EdgeMlp.lean ====
/- Pipeline region 5 of @main: the fused two-layer perceptron `cc5__mlp2_kernel` — the edge update, 200 grid points of 4000-row blocks.
   At a PARAMETER `V`, the TensorCore's buffer contents when the region is entered: each window's block at a grid
   point (`iblk5`); what the body leaves in the output window's buffer, as a closed function of the five input
   blocks (`out5_5`); the body's triple (`sound_kernel5`); the pipeline's proof data (`dat5`) and the body
   obligation at every grid point (`body_obligation5`).
   The body reads six windows: 0 the input's row block (fetched at every point), 1..4 the first weight matrix, the
   first bias row, the second weight matrix and the second bias row (each one block, the whole array, fetched at the
   first point only), 5 the output's row block (written back at every point). It loads windows 0..4 whole, loads the
   output block too (a value nothing reads), and stores
     (relu (bf16(x0) · bf16(x1) + x2) as bf16) · bf16(x3) + x4   (each product accumulated in f32)
   over the whole output block. So the output block at a point depends on row block `t` of the input and on the four
   parameter arrays, and on nothing the region wrote earlier. -/
import proofs.«138351_j90890097918029_1_alg».proof.Proof.Gen.KernelIdeal.Launch
import proofs.«138351_j90890097918029_1_alg».proof.Proof.Gen.KernelIdeal.Skeleton
import proofs.«138351_j90890097918029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural check recurses once per coordinate of the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): for window 0 (and 5) rows
    `4000·t … 4000·t + 3999` of the array, for windows 1..4 the whole array at every `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 (the input's row block) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 (the first weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 (the first bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 (the second weight matrix) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4 (the second bias row) holds its block in its current staging buffer at every point, fetched there or
    not, for any proof data whose array is `V`'s (`hA`) and whose body leaves the block in place (`hafter`): where
    it is not fetched its block index has not moved since the point before, and the buffer still holds that point's
    block, which is this one's. The window is an input, uncut, and idle nowhere (each by unfolding). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store go through the whole of a window's buffer -/

abbrev r5_0 : Rect S4000x272 := Rect.unit (s := S4000x272) ![0, 0] S4000x272.size inb_S4000x272_S4000x272_0_0
abbrev r5_1 : Rect S272x256 := Rect.unit (s := S272x256) ![0, 0] S272x256.size inb_S272x256_S272x256_0_0
abbrev r5_2 : Rect S1x256 := Rect.unit (s := S1x256) ![0, 0] S1x256.size inb_S1x256_S1x256_0_0
abbrev r5_3 : Rect S256x16 := Rect.unit (s := S256x16) ![0, 0] S256x16.size inb_S256x16_S256x16_0_0
abbrev r5_4 : Rect S1x16 := Rect.unit (s := S1x16) ![0, 0] S1x16.size inb_S1x16_S1x16_0_0
abbrev r5_5 : Rect S4000x16 := Rect.unit (s := S4000x16) ![0, 0] S4000x16.size inb_S4000x16_S4000x16_0_0

/-! ## What the body leaves in the output window's buffer -/

/-- Window 5's staging buffer after the body, from the five input windows' blocks: its one store, of the two-layer
    value of the blocks, over the whole buffer. Row `i` of the result depends on row `i` of `x0` and on all of
    `x1 … x4`. -/
def out5_5 (x0 : Vec F S4000x272 .f32) (x1 : Vec F S272x256 .f32) (x2 : Vec F S1x256 .f32) (x3 : Vec F S256x16 .f32) (x4 : Vec F S1x16 .f32) : Vec F S4000x16 .f32 :=
  View.canon [⟨r5_5, k5_pay1 (View.ld x0 r5_0) (View.ld x1 r5_1) (View.ld x2 r5_2) (View.ld x3 r5_3) (View.ld x4 r5_4)⟩]

/-- The store's rectangle is the whole buffer (one tile of the buffer's own size, checked by evaluation), so it covers it. -/
theorem cover5_5 (p0 : Vec F S4000x16 .f32) (y : S4000x16.Idx) :
    ∃ pc ∈ ([⟨r5_5, p0⟩] : List (View.Piece (Elt F) S4000x16 .f32)), y ∈ pc.1.set :=
  View.cover_of_tiled [⟨r5_5, p0⟩] S4000x16.size (by rfl) y

/-! ## The body's triple -/

set_option maxHeartbeats 1000000 in
/-- The body at any grid coordinate `i` (which it does not read), on whole staging memrefs: the five inputs' at read
    contents `x0 … x4` and the output's at anything, it runs to the continuation holding the inputs' as they were and the
    output's at `out5_5 x0 … x4`. The function is its sequence of six whole-buffer loads and one whole-buffer store
    over the named payload; the sixth load reads the output buffer's prior contents, which nothing uses, and the
    store overwrites all of them. -/
theorem sound_kernel5 (c : Dev nD) (E : Set ℕ) (i : grid5.Coords) (arg1 : Memref sig .tc .vmem S4000x272 .f32) (harg1 : arg1.IsWhole) (arg2 : Memref sig .tc .vmem S272x256 .f32) (harg2 : arg2.IsWhole) (arg3 : Memref sig .tc .vmem S1x256 .f32) (harg3 : arg3.IsWhole) (arg4 : Memref sig .tc .vmem S256x16 .f32) (harg4 : arg4.IsWhole) (arg5 : Memref sig .tc .vmem S1x16 .f32) (harg5 : arg5.IsWhole) (arg6 : Memref sig .tc .vmem S4000x16 .f32) (harg6 : arg6.IsWhole)
    (x0 : Vec F S4000x272 .f32) (x1 : Vec F S272x256 .f32) (x2 : Vec F S1x256 .f32) (x3 : Vec F S256x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp2_kernel i arg1 harg1 arg2 harg2 arg3 harg3 arg4 harg4 arg5 harg5 arg6 harg6) K := by
  simp only [cc5__mlp2_kernel_eq_skeleton]; unfold cc5__mlp2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region on core `c`: the arrays as the region finds them (`V`); after the body at point `t`
    each input's buffer at its block and the output's at `out5_5` of the five input blocks; the invariant: the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected; `V` is never unfolded). -/
theorem A_eq5 (c : Dev nD) (w : Fin cfg5.W) : (dat5 V c).A w = V c (Pipeline.arrRef spec5 w) := by
  dsimp only [dat5]

/-- What the body leaves, window by window (the definition's case split reduced at each literal window). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, what the core owes, and the six windows' current
    staging buffers one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five inputs' memrefs hold their blocks (`before5_w`), the output's holds anything, so
    `sound_kernel5` applies; the invariant and what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's proof data, at every point (the six windows' conjunction written out). -/
theorem body_obligation5 (c : Dev nD) : BodyObligation (dat5 (F := F) V c) (defs₀ (F := F)) Variants.none () Set.univ := fun t => by
  rw [bigSep_W5, bigSep_W5]
  exact sound_body5 V c t

end Cert.KernelIdeal.Layers

end
-- ==== Proof.LayersRun.lean ====
/-
  The whole run of the program, from the launch to the return, with every buffer's contents NAMED at each of the thirteen
  boundaries between its items: eight stretches of host operations and six kernel regions (the first projection x·W1, the
  first bias and rectifier, the second projection h·W2, the second bias and rectifier, the node network, the edge network).
  `St j c` is what core `c`'s buffers hold after item `j`: after a host stretch, the stretch's operations applied to what
  was there; after a region, the region's arrays at what its write-backs leave (the inputs as entered, the output array the
  fold of the blocks the grid points wrote) and every other buffer as entered. From these: each region as a segment between
  two boundaries, @main as the list of the thirteen segments, and `run_all` — every weakly fair execution terminates, nothing
  faulting, with every unscoped buffer of every core at `St13`. The frame (the fifteen argument arrays end as launched)
  is read off `St13` by walking each argument back through the thirteen items, none of which writes it.
-/
import proofs.«138351_j90890097918029_1_alg».proof.Proof.InputProjection
import proofs.«138351_j90890097918029_1_alg».proof.Proof.FirstActivation
import proofs.«138351_j90890097918029_1_alg».proof.Proof.HiddenProjection
import proofs.«138351_j90890097918029_1_alg».proof.Proof.SecondActivation
import proofs.«138351_j90890097918029_1_alg».proof.Proof.NodeMlp
import proofs.«138351_j90890097918029_1_alg».proof.Proof.EdgeMlp
import proofs.«138351_j90890097918029_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev St0 : Dev nD → Valuation τ sig (Elt F) := fun c b => (s₀ m ρ).mem ((c : Dev nD), b)
/-- The same, read at the TensorCore's references. -/
abbrev At0 : (c : Dev nD) → (b : Ref sig .tc) → Buf (Elt F) ((c : Thread nD τ).loc b) := fun c b => St0 m ρ c b

/-- After the host stretch `hostOps0`. -/
abbrev St1 : Dev nD → Valuation τ sig (Elt F) := fun c => StableHlo.after hostOps0 (St0 m ρ c)
abbrev At1 : (c : Dev nD) → (b : Ref sig .tc) → Buf (Elt F) ((c : Thread nD τ).loc b) := fun c b => St1 m ρ c b
/-- A buffer the stretch does not write is as before it. -/
theorem St1_keep (c : Dev nD) (b : Ref sig .tc) (h : b ∉ hostOps0_W) : St1 m ρ c b = St0 m ρ c b :=
  StableHlo.after_of_writes_sub hostOps0 _ hostOps0_writes h

/-- After the host stretch `hostOps0_1`. -/
abbrev St2 : Dev nD → Valuation τ sig (Elt F) := fun c => StableHlo.after hostOps0_1 (St1 m ρ c)
abbrev At2 : (c : Dev nD) → (b : Ref sig .tc) → Buf (Elt F) ((c : Thread nD τ).loc b) := fun c b => St2 m ρ c b
/-- A buffer the stretch does not write is as before it. -/
theorem St2_keep (c : Dev nD) (b : Ref sig .tc) (h : b ∉ hostOps0_1_W) : St2 m ρ c b = St1 m ρ c b :=
  StableHlo.after_of_writes_sub hostOps0_1 _ hostOps0_1_writes h

/-- After the host stretch `hostOps0_2`. -/
abbrev St3 : Dev nD → Valuation τ sig (Elt F) := fun c => StableHlo.after hostOps0_2 (St2 m ρ c)
abbrev At3 : (c : Dev nD) → (b : Ref sig .tc) → Buf (Elt F) ((c : Thread nD τ).loc b) := fun c b => St3 m ρ c b
/-- A buffer the stretch does not write is as before it. -/
theorem St3_keep (c : Dev nD) (b : Ref sig .tc) (h : b ∉ hostOps0_2_W) : St3 m ρ c b = St2 m ρ c b :=
  StableHlo.after_of_writes_sub hostOps0_2 _ hostOps0_2_writes h

/-- After region 0 (the first projection x·W1): its arrays at what the pipeline leaves, every other buffer as entered. -/
def St4 (c : Dev nD) : Valuation τ sig (Elt F) :=
  Pipeline.withArrays spec0 c (St3 m ρ c) fun w => (dat0 (At3 m ρ) c).arrAt w cfg0.N
theorem St4_arr (c : Dev nD) (w : Fin cfg0.W) :
    St4 m ρ c (Proc.devRef .tc (Pipeline.arrRef spec0 w)) = (dat0 (At3 m ρ) c).arrAt w cfg0.N := by
  unfold St4; exact Pipeline.withArrays_arr spec0 launch0.win.arr_inj c _ _ w
theorem St4_of_ne (c : Dev nD) (b : Ref sig .tc) (hb : ∀ w, Pipeline.arrRef spec0 w ≠ b) :
    St4 m ρ c (Proc.devRef .tc b) = St3 m ρ c (Proc.devRef .tc b) := by
  unfold St4; exact Pipeline.withArrays_of_ne spec0 c _ _ b hb
abbrev At4 : (c : Dev nD) → (b : Ref sig .tc) → Buf (Elt F) ((c : Thread nD τ).loc b) := fun c b => St4 m ρ c b
theorem hF0 (c : Dev nD) (w : Fin cfg0.W) : (dat0 (At3 m ρ) c).arrAt w cfg0.N = At4 m ρ c (Pipeline.arrRef spec0 w) :=
  (St4_arr m ρ c w).symm
theorem hrest0 (c : Dev nD) : ∀ b, b ∉ Finset.univ.image (Pipeline.arrRef spec0) → At4 m ρ c b = At3 m ρ c b :=
  fun b hb => St4_of_ne m ρ c b fun w e => hb (Finset.mem_image.mpr ⟨w, Finset.mem_univ _, e⟩)
/-- Every buffer but the region's output array is as entered: an input array is only read. -/
theorem St4_keep (c : Dev nD) (b : Ref sig .tc) (hb : b ≠ main_v32) :
    St4 m ρ c (Proc.devRef .tc b) = St3 m ρ c (Proc.devRef .tc b) := by
  by_cases h : ∀ w, Pipeline.arrRef spec0 w ≠ b
  · exact St4_of_ne m ρ c b h
  · push Not at h
    obtain ⟨w, rfl⟩ := h
    have hin : (cfg0.win w).isOut = false := by
      match w, hb with
      | ⟨0, _⟩, _ => rfl
      | ⟨1, _⟩, _ => rfl
      | ⟨2, _⟩, hb => exact absurd rfl hb
    exact (St4_arr m ρ c w).trans (((dat0 (At3 m ρ) c).arrAt_in w hin _).trans (A_eq0 (At3 m ρ) c w))

/-- After the host stretch `hostOps1`. -/
abbrev St5 : Dev nD → Valuation τ sig (Elt F) := fun c => StableHlo.after hostOps1 (St4 m ρ c)
abbrev At5 : (c : Dev nD) → (b : Ref sig .tc) → Buf (Elt F) ((c : Thread nD τ).loc b) := fun c b => St5 m ρ c b
/-- A buffer the stretch does not write is as before it. -/
theorem St5_keep (c : Dev nD) (b : Ref sig .tc) (h : b ∉ hostOps1_W) : St5 m ρ c b = St4 m ρ c b :=
  StableHlo.after_of_writes_sub hostOps1 _ hostOps1_writes h

/-- After region 1 (the first bias and rectifier): its arrays at what the pipeline leaves, every other buffer as entered. -/
def St6 (c : Dev nD) : Valuation τ sig (Elt F) :=
  Pipeline.withArrays spec1 c (St5 m ρ c) fun w => (dat1 (At5 m ρ) c).arrAt w cfg1.N
theorem St6_arr (c : Dev nD) (w : Fin cfg1.W) :
    St6 m ρ c (Proc.devRef .tc (Pipeline.arrRef spec1 w)) = (dat1 (At5 m ρ) c).arrAt w cfg1.N := by
  unfold St6; exact Pipeline.withArrays_arr spec1 launch1.win.arr_inj c _ _ w
theorem St6_of_ne (c : Dev nD) (b : Ref sig .tc) (hb : ∀ w, Pipeline.arrRef spec1 w ≠ b) :
    St6 m ρ c (Proc.devRef .tc b) = St5 m ρ c (Proc.devRef .tc b) := by
  unfold St6; exact Pipeline.withArrays_of_ne spec1 c _ _ b hb
abbrev At6 : (c : Dev nD) → (b : Ref sig .tc) → Buf (Elt F) ((c : Thread nD τ).loc b) := fun c b => St6 m ρ c b
theorem hF1 (c : Dev nD) (w : Fin cfg1.W) : (dat1 (At5 m ρ) c).arrAt w cfg1.N = At6 m ρ c (Pipeline.arrRef spec1 w) :=
  (St6_arr m ρ c w).symm
theorem hrest1 (c : Dev nD) : ∀ b, b ∉ Finset.univ.image (Pipeline.arrRef spec1) → At6 m ρ c b = At5 m ρ c b :=
  fun b hb => St6_of_ne m ρ c b fun w e => hb (Finset.mem_image.mpr ⟨w, Finset.mem_univ _, e⟩)
/-- Every buffer but the region's output array is as entered: an input array is only read. -/
theorem St6_keep (c : Dev nD) (b : Ref sig .tc) (hb : b ≠ main_v47) :
    St6 m ρ c (Proc.devRef .tc b) = St5 m ρ c (Proc.devRef .tc b) := by
  by_cases h : ∀ w, Pipeline.arrRef spec1 w ≠ b
  · exact St6_of_ne m ρ c b h
  · push Not at h
    obtain ⟨w, rfl⟩ := h
    have hin : (cfg1.win w).isOut = false := by
      match w, hb with
      | ⟨0, _⟩, _ => rfl
      | ⟨1, _⟩, _ => rfl
      | ⟨2, _⟩, hb => exact absurd rfl hb
    exact (St6_arr m ρ c w).trans (((dat1 (At5 m ρ) c).arrAt_in w hin _).trans (A_eq1 (At5 m ρ) c w))

/-- After region 2 (the second projection h·W2): its arrays at what the pipeline leaves, every other buffer as entered. -/
def St7 (c : Dev nD) : Valuation τ sig (Elt F) :=
  Pipeline.withArrays spec2 c (St6 m ρ c) fun w => (dat2 (At6 m ρ) c).arrAt w cfg2.N
theorem St7_arr (c : Dev nD) (w : Fin cfg2.W) :
    St7 m ρ c (Proc.devRef .tc (Pipeline.arrRef spec2 w)) = (dat2 (At6 m ρ) c).arrAt w cfg2.N := by
  unfold St7; exact Pipeline.withArrays_arr spec2 launch2.win.arr_inj c _ _ w
theorem St7_of_ne (c : Dev nD) (b : Ref sig .tc) (hb : ∀ w, Pipeline.arrRef spec2 w ≠ b) :
    St7 m ρ c (Proc.devRef .tc b) = St6 m ρ c (Proc.devRef .tc b) := by
  unfold St7; exact Pipeline.withArrays_of_ne spec2 c _ _ b hb
abbrev At7 : (c : Dev nD) → (b : Ref sig .tc) → Buf (Elt F) ((c : Thread nD τ).loc b) := fun c b => St7 m ρ c b
theorem hF2 (c : Dev nD) (w : Fin cfg2.W) : (dat2 (At6 m ρ) c).arrAt w cfg2.N = At7 m ρ c (Pipeline.arrRef spec2 w) :=
  (St7_arr m ρ c w).symm
theorem hrest2 (c : Dev nD) : ∀ b, b ∉ Finset.univ.image (Pipeline.arrRef spec2) → At7 m ρ c b = At6 m ρ c b :=
  fun b hb => St7_of_ne m ρ c b fun w e => hb (Finset.mem_image.mpr ⟨w, Finset.mem_univ _, e⟩)
/-- Every buffer but the region's output array is as entered: an input array is only read. -/
theorem St7_keep (c : Dev nD) (b : Ref sig .tc) (hb : b ≠ main_v48) :
    St7 m ρ c (Proc.devRef .tc b) = St6 m ρ c (Proc.devRef .tc b) := by
  by_cases h : ∀ w, Pipeline.arrRef spec2 w ≠ b
  · exact St7_of_ne m ρ c b h
  · push Not at h
    obtain ⟨w, rfl⟩ := h
    have hin : (cfg2.win w).isOut = false := by
      match w, hb with
      | ⟨0, _⟩, _ => rfl
      | ⟨1, _⟩, _ => rfl
      | ⟨2, _⟩, hb => exact absurd rfl hb
    exact (St7_arr m ρ c w).trans (((dat2 (At6 m ρ) c).arrAt_in w hin _).trans (A_eq2 (At6 m ρ) c w))

/-- After the host stretch `hostOps3`. -/
abbrev St8 : Dev nD → Valuation τ sig (Elt F) := fun c => StableHlo.after hostOps3 (St7 m ρ c)
abbrev At8 : (c : Dev nD) → (b : Ref sig .tc) → Buf (Elt F) ((c : Thread nD τ).loc b) := fun c b => St8 m ρ c b
/-- A buffer the stretch does not write is as before it. -/
theorem St8_keep (c : Dev nD) (b : Ref sig .tc) (h : b ∉ hostOps3_W) : St8 m ρ c b = St7 m ρ c b :=
  StableHlo.after_of_writes_sub hostOps3 _ hostOps3_writes h

/-- After region 3 (the second bias and rectifier): its arrays at what the pipeline leaves, every other buffer as entered. -/
def St9 (c : Dev nD) : Valuation τ sig (Elt F) :=
  Pipeline.withArrays spec3 c (St8 m ρ c) fun w => (dat3 (At8 m ρ) c).arrAt w cfg3.N
theorem St9_arr (c : Dev nD) (w : Fin cfg3.W) :
    St9 m ρ c (Proc.devRef .tc (Pipeline.arrRef spec3 w)) = (dat3 (At8 m ρ) c).arrAt w cfg3.N := by
  unfold St9; exact Pipeline.withArrays_arr spec3 launch3.win.arr_inj c _ _ w
theorem St9_of_ne (c : Dev nD) (b : Ref sig .tc) (hb : ∀ w, Pipeline.arrRef spec3 w ≠ b) :
    St9 m ρ c (Proc.devRef .tc b) = St8 m ρ c (Proc.devRef .tc b) := by
  unfold St9; exact Pipeline.withArrays_of_ne spec3 c _ _ b hb
abbrev At9 : (c : Dev nD) → (b : Ref sig .tc) → Buf (Elt F) ((c : Thread nD τ).loc b) := fun c b => St9 m ρ c b
theorem hF3 (c : Dev nD) (w : Fin cfg3.W) : (dat3 (At8 m ρ) c).arrAt w cfg3.N = At9 m ρ c (Pipeline.arrRef spec3 w) :=
  (St9_arr m ρ c w).symm
theorem hrest3 (c : Dev nD) : ∀ b, b ∉ Finset.univ.image (Pipeline.arrRef spec3) → At9 m ρ c b = At8 m ρ c b :=
  fun b hb => St9_of_ne m ρ c b fun w e => hb (Finset.mem_image.mpr ⟨w, Finset.mem_univ _, e⟩)
/-- Every buffer but the region's output array is as entered: an input array is only read. -/
theorem St9_keep (c : Dev nD) (b : Ref sig .tc) (hb : b ≠ main_v63) :
    St9 m ρ c (Proc.devRef .tc b) = St8 m ρ c (Proc.devRef .tc b) := by
  by_cases h : ∀ w, Pipeline.arrRef spec3 w ≠ b
  · exact St9_of_ne m ρ c b h
  · push Not at h
    obtain ⟨w, rfl⟩ := h
    have hin : (cfg3.win w).isOut = false := by
      match w, hb with
      | ⟨0, _⟩, _ => rfl
      | ⟨1, _⟩, _ => rfl
      | ⟨2, _⟩, hb => exact absurd rfl hb
    exact (St9_arr m ρ c w).trans (((dat3 (At8 m ρ) c).arrAt_in w hin _).trans (A_eq3 (At8 m ρ) c w))

/-- After the host stretch `hostOps4`. -/
abbrev St10 : Dev nD → Valuation τ sig (Elt F) := fun c => StableHlo.after hostOps4 (St9 m ρ c)
abbrev At10 : (c : Dev nD) → (b : Ref sig .tc) → Buf (Elt F) ((c : Thread nD τ).loc b) := fun c b => St10 m ρ c b
/-- A buffer the stretch does not write is as before it. -/
theorem St10_keep (c : Dev nD) (b : Ref sig .tc) (h : b ∉ hostOps4_W) : St10 m ρ c b = St9 m ρ c b :=
  StableHlo.after_of_writes_sub hostOps4 _ hostOps4_writes h

/-- After region 4 (the node network): its arrays at what the pipeline leaves, every other buffer as entered. -/
def St11 (c : Dev nD) : Valuation τ sig (Elt F) :=
  Pipeline.withArrays spec4 c (St10 m ρ c) fun w => (dat4 (At10 m ρ) c).arrAt w cfg4.N
theorem St11_arr (c : Dev nD) (w : Fin cfg4.W) :
    St11 m ρ c (Proc.devRef .tc (Pipeline.arrRef spec4 w)) = (dat4 (At10 m ρ) c).arrAt w cfg4.N := by
  unfold St11; exact Pipeline.withArrays_arr spec4 launch4.win.arr_inj c _ _ w
theorem St11_of_ne (c : Dev nD) (b : Ref sig .tc) (hb : ∀ w, Pipeline.arrRef spec4 w ≠ b) :
    St11 m ρ c (Proc.devRef .tc b) = St10 m ρ c (Proc.devRef .tc b) := by
  unfold St11; exact Pipeline.withArrays_of_ne spec4 c _ _ b hb
abbrev At11 : (c : Dev nD) → (b : Ref sig .tc) → Buf (Elt F) ((c : Thread nD τ).loc b) := fun c b => St11 m ρ c b
theorem hF4 (c : Dev nD) (w : Fin cfg4.W) : (dat4 (At10 m ρ) c).arrAt w cfg4.N = At11 m ρ c (Pipeline.arrRef spec4 w) :=
  (St11_arr m ρ c w).symm
theorem hrest4 (c : Dev nD) : ∀ b, b ∉ Finset.univ.image (Pipeline.arrRef spec4) → At11 m ρ c b = At10 m ρ c b :=
  fun b hb => St11_of_ne m ρ c b fun w e => hb (Finset.mem_image.mpr ⟨w, Finset.mem_univ _, e⟩)
/-- Every buffer but the region's output array is as entered: an input array is only read. -/
theorem St11_keep (c : Dev nD) (b : Ref sig .tc) (hb : b ≠ main_v66) :
    St11 m ρ c (Proc.devRef .tc b) = St10 m ρ c (Proc.devRef .tc b) := by
  by_cases h : ∀ w, Pipeline.arrRef spec4 w ≠ b
  · exact St11_of_ne m ρ c b h
  · push Not at h
    obtain ⟨w, rfl⟩ := h
    have hin : (cfg4.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact (St11_arr m ρ c w).trans (((dat4 (At10 m ρ) c).arrAt_in w hin _).trans (A_eq4 (At10 m ρ) c w))

/-- After the host stretch `hostOps5`. -/
abbrev St12 : Dev nD → Valuation τ sig (Elt F) := fun c => StableHlo.after hostOps5 (St11 m ρ c)
abbrev At12 : (c : Dev nD) → (b : Ref sig .tc) → Buf (Elt F) ((c : Thread nD τ).loc b) := fun c b => St12 m ρ c b
/-- A buffer the stretch does not write is as before it. -/
theorem St12_keep (c : Dev nD) (b : Ref sig .tc) (h : b ∉ hostOps5_W) : St12 m ρ c b = St11 m ρ c b :=
  StableHlo.after_of_writes_sub hostOps5 _ hostOps5_writes h

/-- After region 5 (the edge network): its arrays at what the pipeline leaves, every other buffer as entered. -/
def St13 (c : Dev nD) : Valuation τ sig (Elt F) :=
  Pipeline.withArrays spec5 c (St12 m ρ c) fun w => (dat5 (At12 m ρ) c).arrAt w cfg5.N
theorem St13_arr (c : Dev nD) (w : Fin cfg5.W) :
    St13 m ρ c (Proc.devRef .tc (Pipeline.arrRef spec5 w)) = (dat5 (At12 m ρ) c).arrAt w cfg5.N := by
  unfold St13; exact Pipeline.withArrays_arr spec5 launch5.win.arr_inj c _ _ w
theorem St13_of_ne (c : Dev nD) (b : Ref sig .tc) (hb : ∀ w, Pipeline.arrRef spec5 w ≠ b) :
    St13 m ρ c (Proc.devRef .tc b) = St12 m ρ c (Proc.devRef .tc b) := by
  unfold St13; exact Pipeline.withArrays_of_ne spec5 c _ _ b hb
abbrev At13 : (c : Dev nD) → (b : Ref sig .tc) → Buf (Elt F) ((c : Thread nD τ).loc b) := fun c b => St13 m ρ c b
theorem hF5 (c : Dev nD) (w : Fin cfg5.W) : (dat5 (At12 m ρ) c).arrAt w cfg5.N = At13 m ρ c (Pipeline.arrRef spec5 w) :=
  (St13_arr m ρ c w).symm
theorem hrest5 (c : Dev nD) : ∀ b, b ∉ Finset.univ.image (Pipeline.arrRef spec5) → At13 m ρ c b = At12 m ρ c b :=
  fun b hb => St13_of_ne m ρ c b fun w e => hb (Finset.mem_image.mpr ⟨w, Finset.mem_univ _, e⟩)
/-- Every buffer but the region's output array is as entered: an input array is only read. -/
theorem St13_keep (c : Dev nD) (b : Ref sig .tc) (hb : b ≠ main_v84) :
    St13 m ρ c (Proc.devRef .tc b) = St12 m ρ c (Proc.devRef .tc b) := by
  by_cases h : ∀ w, Pipeline.arrRef spec5 w ≠ b
  · exact St13_of_ne m ρ c b h
  · push Not at h
    obtain ⟨w, rfl⟩ := h
    have hin : (cfg5.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact (St13_arr m ρ c w).trans (((dat5 (At12 m ρ) c).arrAt_in w hin _).trans (A_eq5 (At12 m ρ) c w))

/-! ## The proof data of the six pipelines, and what rides beside the buffers -/

/-- No pipeline has a prefetched table. -/
abbrev admAll : (p : Fin 6) → (pcfgs (F := F) p).Adm := fun p => (cfgs p).toPCfg_adm
/-- Each pipeline's proof data at its region's entry contents. -/
def allDats : (p : Fin 6) → (c : Dev nD) → Dat τ (Elt F) Unit ℕ (UR sig nD τ) ℕ (Pipeline.pin (pcfgs (F := F)) admAll p) c
  | ⟨0, _⟩ => fun c => dat0 (At3 m ρ) c
  | ⟨1, _⟩ => fun c => dat1 (At5 m ρ) c
  | ⟨2, _⟩ => fun c => dat2 (At6 m ρ) c
  | ⟨3, _⟩ => fun c => dat3 (At8 m ρ) c
  | ⟨4, _⟩ => fun c => dat4 (At10 m ρ) c
  | ⟨5, _⟩ => fun c => dat5 (At12 m ρ) c
abbrev noVariants : Variants := Variants.none
/-- No core owes another anything. -/
abbrev noPairs : GSem nD τ sig → Finset Unit := fun _ => ∅
abbrev noLevel : GSem nD τ sig → Unit → ℕ := fun _ _ => 0
/-- Beside the buffers, through every item: the core's generator register at some state, and the core owing nothing. -/
abbrev Beside (c : Dev nD) : sProp 𝕄 := iprop((∃ r, prngReg c r) ∗ ∃ W, owes (c : Thread nD τ) (0 : CellTallies nD τ sig Unit) W)
/-- A host stretch as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's debts: every unscoped buffer at `St13`, the generator register at some state. -/
abbrev Tlast (c : Dev nD) : sProp 𝕄 := iprop(StableHlo.held (c : Thread nD τ) (Pipeline.ucRefs τ sig) (St13 m ρ c) ∗ ∃ r, prngReg c r)

/-! ## The regions as segments -/

set_option backward.isDefEq.respectTransparency.types false in
/-- Region 0 (the first projection x·W1): entered from every unscoped buffer at `St3`, left at `St4`. Its arrays are split out of
    the unscoped buffers at entry and put back at the exit contents; the generator register goes into the pipeline's
    invariant and comes out; nothing is owed; the kernel has no semaphore of its own. -/
def reg0 : Pipeline.RegionSeg (pcfgs (F := F)) admAll (allDats m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (At3 m ρ) c).loose
  hwaits := Pipeline.hwaits_of_owed_zero _ _ _ _ noPairs noLevel 0 fun _ _ => rfl
  pre c := iprop(StableHlo.held (c : Thread nD τ) (Pipeline.ucRefs τ sig) (St3 m ρ c) ∗ Beside c)
  post c := iprop(StableHlo.held (c : Thread nD τ) (Pipeline.ucRefs τ sig) (St4 m ρ c) ∗ Beside c)
  X c := iprop(∃ r, prngReg c r)
  Y c := iprop(∃ r, prngReg c r)
  Z c := Pipeline.unscopedRest (Ix := Unit) (Name := ℕ) (U := UR sig nD τ) (Lvl := ℕ) spec0 c (At3 m ρ c)
  hentry c := by
    rw [Pipeline.ownSems0_none]
    have hsplit := Pipeline.arrays_of_unscopedBufs (p := 0) (pcfgs (F := F)) admAll (allDats m ρ) launch0.win launch0.arr_whole c
      ((allDats m ρ 0 c).share_full fun _ => rfl) (At3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (allDats m ρ) ((allDats m ρ 0 c).share_full fun _ => rfl)
      (At3 m ρ c) (At4 m ρ c) ((allDats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (the first bias and rectifier): entered from every unscoped buffer at `St5`, left at `St6`. Its arrays are split out of
    the unscoped buffers at entry and put back at the exit contents; the generator register goes into the pipeline's
    invariant and comes out; nothing is owed; the kernel has no semaphore of its own. -/
def reg1 : Pipeline.RegionSeg (pcfgs (F := F)) admAll (allDats m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (At5 m ρ) c).loose
  hwaits := Pipeline.hwaits_of_owed_zero _ _ _ _ noPairs noLevel 1 fun _ _ => rfl
  pre c := iprop(StableHlo.held (c : Thread nD τ) (Pipeline.ucRefs τ sig) (St5 m ρ c) ∗ Beside c)
  post c := iprop(StableHlo.held (c : Thread nD τ) (Pipeline.ucRefs τ sig) (St6 m ρ c) ∗ Beside c)
  X c := iprop(∃ r, prngReg c r)
  Y c := iprop(∃ r, prngReg c r)
  Z c := Pipeline.unscopedRest (Ix := Unit) (Name := ℕ) (U := UR sig nD τ) (Lvl := ℕ) spec1 c (At5 m ρ c)
  hentry c := by
    rw [Pipeline.ownSems0_none]
    have hsplit := Pipeline.arrays_of_unscopedBufs (p := 1) (pcfgs (F := F)) admAll (allDats m ρ) launch1.win launch1.arr_whole c
      ((allDats m ρ 1 c).share_full fun _ => rfl) (At5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allDats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (allDats m ρ) ((allDats m ρ 1 c).share_full fun _ => rfl)
      (At5 m ρ c) (At6 m ρ c) ((allDats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (the second projection h·W2): entered from every unscoped buffer at `St6`, left at `St7`. Its arrays are split out of
    the unscoped buffers at entry and put back at the exit contents; the generator register goes into the pipeline's
    invariant and comes out; nothing is owed; the kernel has no semaphore of its own. -/
def reg2 : Pipeline.RegionSeg (pcfgs (F := F)) admAll (allDats m ρ) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (At6 m ρ) c).loose
  hwaits := Pipeline.hwaits_of_owed_zero _ _ _ _ noPairs noLevel 2 fun _ _ => rfl
  pre c := iprop(StableHlo.held (c : Thread nD τ) (Pipeline.ucRefs τ sig) (St6 m ρ c) ∗ Beside c)
  post c := iprop(StableHlo.held (c : Thread nD τ) (Pipeline.ucRefs τ sig) (St7 m ρ c) ∗ Beside c)
  X c := iprop(∃ r, prngReg c r)
  Y c := iprop(∃ r, prngReg c r)
  Z c := Pipeline.unscopedRest (Ix := Unit) (Name := ℕ) (U := UR sig nD τ) (Lvl := ℕ) spec2 c (At6 m ρ c)
  hentry c := by
    rw [Pipeline.ownSems0_none]
    have hsplit := Pipeline.arrays_of_unscopedBufs (p := 2) (pcfgs (F := F)) admAll (allDats m ρ) launch2.win launch2.arr_whole c
      ((allDats m ρ 2 c).share_full fun _ => rfl) (At6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allDats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (allDats m ρ) ((allDats m ρ 2 c).share_full fun _ => rfl)
      (At6 m ρ c) (At7 m ρ c) ((allDats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (the second bias and rectifier): entered from every unscoped buffer at `St8`, left at `St9`. Its arrays are split out of
    the unscoped buffers at entry and put back at the exit contents; the generator register goes into the pipeline's
    invariant and comes out; nothing is owed; the kernel has no semaphore of its own. -/
def reg3 : Pipeline.RegionSeg (pcfgs (F := F)) admAll (allDats m ρ) () defs₀ noVariants noPairs noLevel 3 where
  win := launch3.win.to₀
  block_pos := launch3.block_pos
  stage_whole := launch3.stage_whole
  K := PEmpty
  osem k := k.elim
  ho := Pipeline.OwnSemFacts.none _
  hbody c := (body_obligation3 (At8 m ρ) c).loose
  hwaits := Pipeline.hwaits_of_owed_zero _ _ _ _ noPairs noLevel 3 fun _ _ => rfl
  pre c := iprop(StableHlo.held (c : Thread nD τ) (Pipeline.ucRefs τ sig) (St8 m ρ c) ∗ Beside c)
  post c := iprop(StableHlo.held (c : Thread nD τ) (Pipeline.ucRefs τ sig) (St9 m ρ c) ∗ Beside c)
  X c := iprop(∃ r, prngReg c r)
  Y c := iprop(∃ r, prngReg c r)
  Z c := Pipeline.unscopedRest (Ix := Unit) (Name := ℕ) (U := UR sig nD τ) (Lvl := ℕ) spec3 c (At8 m ρ c)
  hentry c := by
    rw [Pipeline.ownSems0_none]
    have hsplit := Pipeline.arrays_of_unscopedBufs (p := 3) (pcfgs (F := F)) admAll (allDats m ρ) launch3.win launch3.arr_whole c
      ((allDats m ρ 3 c).share_full fun _ => rfl) (At8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allDats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (allDats m ρ) ((allDats m ρ 3 c).share_full fun _ => rfl)
      (At8 m ρ c) (At9 m ρ c) ((allDats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (the node network): entered from every unscoped buffer at `St10`, left at `St11`. Its arrays are split out of
    the unscoped buffers at entry and put back at the exit contents; the generator register goes into the pipeline's
    invariant and comes out; nothing is owed; the kernel has no semaphore of its own. -/
def reg4 : Pipeline.RegionSeg (pcfgs (F := F)) admAll (allDats m ρ) () defs₀ noVariants noPairs noLevel 4 where
  win := launch4.win.to₀
  block_pos := launch4.block_pos
  stage_whole := launch4.stage_whole
  K := PEmpty
  osem k := k.elim
  ho := Pipeline.OwnSemFacts.none _
  hbody c := (body_obligation4 (At10 m ρ) c).loose
  hwaits := Pipeline.hwaits_of_owed_zero _ _ _ _ noPairs noLevel 4 fun _ _ => rfl
  pre c := iprop(StableHlo.held (c : Thread nD τ) (Pipeline.ucRefs τ sig) (St10 m ρ c) ∗ Beside c)
  post c := iprop(StableHlo.held (c : Thread nD τ) (Pipeline.ucRefs τ sig) (St11 m ρ c) ∗ Beside c)
  X c := iprop(∃ r, prngReg c r)
  Y c := iprop(∃ r, prngReg c r)
  Z c := Pipeline.unscopedRest (Ix := Unit) (Name := ℕ) (U := UR sig nD τ) (Lvl := ℕ) spec4 c (At10 m ρ c)
  hentry c := by
    rw [Pipeline.ownSems0_none]
    have hsplit := Pipeline.arrays_of_unscopedBufs (p := 4) (pcfgs (F := F)) admAll (allDats m ρ) launch4.win launch4.arr_whole c
      ((allDats m ρ 4 c).share_full fun _ => rfl) (At10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (allDats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (allDats m ρ) ((allDats m ρ 4 c).share_full fun _ => rfl)
      (At10 m ρ c) (At11 m ρ c) ((allDats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (the edge network): entered from every unscoped buffer at `St12`, left at `St13`. Its arrays are split out of
    the unscoped buffers at entry and put back at the exit contents; the generator register goes into the pipeline's
    invariant and comes out; nothing is owed; the kernel has no semaphore of its own. -/
def reg5 : Pipeline.RegionSeg (pcfgs (F := F)) admAll (allDats m ρ) () defs₀ noVariants noPairs noLevel 5 where
  win := launch5.win.to₀
  block_pos := launch5.block_pos
  stage_whole := launch5.stage_whole
  K := PEmpty
  osem k := k.elim
  ho := Pipeline.OwnSemFacts.none _
  hbody c := (body_obligation5 (At12 m ρ) c).loose
  hwaits := Pipeline.hwaits_of_owed_zero _ _ _ _ noPairs noLevel 5 fun _ _ => rfl
  pre c := iprop(StableHlo.held (c : Thread nD τ) (Pipeline.ucRefs τ sig) (St12 m ρ c) ∗ Beside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (At12 m ρ c)
  hentry c := by
    rw [Pipeline.ownSems0_none]
    have hsplit := Pipeline.arrays_of_unscopedBufs (p := 5) (pcfgs (F := F)) admAll (allDats m ρ) launch5.win launch5.arr_whole c
      ((allDats m ρ 5 c).share_full fun _ => rfl) (At12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (allDats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admAll (Ix := Unit) (Name := ℕ) (U := UR sig nD τ) (Lvl := ℕ)
      launch5.win launch5.arr_whole c (allDats m ρ) ((allDats m ρ 5 c).share_full fun _ => rfl)
      (At12 m ρ c) (At13 m ρ c) ((allDats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's thirteen items in order. -/
abbrev mainSegs : List (Pipeline.Seg (pcfgs (F := F)) admAll (allDats m ρ) () defs₀ noVariants noPairs noLevel) :=
  [ .host (hostSeg hostOps0 hostOps0_sub hostOps0_fresh (St0 m ρ)),
    .host (hostSeg hostOps0_1 hostOps0_1_sub hostOps0_1_fresh (St1 m ρ)),
    .host (hostSeg hostOps0_2 hostOps0_2_sub hostOps0_2_fresh (St2 m ρ)),
    .region (reg0 m ρ),
    .host (hostSeg hostOps1 hostOps1_sub hostOps1_fresh (St4 m ρ)),
    .region (reg1 m ρ),
    .region (reg2 m ρ),
    .host (hostSeg hostOps3 hostOps3_sub hostOps3_fresh (St7 m ρ)),
    .region (reg3 m ρ),
    .host (hostSeg hostOps4 hostOps4_sub hostOps4_fresh (St9 m ρ)),
    .region (reg4 m ρ),
    .host (hostSeg hostOps5 hostOps5_sub hostOps5_fresh (St11 m ρ)),
    .region (reg5 m ρ) ]
/-- @main is the run of its items. -/
theorem main_is_segments (c : Dev nD) : main (F := F) c = Pipeline.Seg.run (mainSegs m ρ) := (main_chain c).trans (by chain_rfl)

set_option backward.isDefEq.respectTransparency.types false in
/-- THE RUN. From any memory with zero counters, every weakly fair execution of @main on the TensorCores terminates,
    nothing faulting, and in every final state every unscoped buffer of every core holds `St13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = St13 m ρ c b) :=
  Pipeline.θ_run_regions_kit (pcfgs (F := F)) admAll (allDats m ρ) () cellOf_inj emb₁ defs₀ noVariants noPairs noLevel m ρ main (mainSegs m ρ)
    (fun c Q => by rw [main_is_segments m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (St0 m ρ c) ∗ Beside c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (St0 m ρ c)
        from Pipeline.unscopedBufs_held c (St0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = St13 m ρ c b)
    (hfin := fun c s' => by
      iintro ⟨⟨Hh, -⟩, HSI⟩
      unfold StableHlo.held
      imodintro
      iapply (pointsTo_read_all (Pipeline.ucRefs τ sig) (fun b => (((c : Thread nD τ)).1, b)) (St13 m ρ c) s')
      isplitl [Hh] <;> iassumption)
    (hQ := fun s h => h)

/-! ## The arguments end as launched -/

theorem St13_main_arg0 (c : Dev nD) : St13 m ρ c (Proc.devRef .tc main_arg0) = m ((c : Thread nD τ).loc main_arg0) :=
  (St13_keep m ρ c main_arg0 (by decide)).trans <|
  (St12_keep m ρ c main_arg0 (by decide)).trans <|
  (St11_keep m ρ c main_arg0 (by decide)).trans <|
  (St10_keep m ρ c main_arg0 (by decide)).trans <|
  (St9_keep m ρ c main_arg0 (by decide)).trans <|
  (St8_keep m ρ c main_arg0 (by decide)).trans <|
  (St7_keep m ρ c main_arg0 (by decide)).trans <|
  (St6_keep m ρ c main_arg0 (by decide)).trans <|
  (St5_keep m ρ c main_arg0 (by decide)).trans <|
  (St4_keep m ρ c main_arg0 (by decide)).trans <|
  (St3_keep m ρ c main_arg0 (by decide)).trans <|
  (St2_keep m ρ c main_arg0 (by decide)).trans <|
  (St1_keep m ρ c main_arg0 (by decide)).trans <| rfl

theorem St13_main_arg1 (c : Dev nD) : St13 m ρ c (Proc.devRef .tc main_arg1) = m ((c : Thread nD τ).loc main_arg1) :=
  (St13_keep m ρ c main_arg1 (by decide)).trans <|
  (St12_keep m ρ c main_arg1 (by decide)).trans <|
  (St11_keep m ρ c main_arg1 (by decide)).trans <|
  (St10_keep m ρ c main_arg1 (by decide)).trans <|
  (St9_keep m ρ c main_arg1 (by decide)).trans <|
  (St8_keep m ρ c main_arg1 (by decide)).trans <|
  (St7_keep m ρ c main_arg1 (by decide)).trans <|
  (St6_keep m ρ c main_arg1 (by decide)).trans <|
  (St5_keep m ρ c main_arg1 (by decide)).trans <|
  (St4_keep m ρ c main_arg1 (by decide)).trans <|
  (St3_keep m ρ c main_arg1 (by decide)).trans <|
  (St2_keep m ρ c main_arg1 (by decide)).trans <|
  (St1_keep m ρ c main_arg1 (by decide)).trans <| rfl

theorem St13_main_arg2 (c : Dev nD) : St13 m ρ c (Proc.devRef .tc main_arg2) = m ((c : Thread nD τ).loc main_arg2) :=
  (St13_keep m ρ c main_arg2 (by decide)).trans <|
  (St12_keep m ρ c main_arg2 (by decide)).trans <|
  (St11_keep m ρ c main_arg2 (by decide)).trans <|
  (St10_keep m ρ c main_arg2 (by decide)).trans <|
  (St9_keep m ρ c main_arg2 (by decide)).trans <|
  (St8_keep m ρ c main_arg2 (by decide)).trans <|
  (St7_keep m ρ c main_arg2 (by decide)).trans <|
  (St6_keep m ρ c main_arg2 (by decide)).trans <|
  (St5_keep m ρ c main_arg2 (by decide)).trans <|
  (St4_keep m ρ c main_arg2 (by decide)).trans <|
  (St3_keep m ρ c main_arg2 (by decide)).trans <|
  (St2_keep m ρ c main_arg2 (by decide)).trans <|
  (St1_keep m ρ c main_arg2 (by decide)).trans <| rfl

theorem St13_main_arg3 (c : Dev nD) : St13 m ρ c (Proc.devRef .tc main_arg3) = m ((c : Thread nD τ).loc main_arg3) :=
  (St13_keep m ρ c main_arg3 (by decide)).trans <|
  (St12_keep m ρ c main_arg3 (by decide)).trans <|
  (St11_keep m ρ c main_arg3 (by decide)).trans <|
  (St10_keep m ρ c main_arg3 (by decide)).trans <|
  (St9_keep m ρ c main_arg3 (by decide)).trans <|
  (St8_keep m ρ c main_arg3 (by decide)).trans <|
  (St7_keep m ρ c main_arg3 (by decide)).trans <|
  (St6_keep m ρ c main_arg3 (by decide)).trans <|
  (St5_keep m ρ c main_arg3 (by decide)).trans <|
  (St4_keep m ρ c main_arg3 (by decide)).trans <|
  (St3_keep m ρ c main_arg3 (by decide)).trans <|
  (St2_keep m ρ c main_arg3 (by decide)).trans <|
  (St1_keep m ρ c main_arg3 (by decide)).trans <| rfl

theorem St13_main_arg4 (c : Dev nD) : St13 m ρ c (Proc.devRef .tc main_arg4) = m ((c : Thread nD τ).loc main_arg4) :=
  (St13_keep m ρ c main_arg4 (by decide)).trans <|
  (St12_keep m ρ c main_arg4 (by decide)).trans <|
  (St11_keep m ρ c main_arg4 (by decide)).trans <|
  (St10_keep m ρ c main_arg4 (by decide)).trans <|
  (St9_keep m ρ c main_arg4 (by decide)).trans <|
  (St8_keep m ρ c main_arg4 (by decide)).trans <|
  (St7_keep m ρ c main_arg4 (by decide)).trans <|
  (St6_keep m ρ c main_arg4 (by decide)).trans <|
  (St5_keep m ρ c main_arg4 (by decide)).trans <|
  (St4_keep m ρ c main_arg4 (by decide)).trans <|
  (St3_keep m ρ c main_arg4 (by decide)).trans <|
  (St2_keep m ρ c main_arg4 (by decide)).trans <|
  (St1_keep m ρ c main_arg4 (by decide)).trans <| rfl

theorem St13_main_arg5 (c : Dev nD) : St13 m ρ c (Proc.devRef .tc main_arg5) = m ((c : Thread nD τ).loc main_arg5) :=
  (St13_keep m ρ c main_arg5 (by decide)).trans <|
  (St12_keep m ρ c main_arg5 (by decide)).trans <|
  (St11_keep m ρ c main_arg5 (by decide)).trans <|
  (St10_keep m ρ c main_arg5 (by decide)).trans <|
  (St9_keep m ρ c main_arg5 (by decide)).trans <|
  (St8_keep m ρ c main_arg5 (by decide)).trans <|
  (St7_keep m ρ c main_arg5 (by decide)).trans <|
  (St6_keep m ρ c main_arg5 (by decide)).trans <|
  (St5_keep m ρ c main_arg5 (by decide)).trans <|
  (St4_keep m ρ c main_arg5 (by decide)).trans <|
  (St3_keep m ρ c main_arg5 (by decide)).trans <|
  (St2_keep m ρ c main_arg5 (by decide)).trans <|
  (St1_keep m ρ c main_arg5 (by decide)).trans <| rfl

theorem St13_main_arg6 (c : Dev nD) : St13 m ρ c (Proc.devRef .tc main_arg6) = m ((c : Thread nD τ).loc main_arg6) :=
  (St13_keep m ρ c main_arg6 (by decide)).trans <|
  (St12_keep m ρ c main_arg6 (by decide)).trans <|
  (St11_keep m ρ c main_arg6 (by decide)).trans <|
  (St10_keep m ρ c main_arg6 (by decide)).trans <|
  (St9_keep m ρ c main_arg6 (by decide)).trans <|
  (St8_keep m ρ c main_arg6 (by decide)).trans <|
  (St7_keep m ρ c main_arg6 (by decide)).trans <|
  (St6_keep m ρ c main_arg6 (by decide)).trans <|
  (St5_keep m ρ c main_arg6 (by decide)).trans <|
  (St4_keep m ρ c main_arg6 (by decide)).trans <|
  (St3_keep m ρ c main_arg6 (by decide)).trans <|
  (St2_keep m ρ c main_arg6 (by decide)).trans <|
  (St1_keep m ρ c main_arg6 (by decide)).trans <| rfl

theorem St13_main_arg7 (c : Dev nD) : St13 m ρ c (Proc.devRef .tc main_arg7) = m ((c : Thread nD τ).loc main_arg7) :=
  (St13_keep m ρ c main_arg7 (by decide)).trans <|
  (St12_keep m ρ c main_arg7 (by decide)).trans <|
  (St11_keep m ρ c main_arg7 (by decide)).trans <|
  (St10_keep m ρ c main_arg7 (by decide)).trans <|
  (St9_keep m ρ c main_arg7 (by decide)).trans <|
  (St8_keep m ρ c main_arg7 (by decide)).trans <|
  (St7_keep m ρ c main_arg7 (by decide)).trans <|
  (St6_keep m ρ c main_arg7 (by decide)).trans <|
  (St5_keep m ρ c main_arg7 (by decide)).trans <|
  (St4_keep m ρ c main_arg7 (by decide)).trans <|
  (St3_keep m ρ c main_arg7 (by decide)).trans <|
  (St2_keep m ρ c main_arg7 (by decide)).trans <|
  (St1_keep m ρ c main_arg7 (by decide)).trans <| rfl

theorem St13_main_arg8 (c : Dev nD) : St13 m ρ c (Proc.devRef .tc main_arg8) = m ((c : Thread nD τ).loc main_arg8) :=
  (St13_keep m ρ c main_arg8 (by decide)).trans <|
  (St12_keep m ρ c main_arg8 (by decide)).trans <|
  (St11_keep m ρ c main_arg8 (by decide)).trans <|
  (St10_keep m ρ c main_arg8 (by decide)).trans <|
  (St9_keep m ρ c main_arg8 (by decide)).trans <|
  (St8_keep m ρ c main_arg8 (by decide)).trans <|
  (St7_keep m ρ c main_arg8 (by decide)).trans <|
  (St6_keep m ρ c main_arg8 (by decide)).trans <|
  (St5_keep m ρ c main_arg8 (by decide)).trans <|
  (St4_keep m ρ c main_arg8 (by decide)).trans <|
  (St3_keep m ρ c main_arg8 (by decide)).trans <|
  (St2_keep m ρ c main_arg8 (by decide)).trans <|
  (St1_keep m ρ c main_arg8 (by decide)).trans <| rfl

theorem St13_main_arg9 (c : Dev nD) : St13 m ρ c (Proc.devRef .tc main_arg9) = m ((c : Thread nD τ).loc main_arg9) :=
  (St13_keep m ρ c main_arg9 (by decide)).trans <|
  (St12_keep m ρ c main_arg9 (by decide)).trans <|
  (St11_keep m ρ c main_arg9 (by decide)).trans <|
  (St10_keep m ρ c main_arg9 (by decide)).trans <|
  (St9_keep m ρ c main_arg9 (by decide)).trans <|
  (St8_keep m ρ c main_arg9 (by decide)).trans <|
  (St7_keep m ρ c main_arg9 (by decide)).trans <|
  (St6_keep m ρ c main_arg9 (by decide)).trans <|
  (St5_keep m ρ c main_arg9 (by decide)).trans <|
  (St4_keep m ρ c main_arg9 (by decide)).trans <|
  (St3_keep m ρ c main_arg9 (by decide)).trans <|
  (St2_keep m ρ c main_arg9 (by decide)).trans <|
  (St1_keep m ρ c main_arg9 (by decide)).trans <| rfl

theorem St13_main_arg10 (c : Dev nD) : St13 m ρ c (Proc.devRef .tc main_arg10) = m ((c : Thread nD τ).loc main_arg10) :=
  (St13_keep m ρ c main_arg10 (by decide)).trans <|
  (St12_keep m ρ c main_arg10 (by decide)).trans <|
  (St11_keep m ρ c main_arg10 (by decide)).trans <|
  (St10_keep m ρ c main_arg10 (by decide)).trans <|
  (St9_keep m ρ c main_arg10 (by decide)).trans <|
  (St8_keep m ρ c main_arg10 (by decide)).trans <|
  (St7_keep m ρ c main_arg10 (by decide)).trans <|
  (St6_keep m ρ c main_arg10 (by decide)).trans <|
  (St5_keep m ρ c main_arg10 (by decide)).trans <|
  (St4_keep m ρ c main_arg10 (by decide)).trans <|
  (St3_keep m ρ c main_arg10 (by decide)).trans <|
  (St2_keep m ρ c main_arg10 (by decide)).trans <|
  (St1_keep m ρ c main_arg10 (by decide)).trans <| rfl

theorem St13_main_arg11 (c : Dev nD) : St13 m ρ c (Proc.devRef .tc main_arg11) = m ((c : Thread nD τ).loc main_arg11) :=
  (St13_keep m ρ c main_arg11 (by decide)).trans <|
  (St12_keep m ρ c main_arg11 (by decide)).trans <|
  (St11_keep m ρ c main_arg11 (by decide)).trans <|
  (St10_keep m ρ c main_arg11 (by decide)).trans <|
  (St9_keep m ρ c main_arg11 (by decide)).trans <|
  (St8_keep m ρ c main_arg11 (by decide)).trans <|
  (St7_keep m ρ c main_arg11 (by decide)).trans <|
  (St6_keep m ρ c main_arg11 (by decide)).trans <|
  (St5_keep m ρ c main_arg11 (by decide)).trans <|
  (St4_keep m ρ c main_arg11 (by decide)).trans <|
  (St3_keep m ρ c main_arg11 (by decide)).trans <|
  (St2_keep m ρ c main_arg11 (by decide)).trans <|
  (St1_keep m ρ c main_arg11 (by decide)).trans <| rfl

theorem St13_main_arg12 (c : Dev nD) : St13 m ρ c (Proc.devRef .tc main_arg12) = m ((c : Thread nD τ).loc main_arg12) :=
  (St13_keep m ρ c main_arg12 (by decide)).trans <|
  (St12_keep m ρ c main_arg12 (by decide)).trans <|
  (St11_keep m ρ c main_arg12 (by decide)).trans <|
  (St10_keep m ρ c main_arg12 (by decide)).trans <|
  (St9_keep m ρ c main_arg12 (by decide)).trans <|
  (St8_keep m ρ c main_arg12 (by decide)).trans <|
  (St7_keep m ρ c main_arg12 (by decide)).trans <|
  (St6_keep m ρ c main_arg12 (by decide)).trans <|
  (St5_keep m ρ c main_arg12 (by decide)).trans <|
  (St4_keep m ρ c main_arg12 (by decide)).trans <|
  (St3_keep m ρ c main_arg12 (by decide)).trans <|
  (St2_keep m ρ c main_arg12 (by decide)).trans <|
  (St1_keep m ρ c main_arg12 (by decide)).trans <| rfl

theorem St13_main_arg13 (c : Dev nD) : St13 m ρ c (Proc.devRef .tc main_arg13) = m ((c : Thread nD τ).loc main_arg13) :=
  (St13_keep m ρ c main_arg13 (by decide)).trans <|
  (St12_keep m ρ c main_arg13 (by decide)).trans <|
  (St11_keep m ρ c main_arg13 (by decide)).trans <|
  (St10_keep m ρ c main_arg13 (by decide)).trans <|
  (St9_keep m ρ c main_arg13 (by decide)).trans <|
  (St8_keep m ρ c main_arg13 (by decide)).trans <|
  (St7_keep m ρ c main_arg13 (by decide)).trans <|
  (St6_keep m ρ c main_arg13 (by decide)).trans <|
  (St5_keep m ρ c main_arg13 (by decide)).trans <|
  (St4_keep m ρ c main_arg13 (by decide)).trans <|
  (St3_keep m ρ c main_arg13 (by decide)).trans <|
  (St2_keep m ρ c main_arg13 (by decide)).trans <|
  (St1_keep m ρ c main_arg13 (by decide)).trans <| rfl

theorem St13_main_arg14 (c : Dev nD) : St13 m ρ c (Proc.devRef .tc main_arg14) = m ((c : Thread nD τ).loc main_arg14) :=
  (St13_keep m ρ c main_arg14 (by decide)).trans <|
  (St12_keep m ρ c main_arg14 (by decide)).trans <|
  (St11_keep m ρ c main_arg14 (by decide)).trans <|
  (St10_keep m ρ c main_arg14 (by decide)).trans <|
  (St9_keep m ρ c main_arg14 (by decide)).trans <|
  (St8_keep m ρ c main_arg14 (by decide)).trans <|
  (St7_keep m ρ c main_arg14 (by decide)).trans <|
  (St6_keep m ρ c main_arg14 (by decide)).trans <|
  (St5_keep m ρ c main_arg14 (by decide)).trans <|
  (St4_keep m ρ c main_arg14 (by decide)).trans <|
  (St3_keep m ρ c main_arg14 (by decide)).trans <|
  (St2_keep m ρ c main_arg14 (by decide)).trans <|
  (St1_keep m ρ c main_arg14 (by decide)).trans <| rfl

/-- THE FRAME: the program runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c _ (mem_unscoped main_arg0 (by decide))).trans (St13_main_arg0 m ρ c),
      (h c _ (mem_unscoped main_arg1 (by decide))).trans (St13_main_arg1 m ρ c),
      (h c _ (mem_unscoped main_arg2 (by decide))).trans (St13_main_arg2 m ρ c),
      (h c _ (mem_unscoped main_arg3 (by decide))).trans (St13_main_arg3 m ρ c),
      (h c _ (mem_unscoped main_arg4 (by decide))).trans (St13_main_arg4 m ρ c),
      (h c _ (mem_unscoped main_arg5 (by decide))).trans (St13_main_arg5 m ρ c),
      (h c _ (mem_unscoped main_arg6 (by decide))).trans (St13_main_arg6 m ρ c),
      (h c _ (mem_unscoped main_arg7 (by decide))).trans (St13_main_arg7 m ρ c),
      (h c _ (mem_unscoped main_arg8 (by decide))).trans (St13_main_arg8 m ρ c),
      (h c _ (mem_unscoped main_arg9 (by decide))).trans (St13_main_arg9 m ρ c),
      (h c _ (mem_unscoped main_arg10 (by decide))).trans (St13_main_arg10 m ρ c),
      (h c _ (mem_unscoped main_arg11 (by decide))).trans (St13_main_arg11 m ρ c),
      (h c _ (mem_unscoped main_arg12 (by decide))).trans (St13_main_arg12 m ρ c),
      (h c _ (mem_unscoped main_arg13 (by decide))).trans (St13_main_arg13 m ρ c),
      (h c _ (mem_unscoped main_arg14 (by decide))).trans (St13_main_arg14 m ρ c)⟩)
    (run_all m ρ)

end Cert.KernelIdeal.Layers

end
-- ==== Proof.InputProjectionValue.lean ====
import proofs.«138351_j90890097918029_1_alg».proof.Proof.InputProjection
import proofs.«138351_j90890097918029_1_alg».proof.Proof.Gen.ReferenceIdeal
import Idealize.ShloMosaic.Lib.Pipeline.Value
import Idealize.ShloMosaic.Lib.ValueIdx
import Idealize.ShloMosaic.PureOps.Ideal.Laws

/-! # The input projection's value: after its 25 row blocks, the host's product of the whole arrays

In the extended reals the first product's result array, after all 25 grid points, is `X · W` entry by entry: entry `(r, q)`
is the sum over `k < 128` of `X (r, k) · W (k, q)`, where `X` (50000×128) and `W` (128×256) are the two input arrays as the
product found them. Three steps. (1) One block: entry `(p, q)` of what grid point `t` writes is the sum over `k` of
`(left block) (p, k) · (right block) (k, q)` — rounding to bfloat16 is the identity in the extended reals and the accumulator
starts at zero. (2) Blocks to array: block `t` is rows `2000 t … 2000 t + 1999`, row `p` of the left block is row `2000 t + p`
of `X`, the right block is `W`; so point `t` writes rows `2000 t … 2000 t + 1999` of `X · W`, and row `r` is written by point
`r / 2000`, so every row is written. (3) The host's `dot_general` of the whole arrays is the same sum at every entry. Hence
`arr0_eq`: the result array is the host's product, as one term.
-/

noncomputable section

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

-- the contents of the core's buffers when the product is entered, in the extended reals
variable (V : (c : Dev nD) → (b : Ref sig .tc) → Buf (Elt Ideal) ((c : Thread nD τ).loc b))

/-! ## The plain sum both programs compute -/

/-- Entry `(r, q)` of the product of a 50000×128 array `x` and a 128×256 array `w`: the sum over `k` of `x (r, k) · w (k, q)`,
    in the extended reals. It reads row `r` of `x` and column `q` of `w`, and nothing else. -/
def rowsByCols0 (x : S50000x128.Idx → EReal) (w : S128x256.Idx → EReal) : S50000x256.Idx → EReal :=
  fun i => ∑ k : Fin 128, x (ix2 (n0 := 50000) (i 0) k) * w (ix2 (n1 := 256) k (i 1))

/-! ## The body's product at an entry -/

theorem zeroOffsets0 : (![0, 0] : Fin 2 → Nat) = fun _ => 0 := funext fun a => by fin_cases a <;> rfl

/-- In the body's product, the left operand's index at output `i` and contraction coordinate `q` has row `i 0`, -/
theorem blockLhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- and column the contraction coordinate; -/
theorem blockLhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- the right operand's has row the contraction coordinate -/
theorem blockRhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- and column `i 1`. -/
theorem blockRhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, q)` of what the body writes, from its two blocks: rounding to bfloat16 does nothing in the extended
    reals and the accumulator starts at zero, so it is the sum over `k` of `x0 (p, k) · x1 (k, q)`. -/
theorem blockProduct0_apply (x0 : FVec Ideal S2000x128 .f32) (x1 : FVec Ideal S128x256 .f32) (p : Fin 2000) (q : Fin 256) :
    k0_pay1 (F := Ideal) x0 x1 (ix2 p q) = ∑ k : Fin 128, x0 (ix2 p k) * x1 (ix2 k q) := by
  unfold k0_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact blockLhs0_0 _ _
    | ⟨1, _⟩ => exact (blockLhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (blockRhs0_0 _ _).trans hk
    | ⟨1, _⟩ => exact blockRhs0_1 _ _)
  rw [el, er]
  rfl

/-- The same at any index `j` of the block, by its two coordinates. -/
theorem blockProduct0_at (x0 : FVec Ideal S2000x128 .f32) (x1 : FVec Ideal S128x256 .f32) (j : S2000x256.Idx) :
    k0_pay1 (F := Ideal) x0 x1 j = ∑ k : Fin 128, x0 (ix2 (n0 := 2000) (j 0) k) * x1 (ix2 (n1 := 256) k (j 1)) := by
  obtain ⟨p, q, rfl⟩ : ∃ (p : Fin 2000) (q : Fin 256), j = ix2 p q := ⟨j 0, j 1, eq_ix2 j⟩
  exact blockProduct0_apply x0 x1 p q

/-! ## From the 25 row blocks to the array -/

/-- Where the three blocks of grid point `t` sit: the left factor's and the result's are block row `t` (rows
    `2000 t … 2000 t + 1999`) and block column 0; the right factor's is block `(0, 0)`, the whole matrix. Decided over the 25 points. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is rows `2000 t … 2000 t + 1999` of the whole product: entry `(p, q)` of the
    block is the sum over `k` of `x (2000 t + p, k) · w (k, q)`, because row `p` of the left block is row `2000 t + p` of `x`
    and the right block is all of `w`. -/
theorem flushed0_eq (c : Dev nD) (t : Fin cfg0.N) :
    (dat0 (F := Ideal) V c).flushed 2 t = ((cfg0.win 2).blk t).view.read (Elt Ideal) (rowsByCols0 (V c main_arg0) (V c main_arg3)) := by
  show (cfg0.win 2).cut (grid0.coords t) ((dat0 (F := Ideal) V c).after 2 t) = _
  rw [after0_2]
  unfold out0_2
  rw [View.canon_unit_zero zeroOffsets0]
  simp only [View.ld_unit_zero (S := S2000x128) zeroOffsets0, View.ld_unit_zero (S := S128x256) zeroOffsets0]
  obtain ⟨e00, e01, e10, e11, e20, e21⟩ := blockIndex0 t
  funext j
  refine (blockProduct0_at (iblk0 V c 0 t) (iblk0 V c 1 t) j).trans ?_
  -- row `j 0` of the left block is row `2000 t + j 0` of the left array: the same row the result's block puts entry `j` in
  have h0 : ∀ k : Fin 128, ((cfg0.win 0).blk t).view.emb (ix2 (n0 := 2000) (j 0) k) = ix2 (n0 := 50000) ((((cfg0.win 2).blk t).view.emb j) 0) k := fun k => by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  -- the right block is the right array, and column `j 1` of the result's block is column `j 1` of the result
  have h1 : ∀ k : Fin 128, ((cfg0.win 1).blk t).view.emb (ix2 (n1 := 256) k (j 1)) = ix2 (n1 := 256) k ((((cfg0.win 2).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega
  have key : ∀ (X : S50000x128.Idx → EReal) (Y : S128x256.Idx → EReal),
      (∑ k : Fin 128, X (((cfg0.win 0).blk t).view.emb (ix2 (n0 := 2000) (j 0) k)) * Y (((cfg0.win 1).blk t).view.emb (ix2 (n1 := 256) k (j 1))))
        = ∑ k : Fin 128, X (ix2 (n0 := 50000) ((((cfg0.win 2).blk t).view.emb j) 0) k) * Y (ix2 (n1 := 256) k ((((cfg0.win 2).blk t).view.emb j) 1)) :=
    fun X Y => Finset.sum_congr rfl fun k _ => by rw [h0 k, h1 k]
  exact key (V c main_arg0) (V c main_arg3)

/-- An index of the result array is in point `t`'s block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v32).slice (win0_2.rect t)).set ↔ _
  rw [View.set_slice_whole, Rect.mem_set_unit]
  exact Iff.rfl

/-- Every row is written: row `r` lies in the block of point `r / 2000`, which is below 25 because `r < 50000`. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  have hlt : (i 0).val / 2000 < cfg0.N := by rw [hN]; omega
  obtain ⟨-, -, -, -, e20, e21⟩ := blockIndex0 ⟨(i 0).val / 2000, hlt⟩
  refine ⟨⟨(i 0).val / 2000, hlt⟩, flush0_2 _, ?_⟩
  rw [mem_blk0]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win0_2.index ⟨(i 0).val / 2000, hlt⟩ (1 : Fin 2) * 256 ≤ (i 1).val ∧ (i 1).val < win0_2.index ⟨(i 0).val / 2000, hlt⟩ (1 : Fin 2) * 256 + 256
    rw [e21]; omega

/-- So after the 25 points the result array holds the whole product, entry by entry. -/
theorem arr0_rowsByCols (c : Dev nD) : (dat0 (F := Ideal) V c).arrAt 2 cfg0.N = rowsByCols0 (V c main_arg0) (V c main_arg3) :=
  (dat0 (F := Ideal) V c).arrAt_eq_of_cover 2 (rowsByCols0 (V c main_arg0) (V c main_arg3)) (fun t _ => flushed0_eq V c t) cover0

/-! ## The host's product is the same sum -/

/-- In the host's product over the whole arrays, the left operand's index has row `i 0` -/
theorem hostLhs0_0 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
/-- and column the contraction coordinate; -/
theorem hostLhs0_1 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
/-- the right operand's has row the contraction coordinate -/
theorem hostRhs0_0 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
/-- and column `i 1`. -/
theorem hostRhs0_1 (i : Cert.ReferenceIdeal.S50000x256.Idx) (q : Cert.ReferenceIdeal.dot_S50000x128_S128x256_S50000x256_1_0_0_1_n_n.contr.Idx) :
    (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- The host's product of the whole arrays, in the extended reals, is that sum at every entry. -/
theorem hostProduct0_eq (x : FVec Ideal S50000x128 .f32) (w : FVec Ideal S128x256 .f32) :
    Host.dotGeneral (F := Ideal) Cert.ReferenceIdeal.dot_S50000x128_S128x256_S50000x256_1_0_0_1_n_n none x w = rowsByCols0 x w := by
  funext i
  unfold rowsByCols0
  simp only [Host.dotGeneral]
  rw [Ideal.dotGeneral_apply, ← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx i ((contrEquiv1 Cert.ReferenceIdeal.dot_S50000x128_S128x256_S50000x256_1_0_0_1_n_n 128 rfl rfl).symm k) = ix2 (n0 := 50000) (i 0) k := funext fun a => Fin.ext (by
    match a with
    | ⟨0, _⟩ => exact hostLhs0_0 _ _
    | ⟨1, _⟩ => exact (hostLhs0_1 _ _).trans hk)
  have er : Cert.ReferenceIdeal.dot_S50000x128_S128x256_S50000x256_1_0_0_1_n_n.rhsIdx i ((contrEquiv1 Cert.ReferenceIdeal.dot_S50000x128_S128x256_S50000x256_1_0_0_1_n_n 128 rfl rfl).symm k) = ix2 (n1 := 256) k (i 1) := funext fun a => Fin.ext (by
    match a with
    | ⟨0, _⟩ => exact (hostRhs0_0 _ _).trans hk
    | ⟨1, _⟩ => exact hostRhs0_1 _ _)
  rw [el, er]

/-! ## The result array, in the host's words -/

/-- After the 25 points the result array is the host's product of the two input arrays as the product found them. -/
theorem arr0_eq (c : Dev nD) : (dat0 (F := Ideal) V c).arrAt 2 cfg0.N = Host.dotGeneral (F := Ideal) (φ₁ := .f32) (φ₂ := .f32) Cert.ReferenceIdeal.dot_S50000x128_S128x256_S50000x256_1_0_0_1_n_n none (V c main_arg0) (V c main_arg3) :=
  (arr0_rowsByCols V c).trans (hostProduct0_eq (V c main_arg0) (V c main_arg3)).symm

end Cert.KernelIdeal.Layers

end
-- ==== Proof.FirstActivationValue.lean ====
/- The VALUE of region 1 at the ideal instance: what the region's output array holds after all 25 grid
   points, as one whole-array term of the region's two input arrays as the region finds them (`V`), spelt with the
   reference program's host operations: relu of (the aggregated activations plus the bias row broadcast along the
   50000 rows). Block t of the output is rows 2000·t … 2000·t+1999, all 256 columns; entry (r, q) of the array is
   max (x (r, q) + b (0, q)) 0, written by point r / 2000. -/
import proofs.«138351_j90890097918029_1_alg».proof.Proof.FirstActivation
import proofs.«138351_j90890097918029_1_alg».proof.ReferenceIdeal
import proofs.«138351_j90890097918029_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered, at the ideal instance
variable (V : (c : Dev nD) → (b : Ref sig .tc) → Buf (Elt Ideal) ((c : Thread nD τ).loc b))

/-! ## The payload at an index -/

/-- The body's payload at row `p`, column `q` of the block: the two shape casts are identities, the bias row is
    broadcast along the rows, so the entry is max (x0 (p, q) + x1 (0, q)) 0 — it depends on row `p` of the row
    block only through column `q`, and on the bias row at column `q`. -/
theorem pay1_ix (x0 : Vec Ideal S2000x256 .f32) (x1 : Vec Ideal S1x256 .f32) (p : Fin 2000) (q : Fin 256) :
    k1_pay1 x0 x1 (ix2 p q) = max (x0 (ix2 p q) + x1 (ix2 (0 : Fin 1) q)) (Ideal.ofBits .f32 0x00000000#32) := by
  unfold k1_pay1
  show max (shapeCast S2000x256 x0 shapeCasts_S2000x256_S2000x256 (ix2 p q)
      + broadcastTo S2000x256 (shapeCast S1x256 x1 shapeCasts_S1x256_S1x256) broadcasts_S1x256_S2000x256 (ix2 p q)) _ = _
  rw [shapeCast_self, shapeCast_self, broadcastTo_1b_ab_apply]
  rfl

/-- The same at any index `y` of the block. -/
theorem pay1_apply (x0 : Vec Ideal S2000x256 .f32) (x1 : Vec Ideal S1x256 .f32) (y : S2000x256.Idx) :
    k1_pay1 x0 x1 y = max (x0 y + x1 (ix2 (0 : Fin 1) (y 1))) (Ideal.ofBits .f32 0x00000000#32) := by
  obtain ⟨p, q, rfl⟩ : ∃ (p : Fin 2000) (q : Fin 256), y = ix2 p q := ⟨y 0, y 1, eq_ix2 y⟩
  exact pay1_ix x0 x1 p q

/-! ## The whole-array term, in the reference's host operations -/

/-- relu (a + the bias row broadcast along the 50000 rows), the zero a scalar constant broadcast to the array:
    the term the reference program's operations compose. -/
abbrev act1 (a : FVec Ideal Cert.ReferenceIdeal.S50000x256 .f32) (b : FVec Ideal Cert.ReferenceIdeal.S1x256 .f32) : FVec Ideal Cert.ReferenceIdeal.S50000x256 .f32 :=
  maximumf (addf a (broadcastInDim Cert.ReferenceIdeal.S50000x256 ![0, 1] Cert.ReferenceIdeal.Facts₀.bcast_S1x256_S50000x256_0_1 b))
    (broadcastInDim Cert.ReferenceIdeal.S50000x256 ![] Cert.ReferenceIdeal.Facts₀.bcast_S_S50000x256 (constant (F := Ideal) Cert.ReferenceIdeal.S_ .f32 0x00000000#32))

/-- That term at row `r`, column `q`: max (a (r, q) + b (0, q)) 0. -/
theorem act1_apply (a : FVec Ideal Cert.ReferenceIdeal.S50000x256 .f32) (b : FVec Ideal Cert.ReferenceIdeal.S1x256 .f32) (i : Cert.ReferenceIdeal.S50000x256.Idx) :
    act1 a b i = max (a i + b (ix2 (0 : Fin 1) (i 1))) (Ideal.ofBits .f32 0x00000000#32) := by
  show max (a i + broadcastInDim Cert.ReferenceIdeal.S50000x256 ![0, 1] Cert.ReferenceIdeal.Facts₀.bcast_S1x256_S50000x256_0_1 b i)
      (broadcastInDim Cert.ReferenceIdeal.S50000x256 ![] Cert.ReferenceIdeal.Facts₀.bcast_S_S50000x256 (constant (F := Ideal) Cert.ReferenceIdeal.S_ .f32 0x00000000#32) i) = _
  rw [broadcastInDim_apply _ Cert.ReferenceIdeal.Facts₀.bcast_S1x256_S50000x256_0_1 b i (ix2 (0 : Fin 1) (i 1)) (fun ax => match ax with
      | ⟨0, _⟩ => by show 0 = if (1 : Nat) = 1 then 0 else (i 0).val; rw [if_pos rfl]
      | ⟨1, _⟩ => by show (i 1).val = if (256 : Nat) = 1 then 0 else (i 1).val; rw [if_neg (by decide)]),
    broadcastInDim_apply _ Cert.ReferenceIdeal.Facts₀.bcast_S_S50000x256 (constant (F := Ideal) Cert.ReferenceIdeal.S_ .f32 0x00000000#32) i ix0 (fun ax => ax.elim0)]
  rfl

/-! ## From blocks to the array -/

theorem zeros1 : (![0, 0] : Fin 2 → Nat) = fun _ => 0 := funext fun a => by fin_cases a <;> rfl

/-- The index maps over the 25 grid points: block `t` of the row-block window and of the output window is rows
    2000·t … 2000·t+1999, all 256 columns; the bias window's block is always the one row. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Every one of the 25 row blocks is some point's. -/
theorem idx_onto1 : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` — rows 2000·t … 2000·t+1999 — of the whole-array term of the two
    input arrays as the region finds them: entry (p, q) of the block is max (x (2000·t + p, q) + b (0, q)) 0. -/
theorem flushed1_eq (c : Dev nD) (t : Fin cfg1.N) :
    (dat1 (F := Ideal) V c).flushed 2 t = ((cfg1.win 2).blk t).view.read (Elt Ideal) (act1 (V c main_v45) (V c main_v46)) := by
  show (cfg1.win 2).cut (grid1.coords t) ((dat1 V c).after 2 t) = _
  rw [after1_2]
  unfold out1_2
  rw [View.canon_unit_zero zeros1]
  simp only [View.ld_unit_zero (S := S2000x256) zeros1, View.ld_unit_zero (S := S1x256) zeros1]
  obtain ⟨f0, f1, f2, f3, f4, f5⟩ := idx_facts1 t
  funext j
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * (j 1).val = win1_2.index t (1 : Fin 2) * 256 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 256 + 1 * (j 1).val = win1_2.index t (1 : Fin 2) * 256 + 1 * (j 1).val; omega
  -- the row block's entry (p, q) at point t is the array's entry (2000·t + p, q); the bias block's (0, q) is the bias row's (0, q)
  have e0 : iblk1 V c 0 t j = V c main_v45 (((cfg1.win 2).blk t).view.emb j) := by
    show V c main_v45 (((cfg1.win 0).blk t).view.emb j) = _
    exact congrArg (V c main_v45) h0
  have e1 : iblk1 V c 1 t (ix2 (0 : Fin 1) (j 1)) = V c main_v46 (ix2 (0 : Fin 1) ((((cfg1.win 2).blk t).view.emb j) 1)) := by
    show V c main_v46 (((cfg1.win 1).blk t).view.emb (ix2 (0 : Fin 1) (j 1))) = _
    exact congrArg (V c main_v46) h1
  refine (pay1_apply (iblk1 V c 0 t) (iblk1 V c 1 t) j).trans ?_
  refine Eq.trans ?_ (act1_apply (V c main_v45) (V c main_v46) (((cfg1.win 2).blk t).view.emb j)).symm
  rw [e0, e1]

/-- An index of the output array is in point `t`'s block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v47).slice (win1_2.rect t)).set ↔ _
  rw [View.set_slice_whole, Rect.mem_set_unit]
  exact Iff.rfl

/-- The 25 blocks of 2000 rows tile the 50000 rows: row `r` is in the block of point r / 2000. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto1 ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- THE OUTPUT ARRAY after all 25 points: relu of (the aggregated activations plus the bias row broadcast along
    the rows), as one whole-array term of the region's two input arrays. -/
theorem arr1_eq (c : Dev nD) : (dat1 (F := Ideal) V c).arrAt 2 cfg1.N
    = maximumf (addf (V c main_v45) (broadcastInDim Cert.ReferenceIdeal.S50000x256 ![0, 1] Cert.ReferenceIdeal.Facts₀.bcast_S1x256_S50000x256_0_1 (V c main_v46)))
        (broadcastInDim Cert.ReferenceIdeal.S50000x256 ![] Cert.ReferenceIdeal.Facts₀.bcast_S_S50000x256 (constant (F := Ideal) Cert.ReferenceIdeal.S_ .f32 0x00000000#32)) :=
  (dat1 (F := Ideal) V c).arrAt_eq_of_cover 2 (act1 (V c main_v45) (V c main_v46)) (fun t _ => flushed1_eq V c t) cover1

end Cert.KernelIdeal.Layers

end
-- ==== Proof.HiddenProjectionValue.lean ====
import proofs.«138351_j90890097918029_1_alg».proof.Proof.HiddenProjection
import proofs.«138351_j90890097918029_1_alg».proof.Proof.Gen.ReferenceIdeal
import Idealize.ShloMosaic.Lib.Pipeline.Value
import Idealize.ShloMosaic.Lib.ValueIdx
import Idealize.ShloMosaic.PureOps.Ideal.Laws

/-! # The hidden projection's value: after its 25 row blocks, the host's product of the whole arrays

In the extended reals the second product's result array, after all 25 grid points, is `X · W` entry by entry: entry `(r, q)`
is the sum over `k < 256` of `X (r, k) · W (k, q)`, where `X` (50000×256) and `W` (256×128) are the two input arrays as the
product found them. Three steps. (1) One block: entry `(p, q)` of what grid point `t` writes is the sum over `k` of
`(left block) (p, k) · (right block) (k, q)` — the reshape to the same shape and the rounding to bfloat16 are the identity in
the extended reals, and the accumulator starts at zero. (2) Blocks to array: block `t` is rows `2000 t … 2000 t + 1999`, row
`p` of the left block is row `2000 t + p` of `X`, the right block is `W`; so point `t` writes rows `2000 t … 2000 t + 1999` of
`X · W`, and row `r` is written by point `r / 2000`, so every row is written. (3) The host's `dot_general` of the whole arrays
is the same sum at every entry. Hence `arr2_eq`: the result array is the host's product, as one term.
-/

noncomputable section

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

-- the contents of the core's buffers when the product is entered, in the extended reals
variable (V : (c : Dev nD) → (b : Ref sig .tc) → Buf (Elt Ideal) ((c : Thread nD τ).loc b))

/-! ## The plain sum both programs compute -/

/-- Entry `(r, q)` of the product of a 50000×256 array `x` and a 256×128 array `w`: the sum over `k` of `x (r, k) · w (k, q)`,
    in the extended reals. It reads row `r` of `x` and column `q` of `w`, and nothing else. -/
def rowsByCols2 (x : S50000x256.Idx → EReal) (w : S256x128.Idx → EReal) : S50000x128.Idx → EReal :=
  fun i => ∑ k : Fin 256, x (ix2 (n0 := 50000) (i 0) k) * w (ix2 (n1 := 128) k (i 1))

/-! ## The body's product at an entry -/

theorem zeroOffsets2 : (![0, 0] : Fin 2 → Nat) = fun _ => 0 := funext fun a => by fin_cases a <;> rfl

/-- In the body's product, the left operand's index at output `i` and contraction coordinate `q` has row `i 0`, -/
theorem blockLhs2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- and column the contraction coordinate; -/
theorem blockLhs2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the right operand's has row the contraction coordinate -/
theorem blockRhs2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- and column `i 1`. -/
theorem blockRhs2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of what the body writes, from its two blocks: the reshape to the same shape and the rounding to bfloat16 do nothing in
    the extended reals and the accumulator starts at zero, so it is the sum over `k` of `x0 (p, k) · x1 (k, q)`. -/
theorem blockProduct2_apply (x0 : FVec Ideal S2000x256 .f32) (x1 : FVec Ideal S256x128 .f32) (p : Fin 2000) (q : Fin 128) :
    k2_pay1 (F := Ideal) x0 x1 (ix2 p q) = ∑ k : Fin 256, x0 (ix2 p k) * x1 (ix2 k q) := by
  unfold k2_pay1
  simp only [shapeCast_self]
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact blockLhs2_0 _ _
    | ⟨1, _⟩ => exact (blockLhs2_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (blockRhs2_0 _ _).trans hk
    | ⟨1, _⟩ => exact blockRhs2_1 _ _)
  rw [el, er]
  rfl

/-- The same at any index `j` of the block, by its two coordinates. -/
theorem blockProduct2_at (x0 : FVec Ideal S2000x256 .f32) (x1 : FVec Ideal S256x128 .f32) (j : S2000x128.Idx) :
    k2_pay1 (F := Ideal) x0 x1 j = ∑ k : Fin 256, x0 (ix2 (n0 := 2000) (j 0) k) * x1 (ix2 (n1 := 128) k (j 1)) := by
  obtain ⟨p, q, rfl⟩ : ∃ (p : Fin 2000) (q : Fin 128), j = ix2 p q := ⟨j 0, j 1, eq_ix2 j⟩
  exact blockProduct2_apply x0 x1 p q

/-! ## From the 25 row blocks to the array -/

/-- Where the three blocks of grid point `t` sit: the left factor's and the result's are block row `t` (rows
    `2000 t … 2000 t + 1999`) and block column 0; the right factor's is block `(0, 0)`, the whole matrix. Decided over the 25 points. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is rows `2000 t … 2000 t + 1999` of the whole product: entry `(p, q)` of the
    block is the sum over `k` of `x (2000 t + p, k) · w (k, q)`, because row `p` of the left block is row `2000 t + p` of `x`
    and the right block is all of `w`. -/
theorem flushed2_eq (c : Dev nD) (t : Fin cfg2.N) :
    (dat2 (F := Ideal) V c).flushed 2 t = ((cfg2.win 2).blk t).view.read (Elt Ideal) (rowsByCols2 (V c main_v47) (V c main_arg5)) := by
  show (cfg2.win 2).cut (grid2.coords t) ((dat2 (F := Ideal) V c).after 2 t) = _
  rw [after2_2]
  unfold out2_2
  rw [View.canon_unit_zero zeroOffsets2]
  simp only [View.ld_unit_zero (S := S2000x256) zeroOffsets2, View.ld_unit_zero (S := S256x128) zeroOffsets2]
  obtain ⟨e00, e01, e10, e11, e20, e21⟩ := blockIndex2 t
  funext j
  refine (blockProduct2_at (iblk2 V c 0 t) (iblk2 V c 1 t) j).trans ?_
  -- row `j 0` of the left block is row `2000 t + j 0` of the left array: the same row the result's block puts entry `j` in
  have h0 : ∀ k : Fin 256, ((cfg2.win 0).blk t).view.emb (ix2 (n0 := 2000) (j 0) k) = ix2 (n0 := 50000) ((((cfg2.win 2).blk t).view.emb j) 0) k := fun k => by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * k.val = k.val; omega
  -- the right block is the right array, and column `j 1` of the result's block is column `j 1` of the result
  have h1 : ∀ k : Fin 256, ((cfg2.win 1).blk t).view.emb (ix2 (n1 := 128) k (j 1)) = ix2 (n1 := 128) k ((((cfg2.win 2).blk t).view.emb j) 1) := fun k => by
    funext a; apply Fin.ext
    match a with
    | ⟨0, _⟩ => show win2_1.index t (0 : Fin 2) * 256 + 1 * k.val = k.val; omega
    | ⟨1, _⟩ => show win2_1.index t (1 : Fin 2) * 128 + 1 * (j 1).val = win2_2.index t (1 : Fin 2) * 128 + 1 * (j 1).val; omega
  have key : ∀ (X : S50000x256.Idx → EReal) (Y : S256x128.Idx → EReal),
      (∑ k : Fin 256, X (((cfg2.win 0).blk t).view.emb (ix2 (n0 := 2000) (j 0) k)) * Y (((cfg2.win 1).blk t).view.emb (ix2 (n1 := 128) k (j 1))))
        = ∑ k : Fin 256, X (ix2 (n0 := 50000) ((((cfg2.win 2).blk t).view.emb j) 0) k) * Y (ix2 (n1 := 128) k ((((cfg2.win 2).blk t).view.emb j) 1)) :=
    fun X Y => Finset.sum_congr rfl fun k _ => by rw [h0 k, h1 k]
  exact key (V c main_v47) (V c main_arg5)

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every row is written: row `r` lies in the block of point `r / 2000`, which is below 25 because `r < 50000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, e20, e21⟩ := blockIndex2 ⟨(i 0).val / 2000, hlt⟩
  refine ⟨⟨(i 0).val / 2000, hlt⟩, flush2_2 _, ?_⟩
  rw [mem_blk2]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, hlt⟩ (1 : Fin 2) * 128 ≤ (i 1).val ∧ (i 1).val < win2_2.index ⟨(i 0).val / 2000, hlt⟩ (1 : Fin 2) * 128 + 128
    rw [e21]; omega

/-- So after the 25 points the result array holds the whole product, entry by entry. -/
theorem arr2_rowsByCols (c : Dev nD) : (dat2 (F := Ideal) V c).arrAt 2 cfg2.N = rowsByCols2 (V c main_v47) (V c main_arg5) :=
  (dat2 (F := Ideal) V c).arrAt_eq_of_cover 2 (rowsByCols2 (V c main_v47) (V c main_arg5)) (fun t _ => flushed2_eq V c t) cover2

/-! ## The host's product is the same sum -/

/-- In the host's product over the whole arrays, the left operand's index has row `i 0` -/
theorem hostLhs2_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
/-- and column the contraction coordinate; -/
theorem hostLhs2_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
/-- the right operand's has row the contraction coordinate -/
theorem hostRhs2_0 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
/-- and column `i 1`. -/
theorem hostRhs2_1 (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The host's product of the whole arrays, in the extended reals, is that sum at every entry. -/
theorem hostProduct2_eq (x : FVec Ideal S50000x256 .f32) (w : FVec Ideal S256x128 .f32) :
    Host.dotGeneral (F := Ideal) Cert.ReferenceIdeal.dot_S50000x256_S256x128_S50000x128_1_0_0_1_n_n none x w = rowsByCols2 x w := by
  funext i
  unfold rowsByCols2
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((contrEquiv1 Cert.ReferenceIdeal.dot_S50000x256_S256x128_S50000x128_1_0_0_1_n_n 256 rfl rfl).symm k) = ix2 (n0 := 50000) (i 0) k := funext fun a => Fin.ext (by
    match a with
    | ⟨0, _⟩ => exact hostLhs2_0 _ _
    | ⟨1, _⟩ => exact (hostLhs2_1 _ _).trans hk)
  have er : Cert.ReferenceIdeal.dot_S50000x256_S256x128_S50000x128_1_0_0_1_n_n.rhsIdx i ((contrEquiv1 Cert.ReferenceIdeal.dot_S50000x256_S256x128_S50000x128_1_0_0_1_n_n 256 rfl rfl).symm k) = ix2 (n1 := 128) k (i 1) := funext fun a => Fin.ext (by
    match a with
    | ⟨0, _⟩ => exact (hostRhs2_0 _ _).trans hk
    | ⟨1, _⟩ => exact hostRhs2_1 _ _)
  rw [el, er]

/-! ## The result array, in the host's words -/

/-- After the 25 points the result array is the host's product of the two input arrays as the product found them. -/
theorem arr2_eq (c : Dev nD) : (dat2 (F := Ideal) V c).arrAt 2 cfg2.N = Host.dotGeneral (F := Ideal) (φ₁ := .f32) (φ₂ := .f32) Cert.ReferenceIdeal.dot_S50000x256_S256x128_S50000x128_1_0_0_1_n_n none (V c main_v47) (V c main_arg5) :=
  (arr2_rowsByCols V c).trans (hostProduct2_eq (V c main_v47) (V c main_arg5)).symm

end Cert.KernelIdeal.Layers

end
-- ==== Proof.SecondActivationValue.lean ====
/- The VALUE of region 3 at the ideal instance: what the region's output array holds after all 25 grid
   points, as one whole-array term of the region's two input arrays as the region finds them (`V`), spelt with the
   reference program's host operations: relu of (the aggregated activations plus the bias row broadcast along the
   50000 rows). Block t of the output is rows 2000·t … 2000·t+1999, all 128 columns; entry (r, q) of the array is
   max (x (r, q) + b (0, q)) 0, written by point r / 2000. -/
import proofs.«138351_j90890097918029_1_alg».proof.Proof.SecondActivation
import proofs.«138351_j90890097918029_1_alg».proof.ReferenceIdeal
import proofs.«138351_j90890097918029_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered, at the ideal instance
variable (V : (c : Dev nD) → (b : Ref sig .tc) → Buf (Elt Ideal) ((c : Thread nD τ).loc b))

/-! ## The payload at an index -/

/-- The body's payload at row `p`, column `q` of the block: the two shape casts are identities, the bias row is
    broadcast along the rows, so the entry is max (x0 (p, q) + x1 (0, q)) 0 — it depends on row `p` of the row
    block only through column `q`, and on the bias row at column `q`. -/
theorem pay3_ix (x0 : Vec Ideal S2000x128 .f32) (x1 : Vec Ideal S1x128 .f32) (p : Fin 2000) (q : Fin 128) :
    k3_pay1 x0 x1 (ix2 p q) = max (x0 (ix2 p q) + x1 (ix2 (0 : Fin 1) q)) (Ideal.ofBits .f32 0x00000000#32) := by
  unfold k3_pay1
  show max (shapeCast S2000x128 x0 shapeCasts_S2000x128_S2000x128 (ix2 p q)
      + broadcastTo S2000x128 (shapeCast S1x128 x1 shapeCasts_S1x128_S1x128) broadcasts_S1x128_S2000x128 (ix2 p q)) _ = _
  rw [shapeCast_self, shapeCast_self, broadcastTo_1b_ab_apply]
  rfl

/-- The same at any index `y` of the block. -/
theorem pay3_apply (x0 : Vec Ideal S2000x128 .f32) (x1 : Vec Ideal S1x128 .f32) (y : S2000x128.Idx) :
    k3_pay1 x0 x1 y = max (x0 y + x1 (ix2 (0 : Fin 1) (y 1))) (Ideal.ofBits .f32 0x00000000#32) := by
  obtain ⟨p, q, rfl⟩ : ∃ (p : Fin 2000) (q : Fin 128), y = ix2 p q := ⟨y 0, y 1, eq_ix2 y⟩
  exact pay3_ix x0 x1 p q

/-! ## The whole-array term, in the reference's host operations -/

/-- relu (a + the bias row broadcast along the 50000 rows), the zero a scalar constant broadcast to the array:
    the term the reference program's operations compose. -/
abbrev act3 (a : FVec Ideal Cert.ReferenceIdeal.S50000x128 .f32) (b : FVec Ideal Cert.ReferenceIdeal.S1x128 .f32) : FVec Ideal Cert.ReferenceIdeal.S50000x128 .f32 :=
  maximumf (addf a (broadcastInDim Cert.ReferenceIdeal.S50000x128 ![0, 1] Cert.ReferenceIdeal.Facts₀.bcast_S1x128_S50000x128_0_1 b))
    (broadcastInDim Cert.ReferenceIdeal.S50000x128 ![] Cert.ReferenceIdeal.Facts₀.bcast_S_S50000x128 (constant (F := Ideal) Cert.ReferenceIdeal.S_ .f32 0x00000000#32))

/-- That term at row `r`, column `q`: max (a (r, q) + b (0, q)) 0. -/
theorem act3_apply (a : FVec Ideal Cert.ReferenceIdeal.S50000x128 .f32) (b : FVec Ideal Cert.ReferenceIdeal.S1x128 .f32) (i : Cert.ReferenceIdeal.S50000x128.Idx) :
    act3 a b i = max (a i + b (ix2 (0 : Fin 1) (i 1))) (Ideal.ofBits .f32 0x00000000#32) := by
  show max (a i + broadcastInDim Cert.ReferenceIdeal.S50000x128 ![0, 1] Cert.ReferenceIdeal.Facts₀.bcast_S1x128_S50000x128_0_1 b i)
      (broadcastInDim Cert.ReferenceIdeal.S50000x128 ![] Cert.ReferenceIdeal.Facts₀.bcast_S_S50000x128 (constant (F := Ideal) Cert.ReferenceIdeal.S_ .f32 0x00000000#32) i) = _
  rw [broadcastInDim_apply _ Cert.ReferenceIdeal.Facts₀.bcast_S1x128_S50000x128_0_1 b i (ix2 (0 : Fin 1) (i 1)) (fun ax => match ax with
      | ⟨0, _⟩ => by show 0 = if (1 : Nat) = 1 then 0 else (i 0).val; rw [if_pos rfl]
      | ⟨1, _⟩ => by show (i 1).val = if (128 : Nat) = 1 then 0 else (i 1).val; rw [if_neg (by decide)]),
    broadcastInDim_apply _ Cert.ReferenceIdeal.Facts₀.bcast_S_S50000x128 (constant (F := Ideal) Cert.ReferenceIdeal.S_ .f32 0x00000000#32) i ix0 (fun ax => ax.elim0)]
  rfl

/-! ## From blocks to the array -/

theorem zeros3 : (![0, 0] : Fin 2 → Nat) = fun _ => 0 := funext fun a => by fin_cases a <;> rfl

/-- The index maps over the 25 grid points: block `t` of the row-block window and of the output window is rows
    2000·t … 2000·t+1999, all 128 columns; the bias window's block is always the one row. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Every one of the 25 row blocks is some point's. -/
theorem idx_onto3 : ∀ q0 : Fin 25, ∃ t : Fin cfg3.N, win3_2.index t = ![q0.val, 0] :=
  (by decide +kernel : ∀ q0 : Fin 25, ∃ t : Fin grid3.N, win3_2.index t = ![q0.val, 0])

/-- What point `t` writes back is block `t` — rows 2000·t … 2000·t+1999 — of the whole-array term of the two
    input arrays as the region finds them: entry (p, q) of the block is max (x (2000·t + p, q) + b (0, q)) 0. -/
theorem flushed3_eq (c : Dev nD) (t : Fin cfg3.N) :
    (dat3 (F := Ideal) V c).flushed 2 t = ((cfg3.win 2).blk t).view.read (Elt Ideal) (act3 (V c main_v61) (V c main_v62)) := by
  show (cfg3.win 2).cut (grid3.coords t) ((dat3 V c).after 2 t) = _
  rw [after3_2]
  unfold out3_2
  rw [View.canon_unit_zero zeros3]
  simp only [View.ld_unit_zero (S := S2000x128) zeros3, View.ld_unit_zero (S := S1x128) zeros3]
  obtain ⟨f0, f1, f2, f3, f4, f5⟩ := idx_facts3 t
  funext j
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  -- the row block's entry (p, q) at point t is the array's entry (2000·t + p, q); the bias block's (0, q) is the bias row's (0, q)
  have e0 : iblk3 V c 0 t j = V c main_v61 (((cfg3.win 2).blk t).view.emb j) := by
    show V c main_v61 (((cfg3.win 0).blk t).view.emb j) = _
    exact congrArg (V c main_v61) h0
  have e1 : iblk3 V c 1 t (ix2 (0 : Fin 1) (j 1)) = V c main_v62 (ix2 (0 : Fin 1) ((((cfg3.win 2).blk t).view.emb j) 1)) := by
    show V c main_v62 (((cfg3.win 1).blk t).view.emb (ix2 (0 : Fin 1) (j 1))) = _
    exact congrArg (V c main_v62) h1
  refine (pay3_apply (iblk3 V c 0 t) (iblk3 V c 1 t) j).trans ?_
  refine Eq.trans ?_ (act3_apply (V c main_v61) (V c main_v62) (((cfg3.win 2).blk t).view.emb j)).symm
  rw [e0, e1]

/-- An index of the output array is in point `t`'s block iff each coordinate is in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- The 25 blocks of 2000 rows tile the 50000 rows: row `r` is in the block of point r / 2000. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- THE OUTPUT ARRAY after all 25 points: relu of (the aggregated activations plus the bias row broadcast along
    the rows), as one whole-array term of the region's two input arrays. -/
theorem arr3_eq (c : Dev nD) : (dat3 (F := Ideal) V c).arrAt 2 cfg3.N
    = maximumf (addf (V c main_v61) (broadcastInDim Cert.ReferenceIdeal.S50000x128 ![0, 1] Cert.ReferenceIdeal.Facts₀.bcast_S1x128_S50000x128_0_1 (V c main_v62)))
        (broadcastInDim Cert.ReferenceIdeal.S50000x128 ![] Cert.ReferenceIdeal.Facts₀.bcast_S_S50000x128 (constant (F := Ideal) Cert.ReferenceIdeal.S_ .f32 0x00000000#32)) :=
  (dat3 (F := Ideal) V c).arrAt_eq_of_cover 2 (act3 (V c main_v61) (V c main_v62)) (fun t _ => flushed3_eq V c t) cover3

end Cert.KernelIdeal.Layers

end
-- ==== Proof.NodeMlpValue.lean ====
/- The value of pipeline region 4 of @main (the node update's two-layer perceptron) on extended reals: after all 25 grid points the
   region's output array [50000, 128] holds, at (r, q),
       Σ_k max (Σ_j x (r, j) · w1 (j, k) + b1 (0, k)) 0 · w2 (k, q)  +  b2 (0, q)        (j < 128, k < 256)
   of the five arrays the region reads (x [50000, 128], w1 [128, 256], b1 [1, 256], w2 [256, 128], b2 [1, 128]) as it finds
   them — and that array is the host's term  dot(max(dot(x, w1) + bcast b1, bcast 0), w2) + bcast b2.
   Block `t` of the input and of the output is rows 2000·t … 2000·t + 1999; the other four windows are whole arrays. Row r
   of the output depends on row r of x only, so what point `t` writes back is block `t` of one whole-array function
   (`nodeMlp`), and the 25 blocks tile the array: row r is in the block of point r / 2000.
   The body's two products are sums over the contraction index because they accumulate onto a zero array, and its
   roundings to bf16 are the identity on extended reals; the host's two products are the same sums. -/
import proofs.«138351_j90890097918029_1_alg».proof.Proof.NodeMlp
import proofs.«138351_j90890097918029_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The value, entry by entry -/

/-- Entry (r, q) of the two-layer value of the arrays `x` [50000, 128], `w1` [128, 256], `b1` [1, 256], `w2` [256, 128],
    `b2` [1, 128]:  Σ_k max (Σ_j x (r, j) · w1 (j, k) + b1 (0, k)) 0 · w2 (k, q)  +  b2 (0, q).
    It depends on row r of `x`, column q of `w2` and `b2`, and all of `w1` and `b1`. -/
def nodeMlpAt (x : S50000x128.Idx → EReal) (w1 : S128x256.Idx → EReal) (b1 : S1x256.Idx → EReal) (w2 : S256x128.Idx → EReal) (b2 : S1x128.Idx → EReal) (r : Fin 50000) (q : Fin 128) : EReal :=
  (∑ k : Fin 256, max ((∑ j : Fin 128, x (ix2 r j) * w1 (ix2 j k)) + b1 (ix2 (0 : Fin 1) k)) 0 * w2 (ix2 k q))
    + b2 (ix2 (0 : Fin 1) q)

/-- The whole [50000, 128] array of those entries. -/
def nodeMlp (x : S50000x128.Idx → EReal) (w1 : S128x256.Idx → EReal) (b1 : S1x256.Idx → EReal) (w2 : S256x128.Idx → EReal) (b2 : S1x128.Idx → EReal) : S50000x128.Idx → EReal :=
  fun i => nodeMlpAt x w1 b1 w2 b2 ⟨(i 0).val, idx2_lt0 i⟩ ⟨(i 1).val, idx2_lt1 i⟩

/-- The array at an index whose coordinates are r and q. -/
theorem nodeMlp_apply (x : S50000x128.Idx → EReal) (w1 : S128x256.Idx → EReal) (b1 : S1x256.Idx → EReal) (w2 : S256x128.Idx → EReal) (b2 : S1x128.Idx → EReal) (i : S50000x128.Idx) (r : Fin 50000) (q : Fin 128)
    (h0 : (i 0).val = r.val) (h1 : (i 1).val = q.val) : nodeMlp x w1 b1 w2 b2 i = nodeMlpAt x w1 b1 w2 b2 r q := by
  obtain rfl : i = ix2 r q := funext fun a => Fin.ext (by
    match a with
    | ⟨0, _⟩ => exact h0
    | ⟨1, _⟩ => exact h1)
  rfl

/-! ## The body's value on a block, entry by entry -/

/-- The first product of a block: on the left operand the row is the result's row, the column the contraction position; -/
theorem node_dot1_lrow (i : S2000x256.Idx) (κ : dot_S2000x128_S128x256_S2000x256_1_0_0_1_n_n.contr.Idx) :
    (dot_S2000x128_S128x256_S2000x256_1_0_0_1_n_n.lhsIdx i κ 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem node_dot1_lcol (i : S2000x256.Idx) (κ : dot_S2000x128_S128x256_S2000x256_1_0_0_1_n_n.contr.Idx) :
    (dot_S2000x128_S128x256_S2000x256_1_0_0_1_n_n.lhsIdx i κ 1).val = (κ ⟨0, by decide⟩).val :=
  dot_S2000x128_S128x256_S2000x256_1_0_0_1_n_n.lhsIdx_val_of_single rfl i κ
/-- on the right operand the row is the contraction position, the column the result's column. -/
theorem node_dot1_rrow (i : S2000x256.Idx) (κ : dot_S2000x128_S128x256_S2000x256_1_0_0_1_n_n.contr.Idx) :
    (dot_S2000x128_S128x256_S2000x256_1_0_0_1_n_n.rhsIdx i κ 0).val = (κ ⟨0, by decide⟩).val :=
  dot_S2000x128_S128x256_S2000x256_1_0_0_1_n_n.rhsIdx_val_of_single rfl i κ
theorem node_dot1_rcol (i : S2000x256.Idx) (κ : dot_S2000x128_S128x256_S2000x256_1_0_0_1_n_n.contr.Idx) :
    (dot_S2000x128_S128x256_S2000x256_1_0_0_1_n_n.rhsIdx i κ 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- So its sum over the contraction index is the sum over `k : Fin 128` of `l (p, k) · r (k, q)`. -/
theorem node_dot1_sum (l : S2000x128.Idx → EReal) (r : S128x256.Idx → EReal) (p : Fin 2000) (q : Fin 256) :
    ∑ κ : dot_S2000x128_S128x256_S2000x256_1_0_0_1_n_n.contr.Idx, l (dot_S2000x128_S128x256_S2000x256_1_0_0_1_n_n.lhsIdx (ix2 p q) κ) * r (dot_S2000x128_S128x256_S2000x256_1_0_0_1_n_n.rhsIdx (ix2 p q) κ)
      = ∑ k : Fin 128, l (ix2 p k) * r (ix2 k q) := by
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact node_dot1_lrow _ _
    | ⟨1, _⟩ => exact (node_dot1_lcol _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (node_dot1_rrow _ _).trans hk
    | ⟨1, _⟩ => exact node_dot1_rcol _ _)
  rw [el, er]

/-- The second product of a block: on the left operand the row is the result's row, the column the contraction position; -/
theorem node_dot2_lrow (i : S2000x128.Idx) (κ : dot_S2000x256_S256x128_S2000x128_1_0_0_1_n_n.contr.Idx) :
    (dot_S2000x256_S256x128_S2000x128_1_0_0_1_n_n.lhsIdx i κ 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem node_dot2_lcol (i : S2000x128.Idx) (κ : dot_S2000x256_S256x128_S2000x128_1_0_0_1_n_n.contr.Idx) :
    (dot_S2000x256_S256x128_S2000x128_1_0_0_1_n_n.lhsIdx i κ 1).val = (κ ⟨0, by decide⟩).val :=
  dot_S2000x256_S256x128_S2000x128_1_0_0_1_n_n.lhsIdx_val_of_single rfl i κ
/-- on the right operand the row is the contraction position, the column the result's column. -/
theorem node_dot2_rrow (i : S2000x128.Idx) (κ : dot_S2000x256_S256x128_S2000x128_1_0_0_1_n_n.contr.Idx) :
    (dot_S2000x256_S256x128_S2000x128_1_0_0_1_n_n.rhsIdx i κ 0).val = (κ ⟨0, by decide⟩).val :=
  dot_S2000x256_S256x128_S2000x128_1_0_0_1_n_n.rhsIdx_val_of_single rfl i κ
theorem node_dot2_rcol (i : S2000x128.Idx) (κ : dot_S2000x256_S256x128_S2000x128_1_0_0_1_n_n.contr.Idx) :
    (dot_S2000x256_S256x128_S2000x128_1_0_0_1_n_n.rhsIdx i κ 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- So its sum over the contraction index is the sum over `k : Fin 256` of `l (p, k) · r (k, q)`. -/
theorem node_dot2_sum (l : S2000x256.Idx → EReal) (r : S256x128.Idx → EReal) (p : Fin 2000) (q : Fin 128) :
    ∑ κ : dot_S2000x256_S256x128_S2000x128_1_0_0_1_n_n.contr.Idx, l (dot_S2000x256_S256x128_S2000x128_1_0_0_1_n_n.lhsIdx (ix2 p q) κ) * r (dot_S2000x256_S256x128_S2000x128_1_0_0_1_n_n.rhsIdx (ix2 p q) κ)
      = ∑ k : Fin 256, l (ix2 p k) * r (ix2 k q) := by
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact node_dot2_lrow _ _
    | ⟨1, _⟩ => exact (node_dot2_lcol _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (node_dot2_rrow _ _).trans hk
    | ⟨1, _⟩ => exact node_dot2_rcol _ _)
  rw [el, er]

/-- Entry (p, q) of what the body stores, from the five blocks it loads: the two-layer value of row p of the input
    block (the roundings to bf16 are the identity on extended reals; each product accumulates onto a zero array). -/
theorem node_pay_apply (x0 : Vec Ideal S2000x128 .f32) (x1 : Vec Ideal S128x256 .f32) (x2 : Vec Ideal S1x256 .f32)
    (x3 : Vec Ideal S256x128 .f32) (x4 : Vec Ideal S1x128 .f32) (p : Fin 2000) (q : Fin 128) :
    k4_pay1 x0 x1 x2 x3 x4 (ix2 p q)
      = (∑ k : Fin 256, max ((∑ j : Fin 128, x0 (ix2 p j) * x1 (ix2 j k)) + x2 (ix2 (0 : Fin 1) k)) 0 * x3 (ix2 k q))
        + x4 (ix2 (0 : Fin 1) q) := by
  unfold k4_pay1
  rw [addf_apply]
  refine congrArg₂ (fun a b : EReal => a + b) ?_ ((broadcastTo_1b_ab_apply _ _ p q).trans (by rw [shapeCast_self]))
  refine (Ideal.matmul_constant_zero_apply _ none _ _ (ix2 p q)).trans ?_
  refine (node_dot2_sum _ _ p q).trans ?_
  refine Finset.sum_congr rfl fun k _ => ?_
  refine congrArg₂ (fun a b : EReal => a * b) ?_ rfl
  rw [truncf_apply, maximumf_apply]
  refine congrArg₂ max ?_ Ideal.ofBits_zero_f32
  rw [addf_apply]
  refine congrArg₂ (fun a b : EReal => a + b) ?_ ((broadcastTo_1b_ab_apply _ _ p k).trans (by rw [shapeCast_self]))
  refine (Ideal.matmul_constant_zero_apply _ none _ _ (ix2 p k)).trans ?_
  refine (node_dot1_sum _ _ p k).trans ?_
  rw [shapeCast_self]
  rfl

/-- So when the input block is rows `s … s + 1999` of `x`, entry (p, q) of what the body stores is entry (s + p, q) of
    the array's two-layer value. -/
theorem node_block_apply (x : S50000x128.Idx → EReal) (w1 : S128x256.Idx → EReal) (b1 : S1x256.Idx → EReal) (w2 : S256x128.Idx → EReal) (b2 : S1x128.Idx → EReal)
    (x0 : Vec Ideal S2000x128 .f32) (s : Nat) (hs : s + 2000 ≤ 50000)
    (h0 : ∀ (p : Fin 2000) (j : Fin 128), x0 (ix2 p j) = x (ix2 (⟨s + p.val, by have := p.isLt; omega⟩ : Fin 50000) j))
    (p : Fin 2000) (q : Fin 128) :
    k4_pay1 x0 w1 b1 w2 b2 (ix2 p q) = nodeMlpAt x w1 b1 w2 b2 ⟨s + p.val, by have := p.isLt; omega⟩ q := by
  rw [node_pay_apply]
  unfold nodeMlpAt
  simp only [h0]

/-! ## From blocks to the array -/

theorem node_off_zero : (![0, 0] : Fin 2 → Nat) = fun _ => 0 := funext fun a => by fin_cases a <;> rfl

/-- The index maps, decided over the 25 grid points: block `t` of the input and of the output is row block `t`
    (rows 2000·t … 2000·t + 1999), every other window's one block is at (0, 0). -/
theorem node_idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- A row of block `t` is a row of the array. -/
theorem node_row_lt (t : Fin cfg4.N) : 2000 * t.val + 2000 ≤ 50000 := by
  have h := t.isLt
  have hN : cfg4.N = 25 := N_4
  omega

/-- Window 1 is one block, the whole of its array, at every point. -/
theorem node_iblk_1 (c : Dev nD) (t : Fin cfg4.N) : (iblk4 V c 1 t : S128x256.Idx → EReal) = V c main_arg7 := by
  obtain ⟨e00, e01, e10, e11, e20, e21, e30, e31, e40, e41, e50, e51⟩ := node_idx_facts t
  funext y
  show V c main_arg7 (((cfg4.win 1).blk t).view.emb y) = V c main_arg7 y
  refine congrArg (V c main_arg7) (funext fun a => Fin.ext ?_)
  match a with
  | ⟨0, _⟩ => show win4_1.index t (0 : Fin 2) * 128 + 1 * (y 0).val = (y 0).val; omega
  | ⟨1, _⟩ => show win4_1.index t (1 : Fin 2) * 256 + 1 * (y 1).val = (y 1).val; omega

/-- Window 2 is one block, the whole of its array, at every point. -/
theorem node_iblk_2 (c : Dev nD) (t : Fin cfg4.N) : (iblk4 V c 2 t : S1x256.Idx → EReal) = V c main_v64 := by
  obtain ⟨e00, e01, e10, e11, e20, e21, e30, e31, e40, e41, e50, e51⟩ := node_idx_facts t
  funext y
  show V c main_v64 (((cfg4.win 2).blk t).view.emb y) = V c main_v64 y
  refine congrArg (V c main_v64) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- Window 3 is one block, the whole of its array, at every point. -/
theorem node_iblk_3 (c : Dev nD) (t : Fin cfg4.N) : (iblk4 V c 3 t : S256x128.Idx → EReal) = V c main_arg9 := by
  obtain ⟨e00, e01, e10, e11, e20, e21, e30, e31, e40, e41, e50, e51⟩ := node_idx_facts t
  funext y
  show V c main_arg9 (((cfg4.win 3).blk t).view.emb y) = V c main_arg9 y
  refine congrArg (V c main_arg9) (funext fun a => Fin.ext ?_)
  match a with
  | ⟨0, _⟩ => show win4_3.index t (0 : Fin 2) * 256 + 1 * (y 0).val = (y 0).val; omega
  | ⟨1, _⟩ => show win4_3.index t (1 : Fin 2) * 128 + 1 * (y 1).val = (y 1).val; omega

/-- Window 4 is one block, the whole of its array, at every point. -/
theorem node_iblk_4 (c : Dev nD) (t : Fin cfg4.N) : (iblk4 V c 4 t : S1x128.Idx → EReal) = V c main_v65 := by
  obtain ⟨e00, e01, e10, e11, e20, e21, e30, e31, e40, e41, e50, e51⟩ := node_idx_facts t
  funext y
  show V c main_v65 (((cfg4.win 4).blk t).view.emb y) = V c main_v65 y
  refine congrArg (V c main_v65) (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Entry (p, j) of the input's block at point `t` is entry (2000·t + p, j) of the input array. -/
theorem node_iblk_0 (c : Dev nD) (t : Fin cfg4.N) (p : Fin 2000) (j : Fin 128) :
    (iblk4 V c 0 t : S2000x128.Idx → EReal) (ix2 p j)
      = V c main_v63 (ix2 (⟨2000 * t.val + p.val, by have := node_row_lt t; have := p.isLt; omega⟩ : Fin 50000) j) := by
  obtain ⟨e00, e01, e10, e11, e20, e21, e30, e31, e40, e41, e50, e51⟩ := node_idx_facts t
  show V c main_v63 (((cfg4.win 0).blk t).view.emb (ix2 p j)) = V c main_v63 _
  refine congrArg (V c main_v63) (funext fun a => Fin.ext ?_)
  match a with
  | ⟨0, _⟩ => show win4_0.index t (0 : Fin 2) * 2000 + 1 * p.val = 2000 * t.val + p.val; omega
  | ⟨1, _⟩ => show win4_0.index t (1 : Fin 2) * 128 + 1 * j.val = j.val; omega

/-- What point `t` writes back is block `t` of the two-layer value of the five arrays as the region finds them. -/
theorem node_flushed_eq (c : Dev nD) (t : Fin cfg4.N) :
    (dat4 (F := Ideal) V c).flushed 5 t
      = ((cfg4.win 5).blk t).view.read (Elt Ideal) (nodeMlp (V c main_v63) (V c main_arg7) (V c main_v64) (V c main_arg9) (V c main_v65)) := by
  show (cfg4.win 5).cut (grid4.coords t) ((dat4 V c).after 5 t) = _
  rw [after4_5]
  unfold out4_5
  rw [View.canon_unit_zero node_off_zero]
  simp only [View.ld_unit_zero (S := S2000x128) node_off_zero, View.ld_unit_zero (S := S128x256) node_off_zero, View.ld_unit_zero (S := S1x256) node_off_zero, View.ld_unit_zero (S := S256x128) node_off_zero, View.ld_unit_zero (S := S1x128) node_off_zero]
  rw [node_iblk_1 V c t, node_iblk_2 V c t, node_iblk_3 V c t, node_iblk_4 V c t]
  obtain ⟨e00, e01, e10, e11, e20, e21, e30, e31, e40, e41, e50, e51⟩ := node_idx_facts t
  funext y
  obtain ⟨p, q, rfl⟩ : ∃ (p : Fin 2000) (q : Fin 128), y = ix2 p q := ⟨y 0, y 1, eq_ix2 y⟩
  refine (node_block_apply (V c main_v63) (V c main_arg7) (V c main_v64) (V c main_arg9) (V c main_v65) (iblk4 V c 0 t) (2000 * t.val) (node_row_lt t)
    (fun p' j => node_iblk_0 V c t p' j) p q).trans ?_
  refine (nodeMlp_apply (V c main_v63) (V c main_arg7) (V c main_v64) (V c main_arg9) (V c main_v65) (((cfg4.win 5).blk t).view.emb (ix2 p q)) _ q ?_ ?_).symm
  · show win4_5.index t (0 : Fin 2) * 2000 + 1 * p.val = 2000 * t.val + p.val; omega
  · show win4_5.index t (1 : Fin 2) * 128 + 1 * q.val = q.val; omega

/-- An index of the output array is in point `t`'s block iff each coordinate is in the block's range on its axis. -/
theorem node_mem_blk (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v66).slice (win4_5.rect t)).set ↔ _
  rw [View.set_slice_whole, Rect.mem_set_unit]
  exact Iff.rfl

/-- The 25 row blocks cover the output array: row r is in the block of point r / 2000, which writes back. -/
theorem node_cover (i : S50000x128.Idx) :
    ∃ t : Fin cfg4.N, (cfg4.win 5).flush t = true ∧ i ∈ ((cfg4.win 5).blk t).view.set := by
  have hN : cfg4.N = 25 := N_4
  have hi0 : (i 0).val < 50000 := (i 0).isLt
  have hi1 : (i 1).val < 128 := (i 1).isLt
  obtain ⟨t, ht⟩ : ∃ t : Fin cfg4.N, t.val = (i 0).val / 2000 := ⟨⟨(i 0).val / 2000, by rw [hN]; omega⟩, rfl⟩
  obtain ⟨e00, e01, e10, e11, e20, e21, e30, e31, e40, e41, e50, e51⟩ := node_idx_facts t
  refine ⟨t, flush4_5 t, ?_⟩
  rw [node_mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- So after all 25 points the output array holds the two-layer value of the five input arrays. -/
theorem node_arr_eq_mlp (c : Dev nD) :
    (dat4 (F := Ideal) V c).arrAt 5 cfg4.N = nodeMlp (V c main_v63) (V c main_arg7) (V c main_v64) (V c main_arg9) (V c main_v65) :=
  (dat4 (F := Ideal) V c).arrAt_eq_of_cover 5 _ (fun t _ => node_flushed_eq V c t) node_cover

/-! ## The same value in the host's operations -/

/-- The host's first product: on the left operand the row is the result's row, the column the contraction position; -/
theorem node_hdot1_lrow (i : Cert.ReferenceIdeal.S50000x256.Idx) (κ : Cert.ReferenceIdeal.dot_S50000x128_S128x256_S50000x256_1_0_0_1_n_n.contr.Idx) :
    (Cert.ReferenceIdeal.dot_S50000x128_S128x256_S50000x256_1_0_0_1_n_n.lhsIdx i κ 0).val = (i 0).val := by
  unfold DotDims.lhsIdx
  rw [dif_neg (show ¬(0 : Fin Cert.ReferenceIdeal.S50000x128.rank) ∈ Cert.ReferenceIdeal.dot_S50000x128_S128x256_S50000x256_1_0_0_1_n_n.lhsBatch by decide), dif_pos (show (0 : Fin Cert.ReferenceIdeal.S50000x128.rank) ∈ Cert.ReferenceIdeal.dot_S50000x128_S128x256_S50000x256_1_0_0_1_n_n.lhsNonContracting by decide)]
  rfl
theorem node_hdot1_lcol (i : Cert.ReferenceIdeal.S50000x256.Idx) (κ : Cert.ReferenceIdeal.dot_S50000x128_S128x256_S50000x256_1_0_0_1_n_n.contr.Idx) :
    (Cert.ReferenceIdeal.dot_S50000x128_S128x256_S50000x256_1_0_0_1_n_n.lhsIdx i κ 1).val = (κ ⟨0, by decide⟩).val :=
  Cert.ReferenceIdeal.dot_S50000x128_S128x256_S50000x256_1_0_0_1_n_n.lhsIdx_val_of_single rfl i κ
/-- on the right operand the row is the contraction position, the column the result's column. -/
theorem node_hdot1_rrow (i : Cert.ReferenceIdeal.S50000x256.Idx) (κ : Cert.ReferenceIdeal.dot_S50000x128_S128x256_S50000x256_1_0_0_1_n_n.contr.Idx) :
    (Cert.ReferenceIdeal.dot_S50000x128_S128x256_S50000x256_1_0_0_1_n_n.rhsIdx i κ 0).val = (κ ⟨0, by decide⟩).val :=
  Cert.ReferenceIdeal.dot_S50000x128_S128x256_S50000x256_1_0_0_1_n_n.rhsIdx_val_of_single rfl i κ
theorem node_hdot1_rcol (i : Cert.ReferenceIdeal.S50000x256.Idx) (κ : Cert.ReferenceIdeal.dot_S50000x128_S128x256_S50000x256_1_0_0_1_n_n.contr.Idx) :
    (Cert.ReferenceIdeal.dot_S50000x128_S128x256_S50000x256_1_0_0_1_n_n.rhsIdx i κ 1).val = (i 1).val := by
  unfold DotDims.rhsIdx
  rw [dif_neg (show ¬(1 : Fin Cert.ReferenceIdeal.S128x256.rank) ∈ Cert.ReferenceIdeal.dot_S50000x128_S128x256_S50000x256_1_0_0_1_n_n.rhsBatch by decide), dif_pos (show (1 : Fin Cert.ReferenceIdeal.S128x256.rank) ∈ Cert.ReferenceIdeal.dot_S50000x128_S128x256_S50000x256_1_0_0_1_n_n.rhsNonContracting by decide)]
  rfl

/-- So its sum over the contraction index is the sum over `k : Fin 128` of `l (p, k) · r (k, q)`. -/
theorem node_hdot1_sum (l : Cert.ReferenceIdeal.S50000x128.Idx → EReal) (r : Cert.ReferenceIdeal.S128x256.Idx → EReal) (p : Fin 50000) (q : Fin 256) :
    ∑ κ : Cert.ReferenceIdeal.dot_S50000x128_S128x256_S50000x256_1_0_0_1_n_n.contr.Idx, l (Cert.ReferenceIdeal.dot_S50000x128_S128x256_S50000x256_1_0_0_1_n_n.lhsIdx (ix2 p q) κ) * r (Cert.ReferenceIdeal.dot_S50000x128_S128x256_S50000x256_1_0_0_1_n_n.rhsIdx (ix2 p q) κ)
      = ∑ k : Fin 128, l (ix2 p k) * r (ix2 k q) := by
  rw [← Equiv.sum_comp (contrEquiv1 Cert.ReferenceIdeal.dot_S50000x128_S128x256_S50000x256_1_0_0_1_n_n 128 rfl rfl).symm]
  refine Finset.sum_congr rfl fun k _ => ?_
  have hk := contrEquiv1_symm_val Cert.ReferenceIdeal.dot_S50000x128_S128x256_S50000x256_1_0_0_1_n_n 128 rfl rfl k
  have el : Cert.ReferenceIdeal.dot_S50000x128_S128x256_S50000x256_1_0_0_1_n_n.lhsIdx (ix2 p q) ((contrEquiv1 Cert.ReferenceIdeal.dot_S50000x128_S128x256_S50000x256_1_0_0_1_n_n 128 rfl rfl).symm k) = ix2 p k := funext fun a => Fin.ext (by
    match a with
    | ⟨0, _⟩ => exact node_hdot1_lrow _ _
    | ⟨1, _⟩ => exact (node_hdot1_lcol _ _).trans hk)
  have er : Cert.ReferenceIdeal.dot_S50000x128_S128x256_S50000x256_1_0_0_1_n_n.rhsIdx (ix2 p q) ((contrEquiv1 Cert.ReferenceIdeal.dot_S50000x128_S128x256_S50000x256_1_0_0_1_n_n 128 rfl rfl).symm k) = ix2 k q := funext fun a => Fin.ext (by
    match a with
    | ⟨0, _⟩ => exact (node_hdot1_rrow _ _).trans hk
    | ⟨1, _⟩ => exact node_hdot1_rcol _ _)
  rw [el, er]

/-- The host's second product: on the left operand the row is the result's row, the column the contraction position; -/
theorem node_hdot2_lrow (i : Cert.ReferenceIdeal.S50000x128.Idx) (κ : Cert.ReferenceIdeal.dot_S50000x256_S256x128_S50000x128_1_0_0_1_n_n.contr.Idx) :
    (Cert.ReferenceIdeal.dot_S50000x256_S256x128_S50000x128_1_0_0_1_n_n.lhsIdx i κ 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem node_hdot2_lcol (i : Cert.ReferenceIdeal.S50000x128.Idx) (κ : Cert.ReferenceIdeal.dot_S50000x256_S256x128_S50000x128_1_0_0_1_n_n.contr.Idx) :
    (Cert.ReferenceIdeal.dot_S50000x256_S256x128_S50000x128_1_0_0_1_n_n.lhsIdx i κ 1).val = (κ ⟨0, by decide⟩).val :=
  Cert.ReferenceIdeal.dot_S50000x256_S256x128_S50000x128_1_0_0_1_n_n.lhsIdx_val_of_single rfl i κ
/-- on the right operand the row is the contraction position, the column the result's column. -/
theorem node_hdot2_rrow (i : Cert.ReferenceIdeal.S50000x128.Idx) (κ : Cert.ReferenceIdeal.dot_S50000x256_S256x128_S50000x128_1_0_0_1_n_n.contr.Idx) :
    (Cert.ReferenceIdeal.dot_S50000x256_S256x128_S50000x128_1_0_0_1_n_n.rhsIdx i κ 0).val = (κ ⟨0, by decide⟩).val :=
  Cert.ReferenceIdeal.dot_S50000x256_S256x128_S50000x128_1_0_0_1_n_n.rhsIdx_val_of_single rfl i κ
theorem node_hdot2_rcol (i : Cert.ReferenceIdeal.S50000x128.Idx) (κ : Cert.ReferenceIdeal.dot_S50000x256_S256x128_S50000x128_1_0_0_1_n_n.contr.Idx) :
    (Cert.ReferenceIdeal.dot_S50000x256_S256x128_S50000x128_1_0_0_1_n_n.rhsIdx i κ 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl

/-- So its sum over the contraction index is the sum over `k : Fin 256` of `l (p, k) · r (k, q)`. -/
theorem node_hdot2_sum (l : Cert.ReferenceIdeal.S50000x256.Idx → EReal) (r : Cert.ReferenceIdeal.S256x128.Idx → EReal) (p : Fin 50000) (q : Fin 128) :
    ∑ κ : Cert.ReferenceIdeal.dot_S50000x256_S256x128_S50000x128_1_0_0_1_n_n.contr.Idx, l (Cert.ReferenceIdeal.dot_S50000x256_S256x128_S50000x128_1_0_0_1_n_n.lhsIdx (ix2 p q) κ) * r (Cert.ReferenceIdeal.dot_S50000x256_S256x128_S50000x128_1_0_0_1_n_n.rhsIdx (ix2 p q) κ)
      = ∑ k : Fin 256, l (ix2 p k) * r (ix2 k q) := by
  rw [← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 p q) ((contrEquiv1 Cert.ReferenceIdeal.dot_S50000x256_S256x128_S50000x128_1_0_0_1_n_n 256 rfl rfl).symm k) = ix2 p k := funext fun a => Fin.ext (by
    match a with
    | ⟨0, _⟩ => exact node_hdot2_lrow _ _
    | ⟨1, _⟩ => exact (node_hdot2_lcol _ _).trans hk)
  have er : Cert.ReferenceIdeal.dot_S50000x256_S256x128_S50000x128_1_0_0_1_n_n.rhsIdx (ix2 p q) ((contrEquiv1 Cert.ReferenceIdeal.dot_S50000x256_S256x128_S50000x128_1_0_0_1_n_n 256 rfl rfl).symm k) = ix2 k q := funext fun a => Fin.ext (by
    match a with
    | ⟨0, _⟩ => exact (node_hdot2_rrow _ _).trans hk
    | ⟨1, _⟩ => exact node_hdot2_rcol _ _)
  rw [el, er]

/-- A bias row broadcast over the rows reads, at (r, k), the row's entry k. -/
theorem node_hbias1_apply (b : FVec Ideal Cert.ReferenceIdeal.S1x256 .f32) (r : Fin 50000) (k : Fin 256) :
    broadcastInDim Cert.ReferenceIdeal.S50000x256 ![0, 1] Cert.ReferenceIdeal.Facts₀.bcast_S1x256_S50000x256_0_1 b (ix2 r k) = b (ix2 (0 : Fin 1) k) :=
  broadcastInDim_apply _ _ b (ix2 r k) (ix2 (0 : Fin 1) k) (fun a => match a with
    | ⟨0, _⟩ => by show (0 : Nat) = if (1 : Nat) = 1 then 0 else r.val; rw [if_pos rfl]
    | ⟨1, _⟩ => by show k.val = if (256 : Nat) = 1 then 0 else k.val; rw [if_neg (by decide)])
theorem node_hbias2_apply (b : FVec Ideal Cert.ReferenceIdeal.S1x128 .f32) (r : Fin 50000) (q : Fin 128) :
    broadcastInDim Cert.ReferenceIdeal.S50000x128 ![0, 1] Cert.ReferenceIdeal.Facts₀.bcast_S1x128_S50000x128_0_1 b (ix2 r q) = b (ix2 (0 : Fin 1) q) :=
  broadcastInDim_apply _ _ b (ix2 r q) (ix2 (0 : Fin 1) q) (fun a => match a with
    | ⟨0, _⟩ => by show (0 : Nat) = if (1 : Nat) = 1 then 0 else r.val; rw [if_pos rfl]
    | ⟨1, _⟩ => by show q.val = if (128 : Nat) = 1 then 0 else q.val; rw [if_neg (by decide)])
/-- The zero scalar broadcast to [50000, 256] reads 0 everywhere. -/
theorem node_hzero_apply (r : Fin 50000) (k : Fin 256) :
    broadcastInDim Cert.ReferenceIdeal.S50000x256 ![] Cert.ReferenceIdeal.Facts₀.bcast_S_S50000x256 (constant (F := Ideal) Cert.ReferenceIdeal.S_ .f32 0x00000000#32) (ix2 r k) = 0 :=
  (broadcastInDim_apply _ _ _ (ix2 r k) ix0 (fun a => a.elim0)).trans Ideal.ofBits_zero_f32

/-- The host's two products, bias rows and maximum with zero, of any five arrays, are the two-layer value: at (r, q)
    both are  Σ_k max (Σ_j x (r, j) · w1 (j, k) + b1 (0, k)) 0 · w2 (k, q)  +  b2 (0, q). -/
theorem node_host_eq_mlp (x : FVec Ideal Cert.ReferenceIdeal.S50000x128 .f32) (w1 : FVec Ideal Cert.ReferenceIdeal.S128x256 .f32) (b1 : FVec Ideal Cert.ReferenceIdeal.S1x256 .f32)
    (w2 : FVec Ideal Cert.ReferenceIdeal.S256x128 .f32) (b2 : FVec Ideal Cert.ReferenceIdeal.S1x128 .f32) :
    addf (Host.dotGeneral (F := Ideal) Cert.ReferenceIdeal.dot_S50000x256_S256x128_S50000x128_1_0_0_1_n_n none
            (maximumf (addf (Host.dotGeneral (F := Ideal) Cert.ReferenceIdeal.dot_S50000x128_S128x256_S50000x256_1_0_0_1_n_n none x w1)
                            (broadcastInDim Cert.ReferenceIdeal.S50000x256 ![0, 1] Cert.ReferenceIdeal.Facts₀.bcast_S1x256_S50000x256_0_1 b1))
                      (broadcastInDim Cert.ReferenceIdeal.S50000x256 ![] Cert.ReferenceIdeal.Facts₀.bcast_S_S50000x256 (constant (F := Ideal) Cert.ReferenceIdeal.S_ .f32 0x00000000#32)))
            w2)
         (broadcastInDim Cert.ReferenceIdeal.S50000x128 ![0, 1] Cert.ReferenceIdeal.Facts₀.bcast_S1x128_S50000x128_0_1 b2)
      = nodeMlp x w1 b1 w2 b2 := by
  funext i
  obtain ⟨r, q, rfl⟩ : ∃ (r : Fin 50000) (q : Fin 128), i = ix2 r q := ⟨i 0, i 1, eq_ix2 i⟩
  rw [addf_apply]
  show _ = nodeMlpAt x w1 b1 w2 b2 r q
  unfold nodeMlpAt
  refine congrArg₂ (fun a b : EReal => a + b) ?_ (node_hbias2_apply b2 r q)
  refine (Ideal.dotGeneral_apply _ none _ _ _ (ix2 r q)).trans ?_
  refine (node_hdot2_sum _ _ r q).trans ?_
  refine Finset.sum_congr rfl fun k _ => ?_
  refine congrArg₂ (fun a b : EReal => a * b) ?_ rfl
  rw [maximumf_apply]
  refine congrArg₂ max ?_ (node_hzero_apply r k)
  rw [addf_apply]
  refine congrArg₂ (fun a b : EReal => a + b) ?_ (node_hbias1_apply b1 r k)
  refine (Ideal.dotGeneral_apply _ none _ _ _ (ix2 r k)).trans ?_
  exact node_hdot1_sum _ _ r k

/-! ## The output array in the host's operations -/

/-- After all 25 points the region's output array is the host's two-layer term of the five arrays the region finds:
    at (r, q),  Σ_k max (Σ_j x (r, j) · w1 (j, k) + b1 (0, k)) 0 · w2 (k, q)  +  b2 (0, q). -/
theorem arr4_eq (c : Dev nD) : (dat4 (F := Ideal) V c).arrAt 5 cfg4.N =
    addf (Host.dotGeneral (F := Ideal) (φ₁ := .f32) (φ₂ := .f32) Cert.ReferenceIdeal.dot_S50000x256_S256x128_S50000x128_1_0_0_1_n_n none
            (maximumf (addf (Host.dotGeneral (F := Ideal) (φ₁ := .f32) (φ₂ := .f32) Cert.ReferenceIdeal.dot_S50000x128_S128x256_S50000x256_1_0_0_1_n_n none (V c main_v63) (V c main_arg7))
                            (broadcastInDim Cert.ReferenceIdeal.S50000x256 ![0, 1] Cert.ReferenceIdeal.Facts₀.bcast_S1x256_S50000x256_0_1 (V c main_v64)))
                      (broadcastInDim Cert.ReferenceIdeal.S50000x256 ![] Cert.ReferenceIdeal.Facts₀.bcast_S_S50000x256 (constant (F := Ideal) Cert.ReferenceIdeal.S_ .f32 0x00000000#32)))
            (V c main_arg9))
         (broadcastInDim Cert.ReferenceIdeal.S50000x128 ![0, 1] Cert.ReferenceIdeal.Facts₀.bcast_S1x128_S50000x128_0_1 (V c main_v65)) :=
  (node_arr_eq_mlp V c).trans (node_host_eq_mlp (V c main_v63) (V c main_arg7) (V c main_v64) (V c main_arg9) (V c main_v65)).symm

end Cert.KernelIdeal.Layers

end
-- ==== Proof.EdgeMlpValue.lean ====
/- The value of pipeline region 5 of @main (the edge update's two-layer perceptron) on extended reals: after all 200 grid points the
   region's output array [800000, 16] holds, at (r, q),
       Σ_k max (Σ_j x (r, j) · w1 (j, k) + b1 (0, k)) 0 · w2 (k, q)  +  b2 (0, q)        (j < 272, k < 256)
   of the five arrays the region reads (x [800000, 272], w1 [272, 256], b1 [1, 256], w2 [256, 16], b2 [1, 16]) as it finds
   them — and that array is the host's term  dot(max(dot(x, w1) + bcast b1, bcast 0), w2) + bcast b2.
   Block `t` of the input and of the output is rows 4000·t … 4000·t + 3999; the other four windows are whole arrays. Row r
   of the output depends on row r of x only, so what point `t` writes back is block `t` of one whole-array function
   (`edgeMlp`), and the 200 blocks tile the array: row r is in the block of point r / 4000.
   The body's two products are sums over the contraction index because they accumulate onto a zero array, and its
   roundings to bf16 are the identity on extended reals; the host's two products are the same sums. -/
import proofs.«138351_j90890097918029_1_alg».proof.Proof.EdgeMlp
import proofs.«138351_j90890097918029_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Layers

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The value, entry by entry -/

/-- Entry (r, q) of the two-layer value of the arrays `x` [800000, 272], `w1` [272, 256], `b1` [1, 256], `w2` [256, 16],
    `b2` [1, 16]:  Σ_k max (Σ_j x (r, j) · w1 (j, k) + b1 (0, k)) 0 · w2 (k, q)  +  b2 (0, q).
    It depends on row r of `x`, column q of `w2` and `b2`, and all of `w1` and `b1`. -/
def edgeMlpAt (x : S800000x272.Idx → EReal) (w1 : S272x256.Idx → EReal) (b1 : S1x256.Idx → EReal) (w2 : S256x16.Idx → EReal) (b2 : S1x16.Idx → EReal) (r : Fin 800000) (q : Fin 16) : EReal :=
  (∑ k : Fin 256, max ((∑ j : Fin 272, x (ix2 r j) * w1 (ix2 j k)) + b1 (ix2 (0 : Fin 1) k)) 0 * w2 (ix2 k q))
    + b2 (ix2 (0 : Fin 1) q)

/-- The whole [800000, 16] array of those entries. -/
def edgeMlp (x : S800000x272.Idx → EReal) (w1 : S272x256.Idx → EReal) (b1 : S1x256.Idx → EReal) (w2 : S256x16.Idx → EReal) (b2 : S1x16.Idx → EReal) : S800000x16.Idx → EReal :=
  fun i => edgeMlpAt x w1 b1 w2 b2 ⟨(i 0).val, idx2_lt0 i⟩ ⟨(i 1).val, idx2_lt1 i⟩

/-- The array at an index whose coordinates are r and q. -/
theorem edgeMlp_apply (x : S800000x272.Idx → EReal) (w1 : S272x256.Idx → EReal) (b1 : S1x256.Idx → EReal) (w2 : S256x16.Idx → EReal) (b2 : S1x16.Idx → EReal) (i : S800000x16.Idx) (r : Fin 800000) (q : Fin 16)
    (h0 : (i 0).val = r.val) (h1 : (i 1).val = q.val) : edgeMlp x w1 b1 w2 b2 i = edgeMlpAt x w1 b1 w2 b2 r q := by
  obtain rfl : i = ix2 r q := funext fun a => Fin.ext (by
    match a with
    | ⟨0, _⟩ => exact h0
    | ⟨1, _⟩ => exact h1)
  rfl

/-! ## The body's value on a block, entry by entry -/

/-- The first product of a block: on the left operand the row is the result's row, the column the contraction position; -/
theorem edge_dot1_lrow (i : S4000x256.Idx) (κ : dot_S4000x272_S272x256_S4000x256_1_0_0_1_n_n.contr.Idx) :
    (dot_S4000x272_S272x256_S4000x256_1_0_0_1_n_n.lhsIdx i κ 0).val = (i 0).val := by
  unfold DotDims.lhsIdx
  rw [dif_neg (show ¬(0 : Fin S4000x272.rank) ∈ dot_S4000x272_S272x256_S4000x256_1_0_0_1_n_n.lhsBatch by decide), dif_pos (show (0 : Fin S4000x272.rank) ∈ dot_S4000x272_S272x256_S4000x256_1_0_0_1_n_n.lhsNonContracting by decide)]
  rfl
theorem edge_dot1_lcol (i : S4000x256.Idx) (κ : dot_S4000x272_S272x256_S4000x256_1_0_0_1_n_n.contr.Idx) :
    (dot_S4000x272_S272x256_S4000x256_1_0_0_1_n_n.lhsIdx i κ 1).val = (κ ⟨0, by decide⟩).val :=
  dot_S4000x272_S272x256_S4000x256_1_0_0_1_n_n.lhsIdx_val_of_single rfl i κ
/-- on the right operand the row is the contraction position, the column the result's column. -/
theorem edge_dot1_rrow (i : S4000x256.Idx) (κ : dot_S4000x272_S272x256_S4000x256_1_0_0_1_n_n.contr.Idx) :
    (dot_S4000x272_S272x256_S4000x256_1_0_0_1_n_n.rhsIdx i κ 0).val = (κ ⟨0, by decide⟩).val :=
  dot_S4000x272_S272x256_S4000x256_1_0_0_1_n_n.rhsIdx_val_of_single rfl i κ
theorem edge_dot1_rcol (i : S4000x256.Idx) (κ : dot_S4000x272_S272x256_S4000x256_1_0_0_1_n_n.contr.Idx) :
    (dot_S4000x272_S272x256_S4000x256_1_0_0_1_n_n.rhsIdx i κ 1).val = (i 1).val := by
  unfold DotDims.rhsIdx
  rw [dif_neg (show ¬(1 : Fin S272x256.rank) ∈ dot_S4000x272_S272x256_S4000x256_1_0_0_1_n_n.rhsBatch by decide), dif_pos (show (1 : Fin S272x256.rank) ∈ dot_S4000x272_S272x256_S4000x256_1_0_0_1_n_n.rhsNonContracting by decide)]
  rfl

/-- So its sum over the contraction index is the sum over `k : Fin 272` of `l (p, k) · r (k, q)`. -/
theorem edge_dot1_sum (l : S4000x272.Idx → EReal) (r : S272x256.Idx → EReal) (p : Fin 4000) (q : Fin 256) :
    ∑ κ : dot_S4000x272_S272x256_S4000x256_1_0_0_1_n_n.contr.Idx, l (dot_S4000x272_S272x256_S4000x256_1_0_0_1_n_n.lhsIdx (ix2 p q) κ) * r (dot_S4000x272_S272x256_S4000x256_1_0_0_1_n_n.rhsIdx (ix2 p q) κ)
      = ∑ k : Fin 272, l (ix2 p k) * r (ix2 k q) := by
  rw [← Equiv.sum_comp (contrEquiv1 dot_S4000x272_S272x256_S4000x256_1_0_0_1_n_n 272 rfl rfl).symm]
  refine Finset.sum_congr rfl fun k _ => ?_
  have hk := contrEquiv1_symm_val dot_S4000x272_S272x256_S4000x256_1_0_0_1_n_n 272 rfl rfl k
  have el : dot_S4000x272_S272x256_S4000x256_1_0_0_1_n_n.lhsIdx (ix2 p q) ((contrEquiv1 dot_S4000x272_S272x256_S4000x256_1_0_0_1_n_n 272 rfl rfl).symm k) = ix2 p k := funext fun a => Fin.ext (by
    match a with
    | ⟨0, _⟩ => exact edge_dot1_lrow _ _
    | ⟨1, _⟩ => exact (edge_dot1_lcol _ _).trans hk)
  have er : dot_S4000x272_S272x256_S4000x256_1_0_0_1_n_n.rhsIdx (ix2 p q) ((contrEquiv1 dot_S4000x272_S272x256_S4000x256_1_0_0_1_n_n 272 rfl rfl).symm k) = ix2 k q := funext fun a => Fin.ext (by
    match a with
    | ⟨0, _⟩ => exact (edge_dot1_rrow _ _).trans hk
    | ⟨1, _⟩ => exact edge_dot1_rcol _ _)
  rw [el, er]

/-- The second product of a block: on the left operand the row is the result's row, the column the contraction position; -/
theorem edge_dot2_lrow (i : S4000x16.Idx) (κ : dot_S4000x256_S256x16_S4000x16_1_0_0_1_n_n.contr.Idx) :
    (dot_S4000x256_S256x16_S4000x16_1_0_0_1_n_n.lhsIdx i κ 0).val = (i 0).val := by
  unfold DotDims.lhsIdx
  rw [dif_neg (show ¬(0 : Fin S4000x256.rank) ∈ dot_S4000x256_S256x16_S4000x16_1_0_0_1_n_n.lhsBatch by decide), dif_pos (show (0 : Fin S4000x256.rank) ∈ dot_S4000x256_S256x16_S4000x16_1_0_0_1_n_n.lhsNonContracting by decide)]
  rfl
theorem edge_dot2_lcol (i : S4000x16.Idx) (κ : dot_S4000x256_S256x16_S4000x16_1_0_0_1_n_n.contr.Idx) :
    (dot_S4000x256_S256x16_S4000x16_1_0_0_1_n_n.lhsIdx i κ 1).val = (κ ⟨0, by decide⟩).val :=
  dot_S4000x256_S256x16_S4000x16_1_0_0_1_n_n.lhsIdx_val_of_single rfl i κ
/-- on the right operand the row is the contraction position, the column the result's column. -/
theorem edge_dot2_rrow (i : S4000x16.Idx) (κ : dot_S4000x256_S256x16_S4000x16_1_0_0_1_n_n.contr.Idx) :
    (dot_S4000x256_S256x16_S4000x16_1_0_0_1_n_n.rhsIdx i κ 0).val = (κ ⟨0, by decide⟩).val :=
  dot_S4000x256_S256x16_S4000x16_1_0_0_1_n_n.rhsIdx_val_of_single rfl i κ
theorem edge_dot2_rcol (i : S4000x16.Idx) (κ : dot_S4000x256_S256x16_S4000x16_1_0_0_1_n_n.contr.Idx) :
    (dot_S4000x256_S256x16_S4000x16_1_0_0_1_n_n.rhsIdx i κ 1).val = (i 1).val := by
  unfold DotDims.rhsIdx
  rw [dif_neg (show ¬(1 : Fin S256x16.rank) ∈ dot_S4000x256_S256x16_S4000x16_1_0_0_1_n_n.rhsBatch by decide), dif_pos (show (1 : Fin S256x16.rank) ∈ dot_S4000x256_S256x16_S4000x16_1_0_0_1_n_n.rhsNonContracting by decide)]
  rfl

/-- So its sum over the contraction index is the sum over `k : Fin 256` of `l (p, k) · r (k, q)`. -/
theorem edge_dot2_sum (l : S4000x256.Idx → EReal) (r : S256x16.Idx → EReal) (p : Fin 4000) (q : Fin 16) :
    ∑ κ : dot_S4000x256_S256x16_S4000x16_1_0_0_1_n_n.contr.Idx, l (dot_S4000x256_S256x16_S4000x16_1_0_0_1_n_n.lhsIdx (ix2 p q) κ) * r (dot_S4000x256_S256x16_S4000x16_1_0_0_1_n_n.rhsIdx (ix2 p q) κ)
      = ∑ k : Fin 256, l (ix2 p k) * r (ix2 k q) := by
  rw [← Equiv.sum_comp (contrEquiv1 dot_S4000x256_S256x16_S4000x16_1_0_0_1_n_n 256 rfl rfl).symm]
  refine Finset.sum_congr rfl fun k _ => ?_
  have hk := contrEquiv1_symm_val dot_S4000x256_S256x16_S4000x16_1_0_0_1_n_n 256 rfl rfl k
  have el : dot_S4000x256_S256x16_S4000x16_1_0_0_1_n_n.lhsIdx (ix2 p q) ((contrEquiv1 dot_S4000x256_S256x16_S4000x16_1_0_0_1_n_n 256 rfl rfl).symm k) = ix2 p k := funext fun a => Fin.ext (by
    match a with
    | ⟨0, _⟩ => exact edge_dot2_lrow _ _
    | ⟨1, _⟩ => exact (edge_dot2_lcol _ _).trans hk)
  have er : dot_S4000x256_S256x16_S4000x16_1_0_0_1_n_n.rhsIdx (ix2 p q) ((contrEquiv1 dot_S4000x256_S256x16_S4000x16_1_0_0_1_n_n 256 rfl rfl).symm k) = ix2 k q := funext fun a => Fin.ext (by
    match a with
    | ⟨0, _⟩ => exact (edge_dot2_rrow _ _).trans hk
    | ⟨1, _⟩ => exact edge_dot2_rcol _ _)
  rw [el, er]

/-- Entry (p, q) of what the body stores, from the five blocks it loads: the two-layer value of row p of the input
    block (the roundings to bf16 are the identity on extended reals; each product accumulates onto a zero array). -/
theorem edge_pay_apply (x0 : Vec Ideal S4000x272 .f32) (x1 : Vec Ideal S272x256 .f32) (x2 : Vec Ideal S1x256 .f32)
    (x3 : Vec Ideal S256x16 .f32) (x4 : Vec Ideal S1x16 .f32) (p : Fin 4000) (q : Fin 16) :
    k5_pay1 x0 x1 x2 x3 x4 (ix2 p q)
      = (∑ k : Fin 256, max ((∑ j : Fin 272, x0 (ix2 p j) * x1 (ix2 j k)) + x2 (ix2 (0 : Fin 1) k)) 0 * x3 (ix2 k q))
        + x4 (ix2 (0 : Fin 1) q) := by
  unfold k5_pay1
  rw [addf_apply]
  refine congrArg₂ (fun a b : EReal => a + b) ?_ ((broadcastTo_1b_ab_apply _ _ p q).trans (by rw [shapeCast_self]))
  refine (Ideal.matmul_constant_zero_apply _ none _ _ (ix2 p q)).trans ?_
  refine (edge_dot2_sum _ _ p q).trans ?_
  refine Finset.sum_congr rfl fun k _ => ?_
  refine congrArg₂ (fun a b : EReal => a * b) ?_ rfl
  rw [truncf_apply, maximumf_apply]
  refine congrArg₂ max ?_ Ideal.ofBits_zero_f32
  rw [addf_apply]
  refine congrArg₂ (fun a b : EReal => a + b) ?_ ((broadcastTo_1b_ab_apply _ _ p k).trans (by rw [shapeCast_self]))
  refine (Ideal.matmul_constant_zero_apply _ none _ _ (ix2 p k)).trans ?_
  refine (edge_dot1_sum _ _ p k).trans ?_
  rw [shapeCast_self]
  rfl

/-- So when the input block is rows `s … s + 3999` of `x`, entry (p, q) of what the body stores is entry (s + p, q) of
    the array's two-layer value. -/
theorem edge_block_apply (x : S800000x272.Idx → EReal) (w1 : S272x256.Idx → EReal) (b1 : S1x256.Idx → EReal) (w2 : S256x16.Idx → EReal) (b2 : S1x16.Idx → EReal)
    (x0 : Vec Ideal S4000x272 .f32) (s : Nat) (hs : s + 4000 ≤ 800000)
    (h0 : ∀ (p : Fin 4000) (j : Fin 272), x0 (ix2 p j) = x (ix2 (⟨s + p.val, by have := p.isLt; omega⟩ : Fin 800000) j))
    (p : Fin 4000) (q : Fin 16) :
    k5_pay1 x0 w1 b1 w2 b2 (ix2 p q) = edgeMlpAt x w1 b1 w2 b2 ⟨s + p.val, by have := p.isLt; omega⟩ q := by
  rw [edge_pay_apply]
  unfold edgeMlpAt
  simp only [h0]

/-! ## From blocks to the array -/

theorem edge_off_zero : (![0, 0] : Fin 2 → Nat) = fun _ => 0 := funext fun a => by fin_cases a <;> rfl

/-- The index maps, decided over the 200 grid points: block `t` of the input and of the output is row block `t`
    (rows 4000·t … 4000·t + 3999), every other window's one block is at (0, 0). -/
theorem edge_idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

/-- A row of block `t` is a row of the array. -/
theorem edge_row_lt (t : Fin cfg5.N) : 4000 * t.val + 4000 ≤ 800000 := by
  have h := t.isLt
  have hN : cfg5.N = 200 := N_5
  omega

/-- Window 1 is one block, the whole of its array, at every point. -/
theorem edge_iblk_1 (c : Dev nD) (t : Fin cfg5.N) : (iblk5 V c 1 t : S272x256.Idx → EReal) = V c main_arg11 := by
  obtain ⟨e00, e01, e10, e11, e20, e21, e30, e31, e40, e41, e50, e51⟩ := edge_idx_facts t
  funext y
  show V c main_arg11 (((cfg5.win 1).blk t).view.emb y) = V c main_arg11 y
  refine congrArg (V c main_arg11) (funext fun a => Fin.ext ?_)
  match a with
  | ⟨0, _⟩ => show win5_1.index t (0 : Fin 2) * 272 + 1 * (y 0).val = (y 0).val; omega
  | ⟨1, _⟩ => show win5_1.index t (1 : Fin 2) * 256 + 1 * (y 1).val = (y 1).val; omega

/-- Window 2 is one block, the whole of its array, at every point. -/
theorem edge_iblk_2 (c : Dev nD) (t : Fin cfg5.N) : (iblk5 V c 2 t : S1x256.Idx → EReal) = V c main_v82 := by
  obtain ⟨e00, e01, e10, e11, e20, e21, e30, e31, e40, e41, e50, e51⟩ := edge_idx_facts t
  funext y
  show V c main_v82 (((cfg5.win 2).blk t).view.emb y) = V c main_v82 y
  refine congrArg (V c main_v82) (funext fun a => Fin.ext ?_)
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- Window 3 is one block, the whole of its array, at every point. -/
theorem edge_iblk_3 (c : Dev nD) (t : Fin cfg5.N) : (iblk5 V c 3 t : S256x16.Idx → EReal) = V c main_arg13 := by
  obtain ⟨e00, e01, e10, e11, e20, e21, e30, e31, e40, e41, e50, e51⟩ := edge_idx_facts t
  funext y
  show V c main_arg13 (((cfg5.win 3).blk t).view.emb y) = V c main_arg13 y
  refine congrArg (V c main_arg13) (funext fun a => Fin.ext ?_)
  match a with
  | ⟨0, _⟩ => show win5_3.index t (0 : Fin 2) * 256 + 1 * (y 0).val = (y 0).val; omega
  | ⟨1, _⟩ => show win5_3.index t (1 : Fin 2) * 16 + 1 * (y 1).val = (y 1).val; omega

/-- Window 4 is one block, the whole of its array, at every point. -/
theorem edge_iblk_4 (c : Dev nD) (t : Fin cfg5.N) : (iblk5 V c 4 t : S1x16.Idx → EReal) = V c main_v83 := by
  obtain ⟨e00, e01, e10, e11, e20, e21, e30, e31, e40, e41, e50, e51⟩ := edge_idx_facts t
  funext y
  show V c main_v83 (((cfg5.win 4).blk t).view.emb y) = V c main_v83 y
  refine congrArg (V c main_v83) (funext fun a => Fin.ext ?_)
  match a with
  | ⟨0, _⟩ => show win5_4.index t (0 : Fin 2) * 1 + 1 * (y 0).val = (y 0).val; omega
  | ⟨1, _⟩ => show win5_4.index t (1 : Fin 2) * 16 + 1 * (y 1).val = (y 1).val; omega

/-- Entry (p, j) of the input's block at point `t` is entry (4000·t + p, j) of the input array. -/
theorem edge_iblk_0 (c : Dev nD) (t : Fin cfg5.N) (p : Fin 4000) (j : Fin 272) :
    (iblk5 V c 0 t : S4000x272.Idx → EReal) (ix2 p j)
      = V c main_v81 (ix2 (⟨4000 * t.val + p.val, by have := edge_row_lt t; have := p.isLt; omega⟩ : Fin 800000) j) := by
  obtain ⟨e00, e01, e10, e11, e20, e21, e30, e31, e40, e41, e50, e51⟩ := edge_idx_facts t
  show V c main_v81 (((cfg5.win 0).blk t).view.emb (ix2 p j)) = V c main_v81 _
  refine congrArg (V c main_v81) (funext fun a => Fin.ext ?_)
  match a with
  | ⟨0, _⟩ => show win5_0.index t (0 : Fin 2) * 4000 + 1 * p.val = 4000 * t.val + p.val; omega
  | ⟨1, _⟩ => show win5_0.index t (1 : Fin 2) * 272 + 1 * j.val = j.val; omega

/-- What point `t` writes back is block `t` of the two-layer value of the five arrays as the region finds them. -/
theorem edge_flushed_eq (c : Dev nD) (t : Fin cfg5.N) :
    (dat5 (F := Ideal) V c).flushed 5 t
      = ((cfg5.win 5).blk t).view.read (Elt Ideal) (edgeMlp (V c main_v81) (V c main_arg11) (V c main_v82) (V c main_arg13) (V c main_v83)) := by
  show (cfg5.win 5).cut (grid5.coords t) ((dat5 V c).after 5 t) = _
  rw [after5_5]
  unfold out5_5
  rw [View.canon_unit_zero edge_off_zero]
  simp only [View.ld_unit_zero (S := S4000x272) edge_off_zero, View.ld_unit_zero (S := S272x256) edge_off_zero, View.ld_unit_zero (S := S1x256) edge_off_zero, View.ld_unit_zero (S := S256x16) edge_off_zero, View.ld_unit_zero (S := S1x16) edge_off_zero]
  rw [edge_iblk_1 V c t, edge_iblk_2 V c t, edge_iblk_3 V c t, edge_iblk_4 V c t]
  obtain ⟨e00, e01, e10, e11, e20, e21, e30, e31, e40, e41, e50, e51⟩ := edge_idx_facts t
  funext y
  obtain ⟨p, q, rfl⟩ : ∃ (p : Fin 4000) (q : Fin 16), y = ix2 p q := ⟨y 0, y 1, eq_ix2 y⟩
  refine (edge_block_apply (V c main_v81) (V c main_arg11) (V c main_v82) (V c main_arg13) (V c main_v83) (iblk5 V c 0 t) (4000 * t.val) (edge_row_lt t)
    (fun p' j => edge_iblk_0 V c t p' j) p q).trans ?_
  refine (edgeMlp_apply (V c main_v81) (V c main_arg11) (V c main_v82) (V c main_arg13) (V c main_v83) (((cfg5.win 5).blk t).view.emb (ix2 p q)) _ q ?_ ?_).symm
  · show win5_5.index t (0 : Fin 2) * 4000 + 1 * p.val = 4000 * t.val + p.val; omega
  · show win5_5.index t (1 : Fin 2) * 16 + 1 * q.val = q.val; omega

/-- An index of the output array is in point `t`'s block iff each coordinate is in the block's range on its axis. -/
theorem edge_mem_blk (t : Fin cfg5.N) (i : S800000x16.Idx) :
    i ∈ ((cfg5.win 5).blk t).view.set ↔ ∀ a : Fin 2, win5_5.index t a * S4000x16.size a ≤ (i a).val ∧ (i a).val < win5_5.index t a * S4000x16.size a + S4000x16.size a := by
  show i ∈ ((View.whole main_v84).slice (win5_5.rect t)).set ↔ _
  rw [View.set_slice_whole, Rect.mem_set_unit]
  exact Iff.rfl

/-- The 200 row blocks cover the output array: row r is in the block of point r / 4000, which writes back. -/
theorem edge_cover (i : S800000x16.Idx) :
    ∃ t : Fin cfg5.N, (cfg5.win 5).flush t = true ∧ i ∈ ((cfg5.win 5).blk t).view.set := by
  have hN : cfg5.N = 200 := N_5
  have hi0 : (i 0).val < 800000 := (i 0).isLt
  have hi1 : (i 1).val < 16 := (i 1).isLt
  obtain ⟨t, ht⟩ : ∃ t : Fin cfg5.N, t.val = (i 0).val / 4000 := ⟨⟨(i 0).val / 4000, by rw [hN]; omega⟩, rfl⟩
  obtain ⟨e00, e01, e10, e11, e20, e21, e30, e31, e40, e41, e50, e51⟩ := edge_idx_facts t
  refine ⟨t, flush5_5 t, ?_⟩
  rw [edge_mem_blk]
  intro a
  match a with
  | ⟨0, _⟩ => show win5_5.index t (0 : Fin 2) * 4000 ≤ (i 0).val ∧ (i 0).val < win5_5.index t (0 : Fin 2) * 4000 + 4000; omega
  | ⟨1, _⟩ => show win5_5.index t (1 : Fin 2) * 16 ≤ (i 1).val ∧ (i 1).val < win5_5.index t (1 : Fin 2) * 16 + 16; omega

/-- So after all 200 points the output array holds the two-layer value of the five input arrays. -/
theorem edge_arr_eq_mlp (c : Dev nD) :
    (dat5 (F := Ideal) V c).arrAt 5 cfg5.N = edgeMlp (V c main_v81) (V c main_arg11) (V c main_v82) (V c main_arg13) (V c main_v83) :=
  (dat5 (F := Ideal) V c).arrAt_eq_of_cover 5 _ (fun t _ => edge_flushed_eq V c t) edge_cover

/-! ## The same value in the host's operations -/

/-- The host's first product: on the left operand the row is the result's row, the column the contraction position; -/
theorem edge_hdot1_lrow (i : Cert.ReferenceIdeal.S800000x256.Idx) (κ : Cert.ReferenceIdeal.dot_S800000x272_S272x256_S800000x256_1_0_0_1_n_n.contr.Idx) :
    (Cert.ReferenceIdeal.dot_S800000x272_S272x256_S800000x256_1_0_0_1_n_n.lhsIdx i κ 0).val = (i 0).val := by
  unfold DotDims.lhsIdx
  rw [dif_neg (show ¬(0 : Fin Cert.ReferenceIdeal.S800000x272.rank) ∈ Cert.ReferenceIdeal.dot_S800000x272_S272x256_S800000x256_1_0_0_1_n_n.lhsBatch by decide), dif_pos (show (0 : Fin Cert.ReferenceIdeal.S800000x272.rank) ∈ Cert.ReferenceIdeal.dot_S800000x272_S272x256_S800000x256_1_0_0_1_n_n.lhsNonContracting by decide)]
  rfl
theorem edge_hdot1_lcol (i : Cert.ReferenceIdeal.S800000x256.Idx) (κ : Cert.ReferenceIdeal.dot_S800000x272_S272x256_S800000x256_1_0_0_1_n_n.contr.Idx) :
    (Cert.ReferenceIdeal.dot_S800000x272_S272x256_S800000x256_1_0_0_1_n_n.lhsIdx i κ 1).val = (κ ⟨0, by decide⟩).val :=
  Cert.ReferenceIdeal.dot_S800000x272_S272x256_S800000x256_1_0_0_1_n_n.lhsIdx_val_of_single rfl i κ
/-- on the right operand the row is the contraction position, the column the result's column. -/
theorem edge_hdot1_rrow (i : Cert.ReferenceIdeal.S800000x256.Idx) (κ : Cert.ReferenceIdeal.dot_S800000x272_S272x256_S800000x256_1_0_0_1_n_n.contr.Idx) :
    (Cert.ReferenceIdeal.dot_S800000x272_S272x256_S800000x256_1_0_0_1_n_n.rhsIdx i κ 0).val = (κ ⟨0, by decide⟩).val :=
  Cert.ReferenceIdeal.dot_S800000x272_S272x256_S800000x256_1_0_0_1_n_n.rhsIdx_val_of_single rfl i κ
theorem edge_hdot1_rcol (i : Cert.ReferenceIdeal.S800000x256.Idx) (κ : Cert.ReferenceIdeal.dot_S800000x272_S272x256_S800000x256_1_0_0_1_n_n.contr.Idx) :
    (Cert.ReferenceIdeal.dot_S800000x272_S272x256_S800000x256_1_0_0_1_n_n.rhsIdx i κ 1).val = (i 1).val := by
  unfold DotDims.rhsIdx
  rw [dif_neg (show ¬(1 : Fin Cert.ReferenceIdeal.S272x256.rank) ∈ Cert.ReferenceIdeal.dot_S800000x272_S272x256_S800000x256_1_0_0_1_n_n.rhsBatch by decide), dif_pos (show (1 : Fin Cert.ReferenceIdeal.S272x256.rank) ∈ Cert.ReferenceIdeal.dot_S800000x272_S272x256_S800000x256_1_0_0_1_n_n.rhsNonContracting by decide)]
  rfl

/-- So its sum over the contraction index is the sum over `k : Fin 272` of `l (p, k) · r (k, q)`. -/
theorem edge_hdot1_sum (l : Cert.ReferenceIdeal.S800000x272.Idx → EReal) (r : Cert.ReferenceIdeal.S272x256.Idx → EReal) (p : Fin 800000) (q : Fin 256) :
    ∑ κ : Cert.ReferenceIdeal.dot_S800000x272_S272x256_S800000x256_1_0_0_1_n_n.contr.Idx, l (Cert.ReferenceIdeal.dot_S800000x272_S272x256_S800000x256_1_0_0_1_n_n.lhsIdx (ix2 p q) κ) * r (Cert.ReferenceIdeal.dot_S800000x272_S272x256_S800000x256_1_0_0_1_n_n.rhsIdx (ix2 p q) κ)
      = ∑ k : Fin 272, l (ix2 p k) * r (ix2 k q) := by
  rw [← Equiv.sum_comp (contrEquiv1 Cert.ReferenceIdeal.dot_S800000x272_S272x256_S800000x256_1_0_0_1_n_n 272 rfl rfl).symm]
  refine Finset.sum_congr rfl fun k _ => ?_
  have hk := contrEquiv1_symm_val Cert.ReferenceIdeal.dot_S800000x272_S272x256_S800000x256_1_0_0_1_n_n 272 rfl rfl k
  have el : Cert.ReferenceIdeal.dot_S800000x272_S272x256_S800000x256_1_0_0_1_n_n.lhsIdx (ix2 p q) ((contrEquiv1 Cert.ReferenceIdeal.dot_S800000x272_S272x256_S800000x256_1_0_0_1_n_n 272 rfl rfl).symm k) = ix2 p k := funext fun a => Fin.ext (by
    match a with
    | ⟨0, _⟩ => exact edge_hdot1_lrow _ _
    | ⟨1, _⟩ => exact (edge_hdot1_lcol _ _).trans hk)
  have er : Cert.ReferenceIdeal.dot_S800000x272_S272x256_S800000x256_1_0_0_1_n_n.rhsIdx (ix2 p q) ((contrEquiv1 Cert.ReferenceIdeal.dot_S800000x272_S272x256_S800000x256_1_0_0_1_n_n 272 rfl rfl).symm k) = ix2 k q := funext fun a => Fin.ext (by
    match a with
    | ⟨0, _⟩ => exact (edge_hdot1_rrow _ _).trans hk
    | ⟨1, _⟩ => exact edge_hdot1_rcol _ _)
  rw [el, er]

/-- The host's second product: on the left operand the row is the result's row, the column the contraction position; -/
theorem edge_hdot2_lrow (i : Cert.ReferenceIdeal.S800000x16.Idx) (κ : Cert.ReferenceIdeal.dot_S800000x256_S256x16_S800000x16_1_0_0_1_n_n.contr.Idx) :
    (Cert.ReferenceIdeal.dot_S800000x256_S256x16_S800000x16_1_0_0_1_n_n.lhsIdx i κ 0).val = (i 0).val := by
  unfold DotDims.lhsIdx
  rw [dif_neg (show ¬(0 : Fin Cert.ReferenceIdeal.S800000x256.rank) ∈ Cert.ReferenceIdeal.dot_S800000x256_S256x16_S800000x16_1_0_0_1_n_n.lhsBatch by decide), dif_pos (show (0 : Fin Cert.ReferenceIdeal.S800000x256.rank) ∈ Cert.ReferenceIdeal.dot_S800000x256_S256x16_S800000x16_1_0_0_1_n_n.lhsNonContracting by decide)]
  rfl
theorem edge_hdot2_lcol (i : Cert.ReferenceIdeal.S800000x16.Idx) (κ : Cert.ReferenceIdeal.dot_S800000x256_S256x16_S800000x16_1_0_0_1_n_n.contr.Idx) :
    (Cert.ReferenceIdeal.dot_S800000x256_S256x16_S800000x16_1_0_0_1_n_n.lhsIdx i κ 1).val = (κ ⟨0, by decide⟩).val :=
  Cert.ReferenceIdeal.dot_S800000x256_S256x16_S800000x16_1_0_0_1_n_n.lhsIdx_val_of_single rfl i κ
/-- on the right operand the row is the contraction position, the column the result's column. -/
theorem edge_hdot2_rrow (i : Cert.ReferenceIdeal.S800000x16.Idx) (κ : Cert.ReferenceIdeal.dot_S800000x256_S256x16_S800000x16_1_0_0_1_n_n.contr.Idx) :
    (Cert.ReferenceIdeal.dot_S800000x256_S256x16_S800000x16_1_0_0_1_n_n.rhsIdx i κ 0).val = (κ ⟨0, by decide⟩).val :=
  Cert.ReferenceIdeal.dot_S800000x256_S256x16_S800000x16_1_0_0_1_n_n.rhsIdx_val_of_single rfl i κ
theorem edge_hdot2_rcol (i : Cert.ReferenceIdeal.S800000x16.Idx) (κ : Cert.ReferenceIdeal.dot_S800000x256_S256x16_S800000x16_1_0_0_1_n_n.contr.Idx) :
    (Cert.ReferenceIdeal.dot_S800000x256_S256x16_S800000x16_1_0_0_1_n_n.rhsIdx i κ 1).val = (i 1).val := by
  unfold DotDims.rhsIdx
  rw [dif_neg (show ¬(1 : Fin Cert.ReferenceIdeal.S256x16.rank) ∈ Cert.ReferenceIdeal.dot_S800000x256_S256x16_S800000x16_1_0_0_1_n_n.rhsBatch by decide), dif_pos (show (1 : Fin Cert.ReferenceIdeal.S256x16.rank) ∈ Cert.ReferenceIdeal.dot_S800000x256_S256x16_S800000x16_1_0_0_1_n_n.rhsNonContracting by decide)]
  rfl

/-- So its sum over the contraction index is the sum over `k : Fin 256` of `l (p, k) · r (k, q)`. -/
theorem edge_hdot2_sum (l : Cert.ReferenceIdeal.S800000x256.Idx → EReal) (r : Cert.ReferenceIdeal.S256x16.Idx → EReal) (p : Fin 800000) (q : Fin 16) :
    ∑ κ : Cert.ReferenceIdeal.dot_S800000x256_S256x16_S800000x16_1_0_0_1_n_n.contr.Idx, l (Cert.ReferenceIdeal.dot_S800000x256_S256x16_S800000x16_1_0_0_1_n_n.lhsIdx (ix2 p q) κ) * r (Cert.ReferenceIdeal.dot_S800000x256_S256x16_S800000x16_1_0_0_1_n_n.rhsIdx (ix2 p q) κ)
      = ∑ k : Fin 256, l (ix2 p k) * r (ix2 k q) := by
  rw [← Equiv.sum_comp (contrEquiv1 Cert.ReferenceIdeal.dot_S800000x256_S256x16_S800000x16_1_0_0_1_n_n 256 rfl rfl).symm]
  refine Finset.sum_congr rfl fun k _ => ?_
  have hk := contrEquiv1_symm_val Cert.ReferenceIdeal.dot_S800000x256_S256x16_S800000x16_1_0_0_1_n_n 256 rfl rfl k
  have el : Cert.ReferenceIdeal.dot_S800000x256_S256x16_S800000x16_1_0_0_1_n_n.lhsIdx (ix2 p q) ((contrEquiv1 Cert.ReferenceIdeal.dot_S800000x256_S256x16_S800000x16_1_0_0_1_n_n 256 rfl rfl).symm k) = ix2 p k := funext fun a => Fin.ext (by
    match a with
    | ⟨0, _⟩ => exact edge_hdot2_lrow _ _
    | ⟨1, _⟩ => exact (edge_hdot2_lcol _ _).trans hk)
  have er : Cert.ReferenceIdeal.dot_S800000x256_S256x16_S800000x16_1_0_0_1_n_n.rhsIdx (ix2 p q) ((contrEquiv1 Cert.ReferenceIdeal.dot_S800000x256_S256x16_S800000x16_1_0_0_1_n_n 256 rfl rfl).symm k) = ix2 k q := funext fun a => Fin.ext (by
    match a with
    | ⟨0, _⟩ => exact (edge_hdot2_rrow _ _).trans hk
    | ⟨1, _⟩ => exact edge_hdot2_rcol _ _)
  rw [el, er]

/-- A bias row broadcast over the rows reads, at (r, k), the row's entry k. -/
theorem edge_hbias1_apply (b : FVec Ideal Cert.ReferenceIdeal.S1x256 .f32) (r : Fin 800000) (k : Fin 256) :
    broadcastInDim Cert.ReferenceIdeal.S800000x256 ![0, 1] Cert.ReferenceIdeal.Facts₀.bcast_S1x256_S800000x256_0_1 b (ix2 r k) = b (ix2 (0 : Fin 1) k) :=
  broadcastInDim_apply _ _ b (ix2 r k) (ix2 (0 : Fin 1) k) (fun a => match a with
    | ⟨0, _⟩ => by show (0 : Nat) = if (1 : Nat) = 1 then 0 else r.val; rw [if_pos rfl]
    | ⟨1, _⟩ => by show k.val = if (256 : Nat) = 1 then 0 else k.val; rw [if_neg (by decide)])
theorem edge_hbias2_apply (b : FVec Ideal Cert.ReferenceIdeal.S1x16 .f32) (r : Fin 800000) (q : Fin 16) :
    broadcastInDim Cert.ReferenceIdeal.S800000x16 ![0, 1] Cert.ReferenceIdeal.Facts₀.bcast_S1x16_S800000x16_0_1 b (ix2 r q) = b (ix2 (0 : Fin 1) q) :=
  broadcastInDim_apply _ _ b (ix2 r q) (ix2 (0 : Fin 1) q) (fun a => match a with
    | ⟨0, _⟩ => by show (0 : Nat) = if (1 : Nat) = 1 then 0 else r.val; rw [if_pos rfl]
    | ⟨1, _⟩ => by show q.val = if (16 : Nat) = 1 then 0 else q.val; rw [if_neg (by decide)])
/-- The zero scalar broadcast to [800000, 256] reads 0 everywhere. -/
theorem edge_hzero_apply (r : Fin 800000) (k : Fin 256) :
    broadcastInDim Cert.ReferenceIdeal.S800000x256 ![] Cert.ReferenceIdeal.Facts₀.bcast_S_S800000x256 (constant (F := Ideal) Cert.ReferenceIdeal.S_ .f32 0x00000000#32) (ix2 r k) = 0 :=
  (broadcastInDim_apply _ _ _ (ix2 r k) ix0 (fun a => a.elim0)).trans Ideal.ofBits_zero_f32

/-- The host's two products, bias rows and maximum with zero, of any five arrays, are the two-layer value: at (r, q)
    both are  Σ_k max (Σ_j x (r, j) · w1 (j, k) + b1 (0, k)) 0 · w2 (k, q)  +  b2 (0, q). -/
theorem edge_host_eq_mlp (x : FVec Ideal Cert.ReferenceIdeal.S800000x272 .f32) (w1 : FVec Ideal Cert.ReferenceIdeal.S272x256 .f32) (b1 : FVec Ideal Cert.ReferenceIdeal.S1x256 .f32)
    (w2 : FVec Ideal Cert.ReferenceIdeal.S256x16 .f32) (b2 : FVec Ideal Cert.ReferenceIdeal.S1x16 .f32) :
    addf (Host.dotGeneral (F := Ideal) Cert.ReferenceIdeal.dot_S800000x256_S256x16_S800000x16_1_0_0_1_n_n none
            (maximumf (addf (Host.dotGeneral (F := Ideal) Cert.ReferenceIdeal.dot_S800000x272_S272x256_S800000x256_1_0_0_1_n_n none x w1)
                            (broadcastInDim Cert.ReferenceIdeal.S800000x256 ![0, 1] Cert.ReferenceIdeal.Facts₀.bcast_S1x256_S800000x256_0_1 b1))
                      (broadcastInDim Cert.ReferenceIdeal.S800000x256 ![] Cert.ReferenceIdeal.Facts₀.bcast_S_S800000x256 (constant (F := Ideal) Cert.ReferenceIdeal.S_ .f32 0x00000000#32)))
            w2)
         (broadcastInDim Cert.ReferenceIdeal.S800000x16 ![0, 1] Cert.ReferenceIdeal.Facts₀.bcast_S1x16_S800000x16_0_1 b2)
      = edgeMlp x w1 b1 w2 b2 := by
  funext i
  obtain ⟨r, q, rfl⟩ : ∃ (r : Fin 800000) (q : Fin 16), i = ix2 r q := ⟨i 0, i 1, eq_ix2 i⟩
  rw [addf_apply]
  show _ = edgeMlpAt x w1 b1 w2 b2 r q
  unfold edgeMlpAt
  refine congrArg₂ (fun a b : EReal => a + b) ?_ (edge_hbias2_apply b2 r q)
  refine (Ideal.dotGeneral_apply _ none _ _ _ (ix2 r q)).trans ?_
  refine (edge_hdot2_sum _ _ r q).trans ?_
  refine Finset.sum_congr rfl fun k _ => ?_
  refine congrArg₂ (fun a b : EReal => a * b) ?_ rfl
  rw [maximumf_apply]
  refine congrArg₂ max ?_ (edge_hzero_apply r k)
  rw [addf_apply]
  refine congrArg₂ (fun a b : EReal => a + b) ?_ (edge_hbias1_apply b1 r k)
  refine (Ideal.dotGeneral_apply _ none _ _ _ (ix2 r k)).trans ?_
  exact edge_hdot1_sum _ _ r k

/-! ## The output array in the host's operations -/

/-- After all 200 points the region's output array is the host's two-layer term of the five arrays the region finds:
    at (r, q),  Σ_k max (Σ_j x (r, j) · w1 (j, k) + b1 (0, k)) 0 · w2 (k, q)  +  b2 (0, q). -/
theorem arr5_eq (c : Dev nD) : (dat5 (F := Ideal) V c).arrAt 5 cfg5.N =
    addf (Host.dotGeneral (F := Ideal) (φ₁ := .f32) (φ₂ := .f32) Cert.ReferenceIdeal.dot_S800000x256_S256x16_S800000x16_1_0_0_1_n_n none
            (maximumf (addf (Host.dotGeneral (F := Ideal) (φ₁ := .f32) (φ₂ := .f32) Cert.ReferenceIdeal.dot_S800000x272_S272x256_S800000x256_1_0_0_1_n_n none (V c main_v81) (V c main_arg11))
                            (broadcastInDim Cert.ReferenceIdeal.S800000x256 ![0, 1] Cert.ReferenceIdeal.Facts₀.bcast_S1x256_S800000x256_0_1 (V c main_v82)))
                      (broadcastInDim Cert.ReferenceIdeal.S800000x256 ![] Cert.ReferenceIdeal.Facts₀.bcast_S_S800000x256 (constant (F := Ideal) Cert.ReferenceIdeal.S_ .f32 0x00000000#32)))
            (V c main_arg13))
         (broadcastInDim Cert.ReferenceIdeal.S800000x16 ![0, 1] Cert.ReferenceIdeal.Facts₀.bcast_S1x16_S800000x16_0_1 (V c main_v83)) :=
  (edge_arr_eq_mlp V c).trans (edge_host_eq_mlp (V c main_v81) (V c main_arg11) (V c main_v82) (V c main_arg13) (V c main_v83)).symm

end Cert.KernelIdeal.Layers

end
-- ==== Proof.BiasRows.lean ====
/- The bias rows. One program reshapes a bias vector [D] to a row [1, D]; the other broadcasts it along a new
   leading unit axis. Both rows hold `x q` at (0, q): the reshape keeps the row-major position, q, and the
   broadcast reads the operand at the coordinate on axis 1. Stated for D = 256, 128 and 16, for any float
   interpretation `F` (no arithmetic is involved). -/
import proofs.«138351_j90890097918029_1_alg».proof.Proof.Gen.KernelIdeal
import proofs.«138351_j90890097918029_1_alg».proof.ReferenceIdeal
import proofs.«138351_j90890097918029_1_alg».proof.Proof.Gen.ReferenceIdeal
import Idealize.ShloMosaic.Lib.Pipeline.Value
import Idealize.ShloMosaic.Lib.ValueIdx
import Idealize.ShloMosaic.Lib.ValueLayout

noncomputable section

namespace Cert.KernelIdeal.Layers

open Idealize.ShloMosaic Idealize.SL.Sem
open Idealize.ShloMosaic.ValueIdx
open Cert.KernelIdeal Cert.KernelIdeal.Gen

variable {F : FTy → Type} [FloatOps F]

/-- A bias vector of 256 entries as a 1×256 row: the reshape (same row-major order) and the broadcast along a
    new leading unit axis are the same row — both read `x q` at (0, q). -/
theorem biasRow256 (x : FVec F S256 .f32) :
    shapeCast S1x256 x shapeCasts_S256_S1x256 = broadcastInDim Cert.ReferenceIdeal.S1x256 ![1] Cert.ReferenceIdeal.Facts₀.bcast_S256_S1x256_1 x := by
  funext i
  obtain ⟨u, q, rfl⟩ : ∃ (u : Fin 1) (q : Fin 256), i = ix2 u q := ⟨i 0, i 1, eq_ix2 i⟩
  refine (shapeCast_a_1a_apply x shapeCasts_S256_S1x256 u q).trans ?_
  exact (broadcastInDim_apply _ Cert.ReferenceIdeal.Facts₀.bcast_S256_S1x256_1 x (ix2 u q) (ix1 q) (fun a => match a with
    | ⟨0, _⟩ => by show q.val = if (256 : Nat) = 1 then 0 else q.val; rw [if_neg (by decide)])).symm

/-- A bias vector of 128 entries as a 1×128 row: the reshape (same row-major order) and the broadcast along a
    new leading unit axis are the same row — both read `x q` at (0, q). -/
theorem biasRow128 (x : FVec F S128 .f32) :
    shapeCast S1x128 x shapeCasts_S128_S1x128 = broadcastInDim Cert.ReferenceIdeal.S1x128 ![1] Cert.ReferenceIdeal.Facts₀.bcast_S128_S1x128_1 x := by
  funext i
  obtain ⟨u, q, rfl⟩ : ∃ (u : Fin 1) (q : Fin 128), i = ix2 u q := ⟨i 0, i 1, eq_ix2 i⟩
  refine (shapeCast_a_1a_apply x shapeCasts_S128_S1x128 u q).trans ?_
  exact (broadcastInDim_apply _ Cert.ReferenceIdeal.Facts₀.bcast_S128_S1x128_1 x (ix2 u q) (ix1 q) (fun a => match a with
    | ⟨0, _⟩ => by show q.val = if (128 : Nat) = 1 then 0 else q.val; rw [if_neg (by decide)])).symm

/-- A bias vector of 16 entries as a 1×16 row: the reshape (same row-major order) and the broadcast along a
    new leading unit axis are the same row — both read `x q` at (0, q). -/
theorem biasRow16 (x : FVec F S16 .f32) :
    shapeCast S1x16 x shapeCasts_S16_S1x16 = broadcastInDim Cert.ReferenceIdeal.S1x16 ![1] Cert.ReferenceIdeal.Facts₀.bcast_S16_S1x16_1 x := by
  funext i
  obtain ⟨u, q, rfl⟩ : ∃ (u : Fin 1) (q : Fin 16), i = ix2 u q := ⟨i 0, i 1, eq_ix2 i⟩
  refine (shapeCast_a_1a_apply x shapeCasts_S16_S1x16 u q).trans ?_
  exact (broadcastInDim_apply _ Cert.ReferenceIdeal.Facts₀.bcast_S16_S1x16_1 x (ix2 u q) (ix1 q) (fun a => match a with
    | ⟨0, _⟩ => by show q.val = if (16 : Nat) = 1 then 0 else q.val; rw [if_neg (by decide)])).symm

end Cert.KernelIdeal.Layers

end
-- ==== Proof.LibNaryThree.lean ====
/-
  A host operation over a LITERAL family of three references — a concatenation of three operands — read at its result: the
  operation's function applied to the three operands' contents, each AT ITS OWN REFERENCE. The general statement gives the
  contents as `fun k => F ↑(![x, a, b] k)`, a function of the position, under whose binder no operand is a literal reference
  any more, so nothing further can be read off an operand there. With the family spelt out position by position the three
  operands are terms like any other. The library has this for four operands; this is the same for three.
-/
import Idealize.ShloMosaic.Lib.StableHlo.Run

noncomputable section

namespace Idealize.ShloMosaic.StableHlo

variable {nD : Nat} {τ : Topo} {sig : RefSig} {Val : EltTy → Type}
variable {x a b y : Ref sig .tc}

/-- The result of an operation over the literal family `![x, a, b]`: its function at the three operands' contents, the
    family written as `Fin.cons` of the contents at `x`, at `a` and at `b`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for `simp`: the result reference is not indexed, so that the pattern is not keyed on projections of
    a reference not yet matched. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LayersValue.lean ====
/-
  The values the program's buffers hold at the boundaries between its items, at the ideal instance, each as the
  reference program's stage of the same name of the launch arrays. The program's host operations are the reference's,
  operation for operation: the edge endpoints with one self-loop per node appended, the degree of every node as a scatter
  of ones, its inverse square root where the degree is positive, the normalisation of an edge as the product of its
  endpoints' factors; then, per layer, the gather of the projected rows at the sources, the scaling by the normalisation
  and the scatter-add at the targets. Where the reference has a product of matrices, or a bias added and the rectifier, the
  program has a kernel region whose output array is that same operation of its input arrays (the region modules); where
  the reference broadcasts a bias vector to a row, the program reshapes it to the same row. So buffer by buffer, in
  program order, each holds the reference's stage: the arguments are never written, a buffer is rewritten by one item
  only, and an item's operands are buffers already identified.
-/
import proofs.«138351_j90890097918029_1_alg».proof.Proof.LayersRun
import proofs.«138351_j90890097918029_1_alg».proof.Proof.InputProjectionValue
import proofs.«138351_j90890097918029_1_alg».proof.Proof.FirstActivationValue
import proofs.«138351_j90890097918029_1_alg».proof.Proof.HiddenProjectionValue
import proofs.«138351_j90890097918029_1_alg».proof.Proof.SecondActivationValue
import proofs.«138351_j90890097918029_1_alg».proof.Proof.NodeMlpValue
import proofs.«138351_j90890097918029_1_alg».proof.Proof.EdgeMlpValue
import proofs.«138351_j90890097918029_1_alg».proof.Proof.BiasRows
import proofs.«138351_j90890097918029_1_alg».proof.Proof.LibNaryThree
import proofs.«138351_j90890097918029_1_alg».proof.Proof.ReferenceRead
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.Tactic Idealize.ShloMosaic.StableHlo
open Idealize.SL Idealize.SL.Sem
open Cert.ReferenceIdeal.Read

variable (m : (ℓ : Loc nD τ sig) → Buf (Elt Ideal) ℓ) (ρ : Dev nD → PrngReg) (c : Dev nD)

/-! ## The launch arrays -/
abbrev a0 : Buf (Elt Ideal) ((c.tc : Thread nD τ).loc main_arg0) := m ((c.tc : Thread nD τ).loc main_arg0)
abbrev a1 : Buf (Elt Ideal) ((c.tc : Thread nD τ).loc main_arg1) := m ((c.tc : Thread nD τ).loc main_arg1)
abbrev a2 : Buf (Elt Ideal) ((c.tc : Thread nD τ).loc main_arg2) := m ((c.tc : Thread nD τ).loc main_arg2)
abbrev a3 : Buf (Elt Ideal) ((c.tc : Thread nD τ).loc main_arg3) := m ((c.tc : Thread nD τ).loc main_arg3)
abbrev a4 : Buf (Elt Ideal) ((c.tc : Thread nD τ).loc main_arg4) := m ((c.tc : Thread nD τ).loc main_arg4)
abbrev a5 : Buf (Elt Ideal) ((c.tc : Thread nD τ).loc main_arg5) := m ((c.tc : Thread nD τ).loc main_arg5)
abbrev a6 : Buf (Elt Ideal) ((c.tc : Thread nD τ).loc main_arg6) := m ((c.tc : Thread nD τ).loc main_arg6)
abbrev a7 : Buf (Elt Ideal) ((c.tc : Thread nD τ).loc main_arg7) := m ((c.tc : Thread nD τ).loc main_arg7)
abbrev a8 : Buf (Elt Ideal) ((c.tc : Thread nD τ).loc main_arg8) := m ((c.tc : Thread nD τ).loc main_arg8)
abbrev a9 : Buf (Elt Ideal) ((c.tc : Thread nD τ).loc main_arg9) := m ((c.tc : Thread nD τ).loc main_arg9)
abbrev a10 : Buf (Elt Ideal) ((c.tc : Thread nD τ).loc main_arg10) := m ((c.tc : Thread nD τ).loc main_arg10)
abbrev a11 : Buf (Elt Ideal) ((c.tc : Thread nD τ).loc main_arg11) := m ((c.tc : Thread nD τ).loc main_arg11)
abbrev a12 : Buf (Elt Ideal) ((c.tc : Thread nD τ).loc main_arg12) := m ((c.tc : Thread nD τ).loc main_arg12)
abbrev a13 : Buf (Elt Ideal) ((c.tc : Thread nD τ).loc main_arg13) := m ((c.tc : Thread nD τ).loc main_arg13)
abbrev a14 : Buf (Elt Ideal) ((c.tc : Thread nD τ).loc main_arg14) := m ((c.tc : Thread nD τ).loc main_arg14)

/-! ## Before the first projection: the edge lists and the normalisation -/

/-- The sources of the edges, after the first stretch. -/
theorem srcEdge_first : St1 m ρ c (Proc.devRef .tc main_v1) = val_main_v1 (F := Ideal) (a1 m c) := by
  show StableHlo.after hostOps0 (St0 m ρ c) (Proc.devRef .tc main_v1) = _
  after_results_simp
  rfl
/-- The targets of the edges, after the first stretch. -/
theorem dstEdge_first : St1 m ρ c (Proc.devRef .tc main_v3) = val_main_v3 (F := Ideal) (a1 m c) := by
  show StableHlo.after hostOps0 (St0 m ρ c) (Proc.devRef .tc main_v3) = _
  after_results_simp
  rfl
/-- The sources with one self-loop per node appended, after the first stretch. -/
theorem srcAll_first : St1 m ρ c (Proc.devRef .tc main_v5) = val_main_v5 (F := Ideal) (a1 m c) := by
  show StableHlo.after hostOps0 (St0 m ρ c) (Proc.devRef .tc main_v5) = _
  after_results_simp
  rfl
/-- The targets with one self-loop per node appended, after the first stretch. -/
theorem dstAll_first : St1 m ρ c (Proc.devRef .tc main_v6) = val_main_v6 (F := Ideal) (a1 m c) := by
  show StableHlo.after hostOps0 (St0 m ρ c) (Proc.devRef .tc main_v6) = _
  after_results_simp
  rfl
/-- Where a node's degree (the number of edges, self-loop included, that end at it) is positive. -/
theorem degPositive_eq : St1 m ρ c (Proc.devRef .tc main_v12) = val_main_v12 (F := Ideal) (a1 m c) := by
  show StableHlo.after hostOps0 (St0 m ρ c) (Proc.devRef .tc main_v12) = _
  after_results_simp
  rfl
/-- The inverse square root of every node's degree, the degree taken as at least one. -/
theorem invSqrtOfDeg_eq : St1 m ρ c (Proc.devRef .tc main_v15) = val_main_v15 (F := Ideal) (a1 m c) := by
  show StableHlo.after hostOps0 (St0 m ρ c) (Proc.devRef .tc main_v15) = _
  after_results_simp
  rfl
/-- The zero put where the degree is not positive. -/
theorem zeroScalar_eq : St1 m ρ c (Proc.devRef .tc main_cst_3) = val_main_cst_3 (F := Ideal) := by
  show StableHlo.after hostOps0 (St0 m ρ c) (Proc.devRef .tc main_cst_3) = _
  after_results_simp
  rfl
/-- Every node's factor: the inverse square root of its degree where that is positive, zero elsewhere. -/
theorem nodeFactor_eq : St2 m ρ c (Proc.devRef .tc main_v16) = val_main_v16 (F := Ideal) (a1 m c) := by
  have h0 : St1 m ρ c (Proc.devRef .tc main_v12) = val_main_v12 (F := Ideal) (a1 m c) := degPositive_eq m ρ c
  have h1 : St1 m ρ c (Proc.devRef .tc main_v15) = val_main_v15 (F := Ideal) (a1 m c) := invSqrtOfDeg_eq m ρ c
  have h2 : St1 m ρ c (Proc.devRef .tc main_cst_3) = val_main_cst_3 (F := Ideal) := zeroScalar_eq m ρ c
  show StableHlo.after hostOps0_1 (St1 m ρ c) (Proc.devRef .tc main_v16) = _
  -- the contents before the stretch as a variable: the stretch is read down to it and no further
  generalize St1 m ρ c = W at h0 h1 h2 ⊢
  after_results_simp
  rw [h0, h1, h2]
  -- the called function's operations carry their operands through casts between a buffer's contents and the contents of the
  -- buffer's type, which are the same type: each cast is removed by itself
  refine (cast_eq _ _).trans ?_
  unfold val_main_v16 val_main_call0_v1 val_main_call0_v0
  refine congr (congr (congrArg select (cast_eq _ _)) (cast_eq _ _)) ?_
  refine (cast_eq _ _).trans ?_
  refine (cast_eq _ _).trans ?_
  refine congrArg (broadcastInDim _ _ _) ?_
  refine (cast_eq _ _).trans ?_
  refine (cast_eq _ _).trans ?_
  exact congrArg id (cast_eq _ _)
/-- The sources of the edges. -/
theorem srcEdge_eq : St3 m ρ c (Proc.devRef .tc main_v1) = val_main_v1 (F := Ideal) (a1 m c) := (St3_keep m ρ c main_v1 (by decide)).trans <| (St2_keep m ρ c main_v1 (by decide)).trans <| srcEdge_first m ρ c
/-- The targets of the edges. -/
theorem dstEdge_eq : St3 m ρ c (Proc.devRef .tc main_v3) = val_main_v3 (F := Ideal) (a1 m c) := (St3_keep m ρ c main_v3 (by decide)).trans <| (St2_keep m ρ c main_v3 (by decide)).trans <| dstEdge_first m ρ c
/-- The sources with one self-loop per node appended. -/
theorem srcAll_eq : St3 m ρ c (Proc.devRef .tc main_v5) = val_main_v5 (F := Ideal) (a1 m c) := (St3_keep m ρ c main_v5 (by decide)).trans <| (St2_keep m ρ c main_v5 (by decide)).trans <| srcAll_first m ρ c
/-- The targets with one self-loop per node appended. -/
theorem dstAll_eq : St3 m ρ c (Proc.devRef .tc main_v6) = val_main_v6 (F := Ideal) (a1 m c) := (St3_keep m ρ c main_v6 (by decide)).trans <| (St2_keep m ρ c main_v6 (by decide)).trans <| dstAll_first m ρ c
/-- The normalisation of every edge: the product of its endpoints' factors. -/
theorem norm_eq : St3 m ρ c (Proc.devRef .tc main_v31) = val_main_v31 (F := Ideal) (a1 m c) := by
  have h0 : St2 m ρ c (Proc.devRef .tc main_v5) = val_main_v5 (F := Ideal) (a1 m c) := ((St2_keep m ρ c main_v5 (by decide)).trans <| srcAll_first m ρ c)
  have h1 : St2 m ρ c (Proc.devRef .tc main_v6) = val_main_v6 (F := Ideal) (a1 m c) := ((St2_keep m ρ c main_v6 (by decide)).trans <| dstAll_first m ρ c)
  have h2 : St2 m ρ c (Proc.devRef .tc main_v16) = val_main_v16 (F := Ideal) (a1 m c) := nodeFactor_eq m ρ c
  show StableHlo.after hostOps0_2 (St2 m ρ c) (Proc.devRef .tc main_v31) = _
  -- the contents before the stretch as a variable: the stretch is read down to it and no further
  generalize St2 m ρ c = W at h0 h1 h2 ⊢
  after_results_simp
  rw [h0, h1, h2]
  rfl

/-! ## The first layer -/

/-- The first projection: the node features times the first weight matrix. -/
theorem proj1_eq : St4 m ρ c (Proc.devRef .tc main_v32) = val_main_v32 (F := Ideal) (a0 m c) (a3 m c) := by
  refine (St4_arr m ρ c 2).trans ((arr0_eq (At3 m ρ) c).trans ?_)
  have h0 : At3 m ρ c main_arg0 = a0 m c := ((St3_keep m ρ c main_arg0 (by decide)).trans <| (St2_keep m ρ c main_arg0 (by decide)).trans <| (St1_keep m ρ c main_arg0 (by decide)).trans <| rfl)
  have h1 : At3 m ρ c main_arg3 = a3 m c := ((St3_keep m ρ c main_arg3 (by decide)).trans <| (St2_keep m ρ c main_arg3 (by decide)).trans <| (St1_keep m ρ c main_arg3 (by decide)).trans <| rfl)
  rw [h0, h1]
  rfl
/-- The first aggregation: the projected rows gathered at the sources, scaled by the normalisation, summed at the targets. -/
theorem agg1_eq : St5 m ρ c (Proc.devRef .tc main_v45) = val_main_v45 (F := Ideal) (a0 m c) (a1 m c) (a3 m c) := by
  show StableHlo.after hostOps1 (St4 m ρ c) (Proc.devRef .tc main_v45) = _
  after_results_simp
  have h0 : St4 m ρ c (Proc.devRef .tc main_v32) = val_main_v32 (F := Ideal) (a0 m c) (a3 m c) := proj1_eq m ρ c
  have h1 : St4 m ρ c (Proc.devRef .tc main_v5) = val_main_v5 (F := Ideal) (a1 m c) := ((St4_keep m ρ c main_v5 (by decide)).trans <| srcAll_eq m ρ c)
  have h2 : St4 m ρ c (Proc.devRef .tc main_v6) = val_main_v6 (F := Ideal) (a1 m c) := ((St4_keep m ρ c main_v6 (by decide)).trans <| dstAll_eq m ρ c)
  have h3 : St4 m ρ c (Proc.devRef .tc main_v31) = val_main_v31 (F := Ideal) (a1 m c) := ((St4_keep m ρ c main_v31 (by decide)).trans <| norm_eq m ρ c)
  rw [h0, h1, h2, h3]
  rfl
/-- The first bias as a row. -/
theorem biasRow1_eq : St5 m ρ c (Proc.devRef .tc main_v46) = val_main_v46 (F := Ideal) (a4 m c) := by
  show StableHlo.after hostOps1 (St4 m ρ c) (Proc.devRef .tc main_v46) = _
  after_results_simp
  have h0 : St4 m ρ c (Proc.devRef .tc main_arg4) = a4 m c := ((St4_keep m ρ c main_arg4 (by decide)).trans <| (St3_keep m ρ c main_arg4 (by decide)).trans <| (St2_keep m ρ c main_arg4 (by decide)).trans <| (St1_keep m ρ c main_arg4 (by decide)).trans <| rfl)
  rw [h0]
  exact biasRow256 (F := Ideal) _
/-- The first activation: the aggregation plus the bias, negative entries replaced by zero. -/
theorem act1_eq : St6 m ρ c (Proc.devRef .tc main_v47) = val_main_v49 (F := Ideal) (a0 m c) (a1 m c) (a3 m c) (a4 m c) := by
  refine (St6_arr m ρ c 2).trans ((arr1_eq (At5 m ρ) c).trans ?_)
  have h0 : At5 m ρ c main_v45 = val_main_v45 (F := Ideal) (a0 m c) (a1 m c) (a3 m c) := agg1_eq m ρ c
  have h1 : At5 m ρ c main_v46 = val_main_v46 (F := Ideal) (a4 m c) := biasRow1_eq m ρ c
  rw [h0, h1]
  rfl

/-! ## The second layer -/

/-- The second projection: the first activation times the second weight matrix. -/
theorem proj2_eq : St7 m ρ c (Proc.devRef .tc main_v48) = val_main_v50 (F := Ideal) (a0 m c) (a1 m c) (a3 m c) (a4 m c) (a5 m c) := by
  refine (St7_arr m ρ c 2).trans ((arr2_eq (At6 m ρ) c).trans ?_)
  have h0 : At6 m ρ c main_v47 = val_main_v49 (F := Ideal) (a0 m c) (a1 m c) (a3 m c) (a4 m c) := act1_eq m ρ c
  have h1 : At6 m ρ c main_arg5 = a5 m c := ((St6_keep m ρ c main_arg5 (by decide)).trans <| (St5_keep m ρ c main_arg5 (by decide)).trans <| (St4_keep m ρ c main_arg5 (by decide)).trans <| (St3_keep m ρ c main_arg5 (by decide)).trans <| (St2_keep m ρ c main_arg5 (by decide)).trans <| (St1_keep m ρ c main_arg5 (by decide)).trans <| rfl)
  rw [h0, h1]
  rfl
/-- The second aggregation. -/
theorem agg2_eq : St8 m ρ c (Proc.devRef .tc main_v61) = val_main_v63 (F := Ideal) (a0 m c) (a1 m c) (a3 m c) (a4 m c) (a5 m c) := by
  show StableHlo.after hostOps3 (St7 m ρ c) (Proc.devRef .tc main_v61) = _
  after_results_simp
  have h0 : St7 m ρ c (Proc.devRef .tc main_v48) = val_main_v50 (F := Ideal) (a0 m c) (a1 m c) (a3 m c) (a4 m c) (a5 m c) := proj2_eq m ρ c
  have h1 : St7 m ρ c (Proc.devRef .tc main_v5) = val_main_v5 (F := Ideal) (a1 m c) := ((St7_keep m ρ c main_v5 (by decide)).trans <| (St6_keep m ρ c main_v5 (by decide)).trans <| (St5_keep m ρ c main_v5 (by decide)).trans <| (St4_keep m ρ c main_v5 (by decide)).trans <| srcAll_eq m ρ c)
  have h2 : St7 m ρ c (Proc.devRef .tc main_v6) = val_main_v6 (F := Ideal) (a1 m c) := ((St7_keep m ρ c main_v6 (by decide)).trans <| (St6_keep m ρ c main_v6 (by decide)).trans <| (St5_keep m ρ c main_v6 (by decide)).trans <| (St4_keep m ρ c main_v6 (by decide)).trans <| dstAll_eq m ρ c)
  have h3 : St7 m ρ c (Proc.devRef .tc main_v31) = val_main_v31 (F := Ideal) (a1 m c) := ((St7_keep m ρ c main_v31 (by decide)).trans <| (St6_keep m ρ c main_v31 (by decide)).trans <| (St5_keep m ρ c main_v31 (by decide)).trans <| (St4_keep m ρ c main_v31 (by decide)).trans <| norm_eq m ρ c)
  rw [h0, h1, h2, h3]
  rfl
/-- The second bias as a row. -/
theorem biasRow2_eq : St8 m ρ c (Proc.devRef .tc main_v62) = val_main_v64 (F := Ideal) (a6 m c) := by
  show StableHlo.after hostOps3 (St7 m ρ c) (Proc.devRef .tc main_v62) = _
  after_results_simp
  have h0 : St7 m ρ c (Proc.devRef .tc main_arg6) = a6 m c := ((St7_keep m ρ c main_arg6 (by decide)).trans <| (St6_keep m ρ c main_arg6 (by decide)).trans <| (St5_keep m ρ c main_arg6 (by decide)).trans <| (St4_keep m ρ c main_arg6 (by decide)).trans <| (St3_keep m ρ c main_arg6 (by decide)).trans <| (St2_keep m ρ c main_arg6 (by decide)).trans <| (St1_keep m ρ c main_arg6 (by decide)).trans <| rfl)
  rw [h0]
  exact biasRow128 (F := Ideal) _
/-- The second activation. -/
theorem act2_eq : St9 m ρ c (Proc.devRef .tc main_v63) = val_main_v67 (F := Ideal) (a0 m c) (a1 m c) (a3 m c) (a4 m c) (a5 m c) (a6 m c) := by
  refine (St9_arr m ρ c 2).trans ((arr3_eq (At8 m ρ) c).trans ?_)
  have h0 : At8 m ρ c main_v61 = val_main_v63 (F := Ideal) (a0 m c) (a1 m c) (a3 m c) (a4 m c) (a5 m c) := agg2_eq m ρ c
  have h1 : At8 m ρ c main_v62 = val_main_v64 (F := Ideal) (a6 m c) := biasRow2_eq m ρ c
  rw [h0, h1]
  rfl

/-! ## The node network -/

/-- The node network's first bias as a row. -/
theorem nodeBias1_eq : St10 m ρ c (Proc.devRef .tc main_v64) = val_main_v69 (F := Ideal) (a8 m c) := by
  show StableHlo.after hostOps4 (St9 m ρ c) (Proc.devRef .tc main_v64) = _
  after_results_simp
  have h0 : St9 m ρ c (Proc.devRef .tc main_arg8) = a8 m c := ((St9_keep m ρ c main_arg8 (by decide)).trans <| (St8_keep m ρ c main_arg8 (by decide)).trans <| (St7_keep m ρ c main_arg8 (by decide)).trans <| (St6_keep m ρ c main_arg8 (by decide)).trans <| (St5_keep m ρ c main_arg8 (by decide)).trans <| (St4_keep m ρ c main_arg8 (by decide)).trans <| (St3_keep m ρ c main_arg8 (by decide)).trans <| (St2_keep m ρ c main_arg8 (by decide)).trans <| (St1_keep m ρ c main_arg8 (by decide)).trans <| rfl)
  rw [h0]
  exact biasRow256 (F := Ideal) _
/-- The node network's second bias as a row. -/
theorem nodeBias2_eq : St10 m ρ c (Proc.devRef .tc main_v65) = val_main_v74 (F := Ideal) (a10 m c) := by
  show StableHlo.after hostOps4 (St9 m ρ c) (Proc.devRef .tc main_v65) = _
  after_results_simp
  have h0 : St9 m ρ c (Proc.devRef .tc main_arg10) = a10 m c := ((St9_keep m ρ c main_arg10 (by decide)).trans <| (St8_keep m ρ c main_arg10 (by decide)).trans <| (St7_keep m ρ c main_arg10 (by decide)).trans <| (St6_keep m ρ c main_arg10 (by decide)).trans <| (St5_keep m ρ c main_arg10 (by decide)).trans <| (St4_keep m ρ c main_arg10 (by decide)).trans <| (St3_keep m ρ c main_arg10 (by decide)).trans <| (St2_keep m ρ c main_arg10 (by decide)).trans <| (St1_keep m ρ c main_arg10 (by decide)).trans <| rfl)
  rw [h0]
  exact biasRow128 (F := Ideal) _
/-- The node output: two dense layers with the rectifier between them, on the second activation. -/
theorem nodeOut_eq : St11 m ρ c (Proc.devRef .tc main_v66) = val_main_v76 (F := Ideal) (a0 m c) (a1 m c) (a3 m c) (a4 m c) (a5 m c) (a6 m c) (a7 m c) (a8 m c) (a9 m c) (a10 m c) := by
  refine (St11_arr m ρ c 5).trans ((arr4_eq (At10 m ρ) c).trans ?_)
  have h0 : At10 m ρ c main_v63 = val_main_v67 (F := Ideal) (a0 m c) (a1 m c) (a3 m c) (a4 m c) (a5 m c) (a6 m c) := ((St10_keep m ρ c main_v63 (by decide)).trans <| act2_eq m ρ c)
  have h1 : At10 m ρ c main_arg7 = a7 m c := ((St10_keep m ρ c main_arg7 (by decide)).trans <| (St9_keep m ρ c main_arg7 (by decide)).trans <| (St8_keep m ρ c main_arg7 (by decide)).trans <| (St7_keep m ρ c main_arg7 (by decide)).trans <| (St6_keep m ρ c main_arg7 (by decide)).trans <| (St5_keep m ρ c main_arg7 (by decide)).trans <| (St4_keep m ρ c main_arg7 (by decide)).trans <| (St3_keep m ρ c main_arg7 (by decide)).trans <| (St2_keep m ρ c main_arg7 (by decide)).trans <| (St1_keep m ρ c main_arg7 (by decide)).trans <| rfl)
  have h2 : At10 m ρ c main_v64 = val_main_v69 (F := Ideal) (a8 m c) := nodeBias1_eq m ρ c
  have h3 : At10 m ρ c main_arg9 = a9 m c := ((St10_keep m ρ c main_arg9 (by decide)).trans <| (St9_keep m ρ c main_arg9 (by decide)).trans <| (St8_keep m ρ c main_arg9 (by decide)).trans <| (St7_keep m ρ c main_arg9 (by decide)).trans <| (St6_keep m ρ c main_arg9 (by decide)).trans <| (St5_keep m ρ c main_arg9 (by decide)).trans <| (St4_keep m ρ c main_arg9 (by decide)).trans <| (St3_keep m ρ c main_arg9 (by decide)).trans <| (St2_keep m ρ c main_arg9 (by decide)).trans <| (St1_keep m ρ c main_arg9 (by decide)).trans <| rfl)
  have h4 : At10 m ρ c main_v65 = val_main_v74 (F := Ideal) (a10 m c) := nodeBias2_eq m ρ c
  rw [h0, h1, h2, h3, h4]
  rfl

/-! ## The edge network -/

set_option maxHeartbeats 8000000 in
/-- The edge network's input: per edge, the node outputs at its source and at its target beside the edge's own attributes. -/
theorem edgeIn_eq : St12 m ρ c (Proc.devRef .tc main_v81) = val_main_v91 (F := Ideal) (a0 m c) (a1 m c) (a2 m c) (a3 m c) (a4 m c) (a5 m c) (a6 m c) (a7 m c) (a8 m c) (a9 m c) (a10 m c) := by
  show StableHlo.after hostOps5 (St11 m ρ c) (Proc.devRef .tc main_v81) = _
  -- the stretch read operation by operation; the concatenation of three operands by its own lemma, so that its operands stay
  -- at literal references
  simp only [after_cons, after_nil]
  repeat (first
    | rw [nullary_result] | rw [unary_result] | rw [binary_result] | rw [ternary_result] | rw [reshape_result] | rw [nary3_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide)
    | (rw [nary_result_ne]; rotate_left; decide))
  have h0 : St11 m ρ c (Proc.devRef .tc main_v66) = val_main_v76 (F := Ideal) (a0 m c) (a1 m c) (a3 m c) (a4 m c) (a5 m c) (a6 m c) (a7 m c) (a8 m c) (a9 m c) (a10 m c) := nodeOut_eq m ρ c
  have h1 : St11 m ρ c (Proc.devRef .tc main_v1) = val_main_v1 (F := Ideal) (a1 m c) := ((St11_keep m ρ c main_v1 (by decide)).trans <| (St10_keep m ρ c main_v1 (by decide)).trans <| (St9_keep m ρ c main_v1 (by decide)).trans <| (St8_keep m ρ c main_v1 (by decide)).trans <| (St7_keep m ρ c main_v1 (by decide)).trans <| (St6_keep m ρ c main_v1 (by decide)).trans <| (St5_keep m ρ c main_v1 (by decide)).trans <| (St4_keep m ρ c main_v1 (by decide)).trans <| srcEdge_eq m ρ c)
  have h2 : St11 m ρ c (Proc.devRef .tc main_v3) = val_main_v3 (F := Ideal) (a1 m c) := ((St11_keep m ρ c main_v3 (by decide)).trans <| (St10_keep m ρ c main_v3 (by decide)).trans <| (St9_keep m ρ c main_v3 (by decide)).trans <| (St8_keep m ρ c main_v3 (by decide)).trans <| (St7_keep m ρ c main_v3 (by decide)).trans <| (St6_keep m ρ c main_v3 (by decide)).trans <| (St5_keep m ρ c main_v3 (by decide)).trans <| (St4_keep m ρ c main_v3 (by decide)).trans <| dstEdge_eq m ρ c)
  have h3 : St11 m ρ c (Proc.devRef .tc main_arg2) = a2 m c := ((St11_keep m ρ c main_arg2 (by decide)).trans <| (St10_keep m ρ c main_arg2 (by decide)).trans <| (St9_keep m ρ c main_arg2 (by decide)).trans <| (St8_keep m ρ c main_arg2 (by decide)).trans <| (St7_keep m ρ c main_arg2 (by decide)).trans <| (St6_keep m ρ c main_arg2 (by decide)).trans <| (St5_keep m ρ c main_arg2 (by decide)).trans <| (St4_keep m ρ c main_arg2 (by decide)).trans <| (St3_keep m ρ c main_arg2 (by decide)).trans <| (St2_keep m ρ c main_arg2 (by decide)).trans <| (St1_keep m ρ c main_arg2 (by decide)).trans <| rfl)
  rw [h0, h1, h2, h3]
  rfl
/-- The edge network's first bias as a row. -/
theorem edgeBias1_eq : St12 m ρ c (Proc.devRef .tc main_v82) = val_main_v93 (F := Ideal) (a12 m c) := by
  show StableHlo.after hostOps5 (St11 m ρ c) (Proc.devRef .tc main_v82) = _
  after_results_simp
  have h0 : St11 m ρ c (Proc.devRef .tc main_arg12) = a12 m c := ((St11_keep m ρ c main_arg12 (by decide)).trans <| (St10_keep m ρ c main_arg12 (by decide)).trans <| (St9_keep m ρ c main_arg12 (by decide)).trans <| (St8_keep m ρ c main_arg12 (by decide)).trans <| (St7_keep m ρ c main_arg12 (by decide)).trans <| (St6_keep m ρ c main_arg12 (by decide)).trans <| (St5_keep m ρ c main_arg12 (by decide)).trans <| (St4_keep m ρ c main_arg12 (by decide)).trans <| (St3_keep m ρ c main_arg12 (by decide)).trans <| (St2_keep m ρ c main_arg12 (by decide)).trans <| (St1_keep m ρ c main_arg12 (by decide)).trans <| rfl)
  rw [h0]
  exact biasRow256 (F := Ideal) _
/-- The edge network's second bias as a row. -/
theorem edgeBias2_eq : St12 m ρ c (Proc.devRef .tc main_v83) = val_main_v98 (F := Ideal) (a14 m c) := by
  show StableHlo.after hostOps5 (St11 m ρ c) (Proc.devRef .tc main_v83) = _
  after_results_simp
  have h0 : St11 m ρ c (Proc.devRef .tc main_arg14) = a14 m c := ((St11_keep m ρ c main_arg14 (by decide)).trans <| (St10_keep m ρ c main_arg14 (by decide)).trans <| (St9_keep m ρ c main_arg14 (by decide)).trans <| (St8_keep m ρ c main_arg14 (by decide)).trans <| (St7_keep m ρ c main_arg14 (by decide)).trans <| (St6_keep m ρ c main_arg14 (by decide)).trans <| (St5_keep m ρ c main_arg14 (by decide)).trans <| (St4_keep m ρ c main_arg14 (by decide)).trans <| (St3_keep m ρ c main_arg14 (by decide)).trans <| (St2_keep m ρ c main_arg14 (by decide)).trans <| (St1_keep m ρ c main_arg14 (by decide)).trans <| rfl)
  rw [h0]
  exact biasRow16 (F := Ideal) _
/-- The edge output: two dense layers with the rectifier between them, on the edge network's input. -/
theorem edgeOut_eq : St13 m ρ c (Proc.devRef .tc main_v84) = val_main_v100 (F := Ideal) (a0 m c) (a1 m c) (a2 m c) (a3 m c) (a4 m c) (a5 m c) (a6 m c) (a7 m c) (a8 m c) (a9 m c) (a10 m c) (a11 m c) (a12 m c) (a13 m c) (a14 m c) := by
  refine (St13_arr m ρ c 5).trans ((arr5_eq (At12 m ρ) c).trans ?_)
  have h0 : At12 m ρ c main_v81 = val_main_v91 (F := Ideal) (a0 m c) (a1 m c) (a2 m c) (a3 m c) (a4 m c) (a5 m c) (a6 m c) (a7 m c) (a8 m c) (a9 m c) (a10 m c) := edgeIn_eq m ρ c
  have h1 : At12 m ρ c main_arg11 = a11 m c := ((St12_keep m ρ c main_arg11 (by decide)).trans <| (St11_keep m ρ c main_arg11 (by decide)).trans <| (St10_keep m ρ c main_arg11 (by decide)).trans <| (St9_keep m ρ c main_arg11 (by decide)).trans <| (St8_keep m ρ c main_arg11 (by decide)).trans <| (St7_keep m ρ c main_arg11 (by decide)).trans <| (St6_keep m ρ c main_arg11 (by decide)).trans <| (St5_keep m ρ c main_arg11 (by decide)).trans <| (St4_keep m ρ c main_arg11 (by decide)).trans <| (St3_keep m ρ c main_arg11 (by decide)).trans <| (St2_keep m ρ c main_arg11 (by decide)).trans <| (St1_keep m ρ c main_arg11 (by decide)).trans <| rfl)
  have h2 : At12 m ρ c main_v82 = val_main_v93 (F := Ideal) (a12 m c) := edgeBias1_eq m ρ c
  have h3 : At12 m ρ c main_arg13 = a13 m c := ((St12_keep m ρ c main_arg13 (by decide)).trans <| (St11_keep m ρ c main_arg13 (by decide)).trans <| (St10_keep m ρ c main_arg13 (by decide)).trans <| (St9_keep m ρ c main_arg13 (by decide)).trans <| (St8_keep m ρ c main_arg13 (by decide)).trans <| (St7_keep m ρ c main_arg13 (by decide)).trans <| (St6_keep m ρ c main_arg13 (by decide)).trans <| (St5_keep m ρ c main_arg13 (by decide)).trans <| (St4_keep m ρ c main_arg13 (by decide)).trans <| (St3_keep m ρ c main_arg13 (by decide)).trans <| (St2_keep m ρ c main_arg13 (by decide)).trans <| (St1_keep m ρ c main_arg13 (by decide)).trans <| rfl)
  have h4 : At12 m ρ c main_v83 = val_main_v98 (F := Ideal) (a14 m c) := edgeBias2_eq m ρ c
  rw [h0, h1, h2, h3, h4]
  rfl

/-- The node output is still there at the end: the edge network's items do not write it. -/
theorem nodeOut_end : St13 m ρ c (Proc.devRef .tc main_v66) = val_main_v76 (F := Ideal) (a0 m c) (a1 m c) (a3 m c) (a4 m c) (a5 m c) (a6 m c) (a7 m c) (a8 m c) (a9 m c) (a10 m c) :=
  (St13_keep m ρ c main_v66 (by decide)).trans <| (St12_keep m ρ c main_v66 (by decide)).trans <| nodeOut_eq m ρ c

end Cert.KernelIdeal.Layers

end
-- ==== Proof.lean ====
/-
  The certificate of a two-layer graph convolution followed by a node network and an edge network, written as six kernel
  regions among host operations, against the same computation written with whole-array host operations only.

  Both programs build, from the edge list, the endpoints with one self-loop per node appended, every node's degree (a
  scatter of ones), its inverse square root where the degree is positive, and each edge's normalisation (the product of
  its endpoints' factors); then twice: project the node features by a weight matrix, gather the projected rows at the
  sources, scale by the normalisation, scatter-add at the targets, add a bias, replace negative entries by zero; then a
  dense layer, the rectifier and a second dense layer give the node output; its rows gathered at each edge's source and
  target, beside the edge's attributes, go through another such pair of layers and give the edge output.

  The kernel program does the four matrix products, the two bias-and-rectifier steps and the two pairs of dense layers in
  regions that handle 2000 rows (4000 for the edges) per grid point; at the ideal instance, where a change of float format
  is the identity and every operation exact, each region's output array is the reference's operation of the region's input
  arrays — entry (r, q) of a product is the same sum over k of x (r, k) · w (k, q) on both sides, in the same order, so no
  law of the extended reals beyond that is used and the inputs' finiteness is never opened. Everything between the regions is
  the reference's own host operations on buffers already identified.

  `frame_Kernel` and `frame_KernelIdeal`: the run of the program through its thirteen items with every buffer named at every
  boundary (the run modules), the arguments walked back to the launch. `frame_ReferenceIdeal`: the reference's run read back.
  `preserves_Kernel_KernelIdeal`: the idealisation rewrote nothing. `algebraic_KernelIdeal_ReferenceIdeal`: the two results
  are what the kernel program's last boundary holds, which is the reference's last stages of the same arguments.
-/
import proofs.«138351_j90890097918029_1_alg».proof.Defs
import proofs.«138351_j90890097918029_1_alg».proof.Proof.Gen.Kernel
import proofs.«138351_j90890097918029_1_alg».proof.Proof.Gen.KernelIdeal
import proofs.«138351_j90890097918029_1_alg».proof.Proof.Gen.ReferenceIdeal
import proofs.«138351_j90890097918029_1_alg».proof.Proof.Gen.Pre_finite_inputs
import proofs.«138351_j90890097918029_1_alg».proof.Proof.Words.LayersRun
import proofs.«138351_j90890097918029_1_alg».proof.Proof.LayersRun
import proofs.«138351_j90890097918029_1_alg».proof.Proof.LayersValue
import proofs.«138351_j90890097918029_1_alg».proof.Proof.ReferenceRun
import proofs.«138351_j90890097918029_1_alg».proof.Proof.ReferenceRead
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its fifteen argument arrays as launched. -/
theorem frame_words : Cert.frame_Kernel (hKernel := Cert.Kernel.Gen.facts) (hPre_finite_inputs := Cert.Pre_finite_inputs.Gen.facts) :=
  fun m ρ _ => Cert.Kernel.Layers.frame m ρ

/-- The same at the ideal instance. -/
theorem frame_ideal : Cert.frame_KernelIdeal (hKernelIdeal := Cert.KernelIdeal.Gen.facts) (hPre_finite_inputs := Cert.Pre_finite_inputs.Gen.facts) :=
  fun m ρ _ => Cert.KernelIdeal.Layers.frame m ρ

/-- The reference's run, its two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both programs end with the same node output and the same edge output: what the
    kernel program's last boundary holds at its two result buffers is the reference's last stages of the launch arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layers.St13 m ρ c (Proc.devRef .tc Cert.KernelIdeal.main_v66),
    fun c => Cert.KernelIdeal.Layers.St13 m ρ c (Proc.devRef .tc Cert.KernelIdeal.main_v84), ?_, ?_⟩
  · exact (θ_run Cert.KernelIdeal.defs _ _).mono (fun _ h c =>
      ⟨h c _ (Cert.KernelIdeal.Layers.mem_unscoped Cert.KernelIdeal.main_v66 (by decide)),
        h c _ (Cert.KernelIdeal.Layers.mem_unscoped Cert.KernelIdeal.main_v84 (by decide)),
        (h c _ (Cert.KernelIdeal.Layers.mem_unscoped Cert.KernelIdeal.main_arg0 (by decide))).trans (Cert.KernelIdeal.Layers.St13_main_arg0 m ρ c),
        (h c _ (Cert.KernelIdeal.Layers.mem_unscoped Cert.KernelIdeal.main_arg1 (by decide))).trans (Cert.KernelIdeal.Layers.St13_main_arg1 m ρ c),
        (h c _ (Cert.KernelIdeal.Layers.mem_unscoped Cert.KernelIdeal.main_arg2 (by decide))).trans (Cert.KernelIdeal.Layers.St13_main_arg2 m ρ c),
        (h c _ (Cert.KernelIdeal.Layers.mem_unscoped Cert.KernelIdeal.main_arg3 (by decide))).trans (Cert.KernelIdeal.Layers.St13_main_arg3 m ρ c),
        (h c _ (Cert.KernelIdeal.Layers.mem_unscoped Cert.KernelIdeal.main_arg4 (by decide))).trans (Cert.KernelIdeal.Layers.St13_main_arg4 m ρ c),
        (h c _ (Cert.KernelIdeal.Layers.mem_unscoped Cert.KernelIdeal.main_arg5 (by decide))).trans (Cert.KernelIdeal.Layers.St13_main_arg5 m ρ c),
        (h c _ (Cert.KernelIdeal.Layers.mem_unscoped Cert.KernelIdeal.main_arg6 (by decide))).trans (Cert.KernelIdeal.Layers.St13_main_arg6 m ρ c),
        (h c _ (Cert.KernelIdeal.Layers.mem_unscoped Cert.KernelIdeal.main_arg7 (by decide))).trans (Cert.KernelIdeal.Layers.St13_main_arg7 m ρ c),
        (h c _ (Cert.KernelIdeal.Layers.mem_unscoped Cert.KernelIdeal.main_arg8 (by decide))).trans (Cert.KernelIdeal.Layers.St13_main_arg8 m ρ c),
        (h c _ (Cert.KernelIdeal.Layers.mem_unscoped Cert.KernelIdeal.main_arg9 (by decide))).trans (Cert.KernelIdeal.Layers.St13_main_arg9 m ρ c),
        (h c _ (Cert.KernelIdeal.Layers.mem_unscoped Cert.KernelIdeal.main_arg10 (by decide))).trans (Cert.KernelIdeal.Layers.St13_main_arg10 m ρ c),
        (h c _ (Cert.KernelIdeal.Layers.mem_unscoped Cert.KernelIdeal.main_arg11 (by decide))).trans (Cert.KernelIdeal.Layers.St13_main_arg11 m ρ c),
        (h c _ (Cert.KernelIdeal.Layers.mem_unscoped Cert.KernelIdeal.main_arg12 (by decide))).trans (Cert.KernelIdeal.Layers.St13_main_arg12 m ρ c),
        (h c _ (Cert.KernelIdeal.Layers.mem_unscoped Cert.KernelIdeal.main_arg13 (by decide))).trans (Cert.KernelIdeal.Layers.St13_main_arg13 m ρ c),
        (h c _ (Cert.KernelIdeal.Layers.mem_unscoped Cert.KernelIdeal.main_arg14 (by decide))).trans (Cert.KernelIdeal.Layers.St13_main_arg14 m ρ c)⟩)
      (Cert.KernelIdeal.Layers.run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14⟩ := hagree c
      rw [Cert.ReferenceIdeal.Read.val_main_v76_eq, e0, e1, e3, e4, e5, e6, e7, e8, e9, e10]
      exact (Cert.KernelIdeal.Layers.nodeOut_end m ρ c).symm
    · obtain ⟨e0, e1, e2, e3, e4, e5, e6, e7, e8, e9, e10, e11, e12, e13, e14⟩ := hagree c
      rw [Cert.ReferenceIdeal.Read.val_main_v100_eq, e0, e1, e2, e3, e4, e5, e6, e7, e8, e9, e10, e11, e12, e13, e14]
      exact (Cert.KernelIdeal.Layers.edgeOut_eq m ρ c).symm

theorem claim : Cert.Claim := ⟨Cert.Kernel.Gen.facts, Cert.KernelIdeal.Gen.facts, Cert.ReferenceIdeal.Gen.facts, Cert.Pre_finite_inputs.Gen.facts,
  frame_words, frame_ideal, frame_reference, trivial, algebraic⟩

end Cert.Proof

end
